-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x50 : Shape := ⟨2, ![100000, 50]⟩
abbrev S2x1600000 : Shape := ⟨2, ![2, 1600000]⟩
abbrev S100000 : Shape := ⟨1, ![100000]⟩
abbrev S2x50x50 : Shape := ⟨3, ![2, 50, 50]⟩
abbrev S150x50 : Shape := ⟨2, ![150, 50]⟩
abbrev S150 : Shape := ⟨1, ![150]⟩
abbrev S6x50 : Shape := ⟨2, ![6, 50]⟩
abbrev S6 : Shape := ⟨1, ![6]⟩
abbrev S_ : Shape := ⟨0, ![]⟩

class Facts : Prop where
  bcast_S_S100000x50 : S_.BroadcastsInDim S100000x50 (![] : Fin 0 → Fin S100000x50.rank)
  reducesTo_S100000x50_S_d0_1 : S100000x50.ReducesTo [0, 1] S_
  h_S_ : 0 < S_.numel
  bcast_S_S2x50x50 : S_.BroadcastsInDim S2x50x50 (![] : Fin 0 → Fin S2x50x50.rank)
  reducesTo_S2x50x50_S_d0_1_2 : S2x50x50.ReducesTo [0, 1, 2] S_
  bcast_S_S150x50 : S_.BroadcastsInDim S150x50 (![] : Fin 0 → Fin S150x50.rank)
  reducesTo_S150x50_S_d0_1 : S150x50.ReducesTo [0, 1] S_
  bcast_S_S150 : S_.BroadcastsInDim S150 (![] : Fin 0 → Fin S150.rank)
  reducesTo_S150_S_d0 : S150.ReducesTo [0] S_
  bcast_S_S6x50 : S_.BroadcastsInDim S6x50 (![] : Fin 0 → Fin S6x50.rank)
  reducesTo_S6x50_S_d0_1 : S6x50.ReducesTo [0, 1] S_
  bcast_S_S6 : S_.BroadcastsInDim S6 (![] : Fin 0 → Fin S6.rank)
  reducesTo_S6_S_d0 : S6.ReducesTo [0] S_

variable [Facts]

def fn_part2 {F : FTy → Type} [FloatOps F] (main_arg9 : FVec F S6 .f32) (main_v33 : IVec S_ 1) : IVec S_ 1 :=
  let main_v34 : FVec F S6 .f32 := Host.absf main_arg9
  let main_cst_12 : FVec F S_ .f32 := constant S_ .f32 0x7F800000#32
  let main_v35 : FVec F S6 .f32 := broadcastInDim S6 ![] bcast_S_S6 main_cst_12
  let main_v36 : IVec S6 1 := cmpf .olt main_v34 main_v35
  let main_c_13 : IVec S_ 1 := constantI S_ 1 1#1
  let main_v37 : IVec S_ 1 := (fun x v => Host.reduce IntOp.andi x v reducesTo_S6_S_d0 h_S_) main_v36 main_c_13
  let main_v38 : IVec S_ 1 := andi main_v33 main_v37
  main_v38

def fn_part1 {F : FTy → Type} [FloatOps F] (main_arg6 : FVec F S150 .f32) (main_arg7 : FVec F S150 .f32) (main_arg8 : FVec F S6x50 .f32) (main_arg9 : FVec F S6 .f32) (main_v13 : IVec S_ 1) (main_v16 : IVec S150x50 1) : IVec S_ 1 :=
  let main_c_5 : IVec S_ 1 := constantI S_ 1 1#1
  let main_v17 : IVec S_ 1 := (fun x v => Host.reduce IntOp.andi x v reducesTo_S150x50_S_d0_1 h_S_) main_v16 main_c_5
  let main_v18 : IVec S_ 1 := andi main_v13 main_v17
  let main_v19 : FVec F S150 .f32 := Host.absf main_arg6
  let main_cst_6 : FVec F S_ .f32 := constant S_ .f32 0x7F800000#32
  let main_v20 : FVec F S150 .f32 := broadcastInDim S150 ![] bcast_S_S150 main_cst_6
  let main_v21 : IVec S150 1 := cmpf .olt main_v19 main_v20
  let main_c_7 : IVec S_ 1 := constantI S_ 1 1#1
  let main_v22 : IVec S_ 1 := (fun x v => Host.reduce IntOp.andi x v reducesTo_S150_S_d0 h_S_) main_v21 main_c_7
  let main_v23 : IVec S_ 1 := andi main_v18 main_v22
  let main_v24 : FVec F S150 .f32 := Host.absf main_arg7
  let main_cst_8 : FVec F S_ .f32 := constant S_ .f32 0x7F800000#32
  let main_v25 : FVec F S150 .f32 := broadcastInDim S150 ![] bcast_S_S150 main_cst_8
  let main_v26 : IVec S150 1 := cmpf .olt main_v24 main_v25
  let main_c_9 : IVec S_ 1 := constantI S_ 1 1#1
  let main_v27 : IVec S_ 1 := (fun x v => Host.reduce IntOp.andi x v reducesTo_S150_S_d0 h_S_) main_v26 main_c_9
  let main_v28 : IVec S_ 1 := andi main_v23 main_v27
  let main_v29 : FVec F S6x50 .f32 := Host.absf main_arg8
  let main_cst_10 : FVec F S_ .f32 := constant S_ .f32 0x7F800000#32
  let main_v30 : FVec F S6x50 .f32 := broadcastInDim S6x50 ![] bcast_S_S6x50 main_cst_10
  let main_v31 : IVec S6x50 1 := cmpf .olt main_v29 main_v30
  let main_c_11 : IVec S_ 1 := constantI S_ 1 1#1
  let main_v32 : IVec S_ 1 := (fun x v => Host.reduce IntOp.andi x v reducesTo_S6x50_S_d0_1 h_S_) main_v31 main_c_11
  let main_v33 : IVec S_ 1 := andi main_v28 main_v32
  fn_part2 (F := F) main_arg9 main_v33

def fn {F : FTy → Type} [FloatOps F] (main_arg0 : FVec F S100000x50 .f32) (main_arg1 : IVec S2x1600000 32) (main_arg2 : IVec S100000 32) (main_arg3 : FVec F S2x50x50 .f32) (main_arg4 : FVec F S150x50 .f32) (main_arg5 : FVec F S150x50 .f32) (main_arg6 : FVec F S150 .f32) (main_arg7 : FVec F S150 .f32) (main_arg8 : FVec F S6x50 .f32) (main_arg9 : FVec F S6 .f32) : IVec S_ 1 :=
  let main_v0 : FVec F S100000x50 .f32 := Host.absf main_arg0
  let main_cst : FVec F S_ .f32 := constant S_ .f32 0x7F800000#32
  let main_v1 : FVec F S100000x50 .f32 := broadcastInDim S100000x50 ![] bcast_S_S100000x50 main_cst
  let main_v2 : IVec S100000x50 1 := cmpf .olt main_v0 main_v1
  let main_c : IVec S_ 1 := constantI S_ 1 1#1
  let main_v3 : IVec S_ 1 := (fun x v => Host.reduce IntOp.andi x v reducesTo_S100000x50_S_d0_1 h_S_) main_v2 main_c
  let main_v4 : FVec F S2x50x50 .f32 := Host.absf main_arg3
  let main_cst_0 : FVec F S_ .f32 := constant S_ .f32 0x7F800000#32
  let main_v5 : FVec F S2x50x50 .f32 := broadcastInDim S2x50x50 ![] bcast_S_S2x50x50 main_cst_0
  let main_v6 : IVec S2x50x50 1 := cmpf .olt main_v4 main_v5
  let main_c_1 : IVec S_ 1 := constantI S_ 1 1#1
  let main_v7 : IVec S_ 1 := (fun x v => Host.reduce IntOp.andi x v reducesTo_S2x50x50_S_d0_1_2 h_S_) main_v6 main_c_1
  let main_v8 : IVec S_ 1 := andi main_v3 main_v7
  let main_v9 : FVec F S150x50 .f32 := Host.absf main_arg4
  let main_cst_2 : FVec F S_ .f32 := constant S_ .f32 0x7F800000#32
  let main_v10 : FVec F S150x50 .f32 := broadcastInDim S150x50 ![] bcast_S_S150x50 main_cst_2
  let main_v11 : IVec S150x50 1 := cmpf .olt main_v9 main_v10
  let main_c_3 : IVec S_ 1 := constantI S_ 1 1#1
  let main_v12 : IVec S_ 1 := (fun x v => Host.reduce IntOp.andi x v reducesTo_S150x50_S_d0_1 h_S_) main_v11 main_c_3
  let main_v13 : IVec S_ 1 := andi main_v8 main_v12
  let main_v14 : FVec F S150x50 .f32 := Host.absf main_arg5
  let main_cst_4 : FVec F S_ .f32 := constant S_ .f32 0x7F800000#32
  let main_v15 : FVec F S150x50 .f32 := broadcastInDim S150x50 ![] bcast_S_S150x50 main_cst_4
  let main_v16 : IVec S150x50 1 := cmpf .olt main_v14 main_v15
  fn_part1 (F := F) main_arg6 main_arg7 main_arg8 main_arg9 main_v13 main_v16
-- ==== Kernel.lean ====
abbrev S100000x50 : Shape := ⟨2, ![100000, 50]⟩
abbrev S2x1600000 : Shape := ⟨2, ![2, 1600000]⟩
abbrev S100000 : Shape := ⟨1, ![100000]⟩
abbrev S2x50x50 : Shape := ⟨3, ![2, 50, 50]⟩
abbrev S150x50 : Shape := ⟨2, ![150, 50]⟩
abbrev S150 : Shape := ⟨1, ![150]⟩
abbrev S6x50 : Shape := ⟨2, ![6, 50]⟩
abbrev S6 : Shape := ⟨1, ![6]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S50x150 : Shape := ⟨2, ![50, 150]⟩
abbrev S1x50x50 : Shape := ⟨3, ![1, 50, 50]⟩
abbrev S50x50 : Shape := ⟨2, ![50, 50]⟩
abbrev S2000x50 : Shape := ⟨2, ![2000, 50]⟩
abbrev S1600000x50 : Shape := ⟨2, ![1600000, 50]⟩
abbrev S2000x150 : Shape := ⟨2, ![2000, 150]⟩
abbrev S1x150 : Shape := ⟨2, ![1, 150]⟩
abbrev S1000 : Shape := ⟨1, ![1000]⟩
abbrev S1000x50 : Shape := ⟨2, ![1000, 50]⟩
abbrev S1000x1 : Shape := ⟨2, ![1000, 1]⟩
abbrev S50x6 : Shape := ⟨2, ![50, 6]⟩
abbrev S1000x6 : Shape := ⟨2, ![1000, 6]⟩
abbrev S1x6 : Shape := ⟨2, ![1, 6]⟩

abbrev nBuf : Space → Nat
  | .hbm => 82
  | .vmem => 34
  | .smem => 0
  | _ => 0

abbrev bufTy : (tb : Table) → Fin (tcTables nBuf tb) → BufTy
  | .hbm, ⟨0, _⟩ => ⟨S100000x50, .f32⟩
  | .hbm, ⟨1, _⟩ => ⟨S2x1600000, .i32⟩
  | .hbm, ⟨2, _⟩ => ⟨S100000, .i32⟩
  | .hbm, ⟨3, _⟩ => ⟨S2x50x50, .f32⟩
  | .hbm, ⟨4, _⟩ => ⟨S150x50, .f32⟩
  | .hbm, ⟨5, _⟩ => ⟨S150x50, .f32⟩
  | .hbm, ⟨6, _⟩ => ⟨S150, .f32⟩
  | .hbm, ⟨7, _⟩ => ⟨S150, .f32⟩
  | .hbm, ⟨8, _⟩ => ⟨S6x50, .f32⟩
  | .hbm, ⟨9, _⟩ => ⟨S6, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S50x150, .f32⟩
  | .hbm, ⟨25, _⟩ => ⟨S50x150, .f32⟩
  | .hbm, ⟨26, _⟩ => ⟨S1x50x50, .f32⟩
  | .hbm, ⟨27, _⟩ => ⟨S50x50, .f32⟩
  | .hbm, ⟨28, _⟩ => ⟨S100000x50, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x50, .f32⟩
  | .hbm, ⟨38, _⟩ => ⟨S_, .f32⟩
  | .hbm, ⟨39, _⟩ => ⟨S100000x50, .f32⟩
  | .hbm, ⟨40, _⟩ => ⟨S1600000x1, .i32⟩
  | .hbm, ⟨41, _⟩ => ⟨S100000x50, .f32⟩
  | .hbm, ⟨42, _⟩ => ⟨S100000x50, .f32⟩
  | .hbm, ⟨43, _⟩ => ⟨S100000x50, .f32⟩
  | .hbm, ⟨44, _⟩ => ⟨S100000x50, .f32⟩
  | .hbm, ⟨45, _⟩ => ⟨S1x50x50, .f32⟩
  | .hbm, ⟨46, _⟩ => ⟨S50x50, .f32⟩
  | .hbm, ⟨47, _⟩ => ⟨S100000x50, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x50, .f32⟩
  | .hbm, ⟨57, _⟩ => ⟨S_, .f32⟩
  | .hbm, ⟨58, _⟩ => ⟨S100000x50, .f32⟩
  | .hbm, ⟨59, _⟩ => ⟨S1600000x1, .i32⟩
  | .hbm, ⟨60, _⟩ => ⟨S100000x50, .f32⟩
  | .hbm, ⟨61, _⟩ => ⟨S100000x50, .f32⟩
  | .hbm, ⟨62, _⟩ => ⟨S100000x50, .f32⟩
  | .hbm, ⟨63, _⟩ => ⟨S100000x50, .f32⟩
  | .hbm, ⟨64, _⟩ => ⟨S_, .f32⟩
  | .hbm, ⟨65, _⟩ => ⟨S100000, .f32⟩
  | .hbm, ⟨66, _⟩ => ⟨S_, .f32⟩
  | .hbm, ⟨67, _⟩ => ⟨S1000, .f32⟩
  | .hbm, ⟨68, _⟩ => ⟨S100000x1, .i32⟩
  | .hbm, ⟨69, _⟩ => ⟨S1000, .f32⟩
  | .hbm, ⟨70, _⟩ => ⟨S_, .f32⟩
  | .hbm, ⟨71, _⟩ => ⟨S1000x50, .f32⟩
  | .hbm, ⟨72, _⟩ => ⟨S100000x1, .i32⟩
  | .hbm, ⟨73, _⟩ => ⟨S1000x50, .f32⟩
  | .hbm, ⟨74, _⟩ => ⟨S_, .f32⟩
  | .hbm, ⟨75, _⟩ => ⟨S1000, .f32⟩
  | .hbm, ⟨76, _⟩ => ⟨S1000, .f32⟩
  | .hbm, ⟨77, _⟩ => ⟨S1000x1, .f32⟩
  | .hbm, ⟨78, _⟩ => ⟨S1000x50, .f32⟩
  | .hbm, ⟨79, _⟩ => ⟨S1000x50, .f32⟩
  | .hbm, ⟨80, _⟩ => ⟨S50x6, .f32⟩
  | .hbm, ⟨81, _⟩ => ⟨S1000x6, .f32⟩
  | .local _ .vmem, ⟨0, _⟩ => ⟨S2000x50, .f32⟩
  | .local _ .vmem, ⟨1, _⟩ => ⟨S2000x50, .f32⟩
  | .local _ .vmem, ⟨2, _⟩ => ⟨S50x50, .f32⟩
  | .local _ .vmem, ⟨3, _⟩ => ⟨S2000x50, .f32⟩
  | .local _ .vmem, ⟨4, _⟩ => ⟨S2000x50, .f32⟩
  | .local _ .vmem, ⟨5, _⟩ => ⟨S2000x50, .f32⟩
  | .local _ .vmem, ⟨6, _⟩ => ⟨S2000x50, .f32⟩
  | .local _ .vmem, ⟨7, _⟩ => ⟨S2000x50, .f32⟩
  | .local _ .vmem, ⟨8, _⟩ => ⟨S2000x50, .f32⟩
  | .local _ .vmem, ⟨9, _⟩ => ⟨S50x150, .f32⟩
  | .local _ .vmem, ⟨10, _⟩ => ⟨S50x150, .f32⟩
  | .local _ .vmem, ⟨11, _⟩ => ⟨S150, .f32⟩
  | .local _ .vmem, ⟨12, _⟩ => ⟨S150, .f32⟩
  | .local _ .vmem, ⟨13, _⟩ => ⟨S2000x50, .f32⟩
  | .local _ .vmem, ⟨14, _⟩ => ⟨S2000x50, .f32⟩
  | .local _ .vmem, ⟨15, _⟩ => ⟨S2000x50, .f32⟩
  | .local _ .vmem, ⟨16, _⟩ => ⟨S2000x50, .f32⟩
  | .local _ .vmem, ⟨17, _⟩ => ⟨S50x50, .f32⟩
  | .local _ .vmem, ⟨18, _⟩ => ⟨S2000x50, .f32⟩
  | .local _ .vmem, ⟨19, _⟩ => ⟨S2000x50, .f32⟩
  | .local _ .vmem, ⟨20, _⟩ => ⟨S2000x50, .f32⟩
  | .local _ .vmem, ⟨21, _⟩ => ⟨S2000x50, .f32⟩
  | .local _ .vmem, ⟨22, _⟩ => ⟨S2000x50, .f32⟩
  | .local _ .vmem, ⟨23, _⟩ => ⟨S2000x50, .f32⟩
  | .local _ .vmem, ⟨24, _⟩ => ⟨S50x150, .f32⟩
  | .local _ .vmem, ⟨25, _⟩ => ⟨S50x150, .f32⟩
  | .local _ .vmem, ⟨26, _⟩ => ⟨S150, .f32⟩
  | .local _ .vmem, ⟨27, _⟩ => ⟨S150, .f32⟩
  | .local _ .vmem, ⟨28, _⟩ => ⟨S2000x50, .f32⟩
  | .local _ .vmem, ⟨29, _⟩ => ⟨S2000x50, .f32⟩
  | .local _ .vmem, ⟨30, _⟩ => ⟨S1000x50, .f32⟩
  | .local _ .vmem, ⟨31, _⟩ => ⟨S50x6, .f32⟩
  | .local _ .vmem, ⟨32, _⟩ => ⟨S6, .f32⟩
  | .local _ .vmem, ⟨33, _⟩ => ⟨S1000x6, .f32⟩
  | _, _ => ⟨S100000x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc4_stg0_0 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29
abbrev cc4_sem0_0 : DmaSem sig := 30
abbrev cc4_sem1_0 : DmaSem sig := 31
abbrev cc4_sem2_0 : DmaSem sig := 32
abbrev cc4_sem3_0 : DmaSem sig := 33

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S50x50 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x50 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x50 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x50 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S50x150 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S50x150 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S150 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S150 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x50 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x50 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S50x50 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x50 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x50 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x50 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S50x150 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S50x150 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S150 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S150 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x50 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1000x50 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S50x6 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S6 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1000x6 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  transposes_S150x50_S50x150_1_0 : S150x50.Transposes [1, 0] S50x150
  slices_S2x50x50_S1x50x50_0_0_0 : S2x50x50.Slices ![0, 0, 0] S1x50x50
  shapeCasts_S1x50x50_S50x50 : S1x50x50.ShapeCasts S50x50
  inb_S2000x50_S2000x50_0_0 : ∀ a, (![0, 0] : Fin 2 → Nat) a + S2000x50.size a ≤ S2000x50.size a
  h_S2000x50 : 0 < S2000x50.numel
  bitsLt_bf16_f32 : FTy.bits .bf16 < FTy.bits .f32
  inb_S50x50_S50x50_0_0 : ∀ a, (![0, 0] : Fin 2 → Nat) a + S50x50.size a ≤ S50x50.size a
  h_S50x50 : 0 < S50x50.numel
  shapeCasts_S50x50_S50x50 : S50x50.ShapeCasts S50x50
  bcast_S_S100000x50 : S_.BroadcastsInDim S100000x50 (![] : Fin 0 → Fin S100000x50.rank)
  bcast_S100000x1_S100000x50_0_1 : S100000x1.BroadcastsInDim S100000x50 (![0, 1] : Fin 2 → Fin S100000x50.rank)
  shapeCasts_S2000x50_S2000x50 : S2000x50.ShapeCasts S2000x50
  inb_S50x150_S50x150_0_0 : ∀ a, (![0, 0] : Fin 2 → Nat) a + S50x150.size a ≤ S50x150.size a
  h_S50x150 : 0 < S50x150.numel
  shapeCasts_S50x150_S50x150 : S50x150.ShapeCasts S50x150
  inb_S150_S150_0 : ∀ a, (![0] : Fin 1 → Nat) a + S150.size a ≤ S150.size a
  h_S150 : 0 < S150.numel
  shapeCasts_S150_S1x150 : S150.ShapeCasts S1x150
  broadcasts_S1x150_S2000x150 : S1x150.Broadcasts S2000x150
  slices_S2000x150_o0_0_S2000x50 : S2000x150.Slices ![0, 0] S2000x50
  slices_S2000x150_o0_50_S2000x50 : S2000x150.Slices ![0, 50] S2000x50
  slices_S2000x150_o0_100_S2000x50 : S2000x150.Slices ![0, 100] S2000x50
  slices_S2x50x50_S1x50x50_1_0_0 : S2x50x50.Slices ![1, 0, 0] S1x50x50
  bcast_S_S1000 : S_.BroadcastsInDim S1000 (![] : Fin 0 → Fin S1000.rank)
  bcast_S_S1000x50 : S_.BroadcastsInDim S1000x50 (![] : Fin 0 → Fin S1000x50.rank)
  bcast_S1000_S1000x1_0 : S1000.BroadcastsInDim S1000x1 (![0] : Fin 1 → Fin S1000x1.rank)
  bcast_S1000x1_S1000x50_0_1 : S1000x1.BroadcastsInDim S1000x50 (![0, 1] : Fin 2 → Fin S1000x50.rank)
  transposes_S6x50_S50x6_1_0 : S6x50.Transposes [1, 0] S50x6
  inb_S1000x50_S1000x50_0_0 : ∀ a, (![0, 0] : Fin 2 → Nat) a + S1000x50.size a ≤ S1000x50.size a
  h_S1000x50 : 0 < S1000x50.numel
  shapeCasts_S1000x50_S1000x50 : S1000x50.ShapeCasts S1000x50
  inb_S50x6_S50x6_0_0 : ∀ a, (![0, 0] : Fin 2 → Nat) a + S50x6.size a ≤ S50x6.size a
  h_S50x6 : 0 < S50x6.numel
  shapeCasts_S50x6_S50x6 : S50x6.ShapeCasts S50x6
  inb_S6_S6_0 : ∀ a, (![0] : Fin 1 → Nat) a + S6.size a ≤ S6.size a
  h_S6 : 0 < S6.numel
  shapeCasts_S6_S1x6 : S6.ShapeCasts S1x6
  broadcasts_S1x6_S1000x6 : S1x6.Broadcasts S1000x6
  reduces_S1000x6_S1000 : S1000x6.Reduces [1] S1000
  shapeCasts_S1000_S1000x1 : S1000.ShapeCasts S1000x1
  broadcasts_S1000x1_S1000x6 : S1000x1.Broadcasts S1000x6
  inb_S1000x6_S1000x6_0_0 : ∀ a, (![0, 0] : Fin 2 → Nat) a + S1000x6.size a ≤ S1000x6.size a
  h_S1000x6 : 0 < S1000x6.numel
  scatter_S100000_S1600000x1_S1600000_n_0_0_1_wf : ScatterDims.WF S100000 S1600000x1 S1600000 [] [0] [0] 1
  dot_S2000x50_S50x50_S2000x50_1_0_0_1_n_n_wf : DotDims.WF S2000x50 S50x50 S2000x50 [1] [0] [0] [1] [] []
  gather_S100000x50_S1600000x1_S1600000x50_1_0_n_n_0_1_150_wf : GatherDims.WF S100000x50 S1600000x1 S1600000x50 [1] [0] [] [0] [] 1 ![1, 50]
  scatter_S100000x50_S1600000x1_S1600000x50_1_0_0_1_wf : ScatterDims.WF S100000x50 S1600000x1 S1600000x50 [1] [0] [0] 1
  dot_S2000x50_S50x150_S2000x150_1_0_0_1_n_n_wf : DotDims.WF S2000x50 S50x150 S2000x150 [1] [0] [0] [1] [] []
  scatter_S1000_S100000x1_S100000_n_0_0_1_wf : ScatterDims.WF S1000 S100000x1 S100000 [] [0] [0] 1
  scatter_S1000x50_S100000x1_S100000x50_1_0_0_1_wf : ScatterDims.WF S1000x50 S100000x1 S100000x50 [1] [0] [0] 1
  dot_S1000x50_S50x6_S1000x6_1_0_0_1_n_n_wf : DotDims.WF S1000x50 S50x6 S1000x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x50.size a ≤ S100000x50.size a
  hwx0_0 : ∀ i : grid0.Coords, EltTy.bits .f32 = 32 ∨ (Rect.block (s := S100000x50) S2000x50.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S50x50.size a ≤ S50x50.size a
  hwx0_1 : ∀ i : grid0.Coords, EltTy.bits .f32 = 32 ∨ (Rect.block (s := S50x50) S50x50.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x50.size a ≤ S100000x50.size a
  hwx0_2 : ∀ i : grid0.Coords, EltTy.bits .f32 = 32 ∨ (Rect.block (s := S100000x50) S2000x50.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x50.size a ≤ S100000x50.size a
  hwx1_0 : ∀ i : grid1.Coords, EltTy.bits .f32 = 32 ∨ (Rect.block (s := S100000x50) S2000x50.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x50.size a ≤ S100000x50.size a
  hwx1_1 : ∀ i : grid1.Coords, EltTy.bits .f32 = 32 ∨ (Rect.block (s := S100000x50) S2000x50.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S50x150.size a ≤ S50x150.size a
  hwx1_2 : ∀ i : grid1.Coords, EltTy.bits .f32 = 32 ∨ (Rect.block (s := S50x150) S50x150.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S50x150.size a ≤ S50x150.size a
  hwx1_3 : ∀ i : grid1.Coords, EltTy.bits .f32 = 32 ∨ (Rect.block (s := S50x150) S50x150.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S150.size a ≤ S150.size a
  hwx1_4 : ∀ i : grid1.Coords, EltTy.bits .f32 = 32 ∨ (Rect.block (s := S150) S150.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S150.size a ≤ S150.size a
  hwx1_5 : ∀ i : grid1.Coords, EltTy.bits .f32 = 32 ∨ (Rect.block (s := S150) S150.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x50.size a ≤ S100000x50.size a
  hwx1_6 : ∀ i : grid1.Coords, EltTy.bits .f32 = 32 ∨ (Rect.block (s := S100000x50) S2000x50.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x50.size a ≤ S100000x50.size a
  hwx2_0 : ∀ i : grid2.Coords, EltTy.bits .f32 = 32 ∨ (Rect.block (s := S100000x50) S2000x50.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S50x50.size a ≤ S50x50.size a
  hwx2_1 : ∀ i : grid2.Coords, EltTy.bits .f32 = 32 ∨ (Rect.block (s := S50x50) S50x50.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x50.size a ≤ S100000x50.size a
  hwx2_2 : ∀ i : grid2.Coords, EltTy.bits .f32 = 32 ∨ (Rect.block (s := S100000x50) S2000x50.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x50.size a ≤ S100000x50.size a
  hwx3_0 : ∀ i : grid3.Coords, EltTy.bits .f32 = 32 ∨ (Rect.block (s := S100000x50) S2000x50.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x50.size a ≤ S100000x50.size a
  hwx3_1 : ∀ i : grid3.Coords, EltTy.bits .f32 = 32 ∨ (Rect.block (s := S100000x50) S2000x50.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S50x150.size a ≤ S50x150.size a
  hwx3_2 : ∀ i : grid3.Coords, EltTy.bits .f32 = 32 ∨ (Rect.block (s := S50x150) S50x150.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S50x150.size a ≤ S50x150.size a
  hwx3_3 : ∀ i : grid3.Coords, EltTy.bits .f32 = 32 ∨ (Rect.block (s := S50x150) S50x150.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S150.size a ≤ S150.size a
  hwx3_4 : ∀ i : grid3.Coords, EltTy.bits .f32 = 32 ∨ (Rect.block (s := S150) S150.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S150.size a ≤ S150.size a
  hwx3_5 : ∀ i : grid3.Coords, EltTy.bits .f32 = 32 ∨ (Rect.block (s := S150) S150.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x50.size a ≤ S100000x50.size a
  hwx3_6 : ∀ i : grid3.Coords, EltTy.bits .f32 = 32 ∨ (Rect.block (s := S100000x50) S2000x50.size (cc3_transform_6 i) (hinb3_6 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1000x50.size a ≤ S1000x50.size a
  hwx4_0 : ∀ i : grid4.Coords, EltTy.bits .f32 = 32 ∨ (Rect.block (s := S1000x50) S1000x50.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S50x6.size a ≤ S50x6.size a
  hwx4_1 : ∀ i : grid4.Coords, EltTy.bits .f32 = 32 ∨ (Rect.block (s := S50x6) S50x6.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S6.size a ≤ S6.size a
  hwx4_2 : ∀ i : grid4.Coords, EltTy.bits .f32 = 32 ∨ (Rect.block (s := S6) S6.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1000x6.size a ≤ S1000x6.size a
  hwx4_3 : ∀ i : grid4.Coords, EltTy.bits .f32 = 32 ∨ (Rect.block (s := S1000x6) S1000x6.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x50_S50x50_S2000x50_1_0_0_1_n_n : DotDims S2000x50 S50x50 S2000x50 where
  lhsContracting := [1]
  rhsContracting := [0]
  lhsNonContracting := [0]
  rhsNonContracting := [1]
  lhsBatch := []
  rhsBatch := []
  wf := dot_S2000x50_S50x50_S2000x50_1_0_0_1_n_n_wf
def gather_S100000x50_S1600000x1_S1600000x50_1_0_n_n_0_1_150 : GatherDims S100000x50 S1600000x1 S1600000x50 where
  offsetDims := [1]
  collapsedSliceDims := [0]
  operandBatchingDims := []
  startIndicesBatchingDims := []
  startIndexMap := [0]
  indexVectorDim := 1
  sliceSizes := ![1, 50]
  wf := gather_S100000x50_S1600000x1_S1600000x50_1_0_n_n_0_1_150_wf
def scatter_S100000x50_S1600000x1_S1600000x50_1_0_0_1 : ScatterDims S100000x50 S1600000x1 S1600000x50 where
  updateWindowDims := [1]
  insertedWindowDims := [0]
  scatterDimsToOperandDims := [0]
  indexVectorDim := 1
  wf := scatter_S100000x50_S1600000x1_S1600000x50_1_0_0_1_wf
def dot_S2000x50_S50x150_S2000x150_1_0_0_1_n_n : DotDims S2000x50 S50x150 S2000x150 where
  lhsContracting := [1]
  rhsContracting := [0]
  lhsNonContracting := [0]
  rhsNonContracting := [1]
  lhsBatch := []
  rhsBatch := []
  wf := dot_S2000x50_S50x150_S2000x150_1_0_0_1_n_n_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def scatter_S1000x50_S100000x1_S100000x50_1_0_0_1 : ScatterDims S1000x50 S100000x1 S100000x50 where
  updateWindowDims := [1]
  insertedWindowDims := [0]
  scatterDimsToOperandDims := [0]
  indexVectorDim := 1
  wf := scatter_S1000x50_S100000x1_S100000x50_1_0_0_1_wf
def dot_S1000x50_S50x6_S1000x6_1_0_0_1_n_n : DotDims S1000x50 S50x6 S1000x6 where
  lhsContracting := [1]
  rhsContracting := [0]
  lhsNonContracting := [0]
  rhsNonContracting := [1]
  lhsBatch := []
  rhsBatch := []
  wf := dot_S1000x50_S50x6_S1000x6_1_0_0_1_n_n_wf

abbrev win0_0 : Pipeline.Window sig grid0 :=
  Pipeline.Window.ofSpec (Memref.whole main_arg0) S2000x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S50x50.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x50.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v27) S2000x50.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x50.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S50x150.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S50x150.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S150.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S150.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S2000x50.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v28) S2000x50.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S50x50.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S2000x50.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v43) S2000x50.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S2000x50.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S50x150.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v12) S50x150.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg6) S150.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg7) S150.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v44) S2000x50.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v56) S1000x50.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v57) S50x6.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S6.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v58) S1000x6.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x50 : Shape := ⟨2, ![100000, 50]⟩
abbrev S2x1600000 : Shape := ⟨2, ![2, 1600000]⟩
abbrev S100000 : Shape := ⟨1, ![100000]⟩
abbrev S2x50x50 : Shape := ⟨3, ![2, 50, 50]⟩
abbrev S150x50 : Shape := ⟨2, ![150, 50]⟩
abbrev S150 : Shape := ⟨1, ![150]⟩
abbrev S6x50 : Shape := ⟨2, ![6, 50]⟩
abbrev S6 : Shape := ⟨1, ![6]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1x50x50 : Shape := ⟨3, ![1, 50, 50]⟩
abbrev S50x50 : Shape := ⟨2, ![50, 50]⟩
abbrev S1600000x50 : Shape := ⟨2, ![1600000, 50]⟩
abbrev S50x150 : Shape := ⟨2, ![50, 150]⟩
abbrev S100000x150 : Shape := ⟨2, ![100000, 150]⟩
abbrev S1x150 : Shape := ⟨2, ![1, 150]⟩
abbrev S1000 : Shape := ⟨1, ![1000]⟩
abbrev S1000x50 : Shape := ⟨2, ![1000, 50]⟩
abbrev S1000x1 : Shape := ⟨2, ![1000, 1]⟩
abbrev S50x6 : Shape := ⟨2, ![50, 6]⟩
abbrev S1000x6 : Shape := ⟨2, ![1000, 6]⟩
abbrev S1x6 : Shape := ⟨2, ![1, 6]⟩

abbrev nBuf : Space → Nat
  | .hbm => 185
  | .vmem => 0
  | .smem => 0
  | _ => 0

abbrev hbmTy0_0 (i : Nat) : BufTy := match i % 128 with
  | 0 => ⟨S100000x50, .f32⟩
  | 1 => ⟨S2x1600000, .i32⟩
  | 2 => ⟨S100000, .i32⟩
  | 3 => ⟨S2x50x50, .f32⟩
  | 4 => ⟨S150x50, .f32⟩
  | 5 => ⟨S150x50, .f32⟩
  | 6 => ⟨S150, .f32⟩
  | 7 => ⟨S150, .f32⟩
  | 8 => ⟨S6x50, .f32⟩
  | 9 => ⟨S6, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S100000x1, .f32⟩
  | 24 => ⟨S1x50x50, .f32⟩
  | 25 => ⟨S50x50, .f32⟩
  | 26 => ⟨S100000x50, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x50, .f32⟩
  | 36 => ⟨S_, .f32⟩
  | 37 => ⟨S100000x50, .f32⟩
  | 38 => ⟨S1600000x1, .i32⟩
  | 39 => ⟨S100000x50, .f32⟩
  | 40 => ⟨S100000x50, .f32⟩
  | 41 => ⟨S100000x50, .f32⟩
  | 42 => ⟨S50x150, .f32⟩
  | 43 => ⟨S100000x150, .f32⟩
  | 44 => ⟨S1x150, .f32⟩
  | 45 => ⟨S100000x150, .f32⟩
  | 46 => ⟨S100000x150, .f32⟩
  | 47 => ⟨S50x150, .f32⟩
  | 48 => ⟨S100000x150, .f32⟩
  | 49 => ⟨S1x150, .f32⟩
  | 50 => ⟨S100000x150, .f32⟩
  | 51 => ⟨S100000x150, .f32⟩
  | 52 => ⟨S100000x50, .f32⟩
  | 53 => ⟨S100000x50, .f32⟩
  | 54 => ⟨S100000x50, .f32⟩
  | 55 => ⟨S100000x50, .f32⟩
  | 56 => ⟨S100000x50, .f32⟩
  | 57 => ⟨S100000x50, .f32⟩
  | 58 => ⟨S100000x50, .f32⟩
  | 59 => ⟨S100000x50, .f32⟩
  | 60 => ⟨S100000x50, .f32⟩
  | 61 => ⟨S_, .f32⟩
  | 62 => ⟨S100000x50, .f32⟩
  | 63 => ⟨S100000x50, .f32⟩
  | 64 => ⟨S_, .f32⟩
  | 65 => ⟨S100000x50, .f32⟩
  | 66 => ⟨S100000x50, .f32⟩
  | 67 => ⟨S100000x50, .f32⟩
  | 68 => ⟨S100000x50, .f32⟩
  | 69 => ⟨S100000x50, .f32⟩
  | 70 => ⟨S_, .f32⟩
  | 71 => ⟨S100000x50, .f32⟩
  | 72 => ⟨S100000x50, .f32⟩
  | 73 => ⟨S_, .f32⟩
  | 74 => ⟨S100000x50, .f32⟩
  | 75 => ⟨S100000x50, .f32⟩
  | 76 => ⟨S100000x50, .f32⟩
  | 77 => ⟨S100000x50, .f32⟩
  | 78 => ⟨S100000x50, .f32⟩
  | 79 => ⟨S_, .f32⟩
  | 80 => ⟨S100000x50, .f32⟩
  | 81 => ⟨S100000x50, .f32⟩
  | 82 => ⟨S100000x50, .f32⟩
  | 83 => ⟨S100000x50, .f32⟩
  | 84 => ⟨S100000x50, .f32⟩
  | 85 => ⟨S1x50x50, .f32⟩
  | 86 => ⟨S50x50, .f32⟩
  | 87 => ⟨S100000x50, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000x50, .f32⟩
  | 97 => ⟨S_, .f32⟩
  | 98 => ⟨S100000x50, .f32⟩
  | 99 => ⟨S1600000x1, .i32⟩
  | 100 => ⟨S100000x50, .f32⟩
  | 101 => ⟨S100000x50, .f32⟩
  | 102 => ⟨S100000x50, .f32⟩
  | 103 => ⟨S50x150, .f32⟩
  | 104 => ⟨S100000x150, .f32⟩
  | 105 => ⟨S1x150, .f32⟩
  | 106 => ⟨S100000x150, .f32⟩
  | 107 => ⟨S100000x150, .f32⟩
  | 108 => ⟨S50x150, .f32⟩
  | 109 => ⟨S100000x150, .f32⟩
  | 110 => ⟨S1x150, .f32⟩
  | 111 => ⟨S100000x150, .f32⟩
  | 112 => ⟨S100000x150, .f32⟩
  | 113 => ⟨S100000x50, .f32⟩
  | 114 => ⟨S100000x50, .f32⟩
  | 115 => ⟨S100000x50, .f32⟩
  | 116 => ⟨S100000x50, .f32⟩
  | 117 => ⟨S100000x50, .f32⟩
  | 118 => ⟨S100000x50, .f32⟩
  | 119 => ⟨S100000x50, .f32⟩
  | 120 => ⟨S100000x50, .f32⟩
  | 121 => ⟨S100000x50, .f32⟩
  | 122 => ⟨S_, .f32⟩
  | 123 => ⟨S100000x50, .f32⟩
  | 124 => ⟨S100000x50, .f32⟩
  | 125 => ⟨S_, .f32⟩
  | 126 => ⟨S100000x50, .f32⟩
  | 127 => ⟨S100000x50, .f32⟩
  | _ => ⟨S100000x50, .f32⟩

abbrev hbmTy0_1 (i : Nat) : BufTy := match i % 128 with
  | 0 => ⟨S100000x50, .f32⟩
  | 1 => ⟨S100000x50, .f32⟩
  | 2 => ⟨S100000x50, .f32⟩
  | 3 => ⟨S_, .f32⟩
  | 4 => ⟨S100000x50, .f32⟩
  | 5 => ⟨S100000x50, .f32⟩
  | 6 => ⟨S_, .f32⟩
  | 7 => ⟨S100000x50, .f32⟩
  | 8 => ⟨S100000x50, .f32⟩
  | 9 => ⟨S100000x50, .f32⟩
  | 10 => ⟨S100000x50, .f32⟩
  | 11 => ⟨S100000x50, .f32⟩
  | 12 => ⟨S_, .f32⟩
  | 13 => ⟨S100000x50, .f32⟩
  | 14 => ⟨S100000x50, .f32⟩
  | 15 => ⟨S100000x50, .f32⟩
  | 16 => ⟨S100000x50, .f32⟩
  | 17 => ⟨S100000x50, .f32⟩
  | 18 => ⟨S_, .f32⟩
  | 19 => ⟨S100000x50, .f32⟩
  | 20 => ⟨S100000x50, .f32⟩
  | 21 => ⟨S_, .f32⟩
  | 22 => ⟨S100000, .f32⟩
  | 23 => ⟨S_, .f32⟩
  | 24 => ⟨S1000, .f32⟩
  | 25 => ⟨S100000x1, .i32⟩
  | 26 => ⟨S1000, .f32⟩
  | 27 => ⟨S_, .f32⟩
  | 28 => ⟨S1000x50, .f32⟩
  | 29 => ⟨S100000x1, .i32⟩
  | 30 => ⟨S1000x50, .f32⟩
  | 31 => ⟨S_, .f32⟩
  | 32 => ⟨S1000, .f32⟩
  | 33 => ⟨S1000, .f32⟩
  | 34 => ⟨S1000x1, .f32⟩
  | 35 => ⟨S1000x50, .f32⟩
  | 36 => ⟨S1000x50, .f32⟩
  | 37 => ⟨S50x6, .f32⟩
  | 38 => ⟨S1000x6, .f32⟩
  | 39 => ⟨S1x6, .f32⟩
  | 40 => ⟨S1000x6, .f32⟩
  | 41 => ⟨S1000x6, .f32⟩
  | 42 => ⟨S_, .f32⟩
  | 43 => ⟨S1000, .f32⟩
  | 44 => ⟨S_, .f32⟩
  | 45 => ⟨S1000, .f32⟩
  | 46 => ⟨S1000, .f32⟩
  | 47 => ⟨S1000x1, .f32⟩
  | 48 => ⟨S1000x6, .f32⟩
  | 49 => ⟨S1000x6, .f32⟩
  | 50 => ⟨S1000x6, .f32⟩
  | 51 => ⟨S_, .f32⟩
  | 52 => ⟨S1000, .f32⟩
  | 53 => ⟨S1000x1, .f32⟩
  | 54 => ⟨S1000x1, .f32⟩
  | 55 => ⟨S1000x6, .f32⟩
  | 56 => ⟨S1000x6, .f32⟩
  | _ => ⟨S100000x50, .f32⟩

abbrev hbmTy (i : Nat) : BufTy := match i / 128 with
  | 0 => hbmTy0_0 i
  | 1 => hbmTy0_1 i
  | _ => ⟨S100000x50, .f32⟩

abbrev bufTy : (tb : Table) → Fin (tcTables nBuf tb) → BufTy
  | .hbm, ⟨i, _⟩ => hbmTy i
  | _, _ => ⟨S100000x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_4 : Ref sig .tc := ⟨.hbm, 61, rfl⟩
abbrev main_v45 : Ref sig .tc := ⟨.hbm, 62, rfl⟩
abbrev main_v46 : Ref sig .tc := ⟨.hbm, 63, rfl⟩
abbrev main_cst_5 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_6 : Ref sig .tc := ⟨.hbm, 70, rfl⟩
abbrev main_v52 : Ref sig .tc := ⟨.hbm, 71, rfl⟩
abbrev main_v53 : Ref sig .tc := ⟨.hbm, 72, rfl⟩
abbrev main_cst_7 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_8 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_c_9 : Ref sig .tc := ⟨.hbm, 88, rfl⟩
abbrev main_v67 : Ref sig .tc := ⟨.hbm, 89, rfl⟩
abbrev main_v68 : Ref sig .tc := ⟨.hbm, 90, rfl⟩
abbrev main_c_10 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_11 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_cst_12 : Ref sig .tc := ⟨.hbm, 122, rfl⟩
abbrev main_v98 : Ref sig .tc := ⟨.hbm, 123, rfl⟩
abbrev main_v99 : Ref sig .tc := ⟨.hbm, 124, rfl⟩
abbrev main_cst_13 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_cst_14 : Ref sig .tc := ⟨.hbm, 131, rfl⟩
abbrev main_v105 : Ref sig .tc := ⟨.hbm, 132, rfl⟩
abbrev main_v106 : Ref sig .tc := ⟨.hbm, 133, rfl⟩
abbrev main_cst_15 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_cst_16 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_call0_cst : Ref sig .tc := ⟨.hbm, 146, rfl⟩
abbrev main_call0_v0 : Ref sig .tc := ⟨.hbm, 147, rfl⟩
abbrev main_v117 : Ref sig .tc := ⟨.hbm, 148, rfl⟩
abbrev main_cst_17 : Ref sig .tc := ⟨.hbm, 149, rfl⟩
abbrev main_v118 : Ref sig .tc := ⟨.hbm, 150, rfl⟩
abbrev main_cst_18 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_cst_19 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_cst_20 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_call1_cst : Ref sig .tc := ⟨.hbm, 170, rfl⟩
abbrev main_call1_v0 : Ref sig .tc := ⟨.hbm, 171, rfl⟩
abbrev main_call1_cst_0 : Ref sig .tc := ⟨.hbm, 172, rfl⟩
abbrev main_call1_v1 : Ref sig .tc := ⟨.hbm, 173, rfl⟩
abbrev main_call1_v2 : Ref sig .tc := ⟨.hbm, 174, rfl⟩
abbrev main_call1_v3 : Ref sig .tc := ⟨.hbm, 175, rfl⟩
abbrev main_call1_v4 : Ref sig .tc := ⟨.hbm, 176, rfl⟩
abbrev main_call1_v5 : Ref sig .tc := ⟨.hbm, 177, rfl⟩
abbrev main_call1_v6 : Ref sig .tc := ⟨.hbm, 178, rfl⟩
abbrev main_call1_cst_1 : Ref sig .tc := ⟨.hbm, 179, rfl⟩
abbrev main_call1_v7 : Ref sig .tc := ⟨.hbm, 180, rfl⟩
abbrev main_call1_v8 : Ref sig .tc := ⟨.hbm, 181, rfl⟩
abbrev main_call1_v9 : Ref sig .tc := ⟨.hbm, 182, rfl⟩
abbrev main_call1_v10 : Ref sig .tc := ⟨.hbm, 183, rfl⟩
abbrev main_v135 : Ref sig .tc := ⟨.hbm, 184, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  slices_S2x50x50_S1x50x50_0_0_0 : S2x50x50.Slices ![0, 0, 0] S1x50x50
  shapeCasts_S1x50x50_S50x50 : S1x50x50.ShapeCasts S50x50
  bcast_S_S100000x50 : S_.BroadcastsInDim S100000x50 (![] : Fin 0 → Fin S100000x50.rank)
  bcast_S100000x1_S100000x50_0_1 : S100000x1.BroadcastsInDim S100000x50 (![0, 1] : Fin 2 → Fin S100000x50.rank)
  transposes_S150x50_S50x150_1_0 : S150x50.Transposes [1, 0] S50x150
  bcast_S150_S1x150_1 : S150.BroadcastsInDim S1x150 (![1] : Fin 1 → Fin S1x150.rank)
  bcast_S1x150_S100000x150_0_1 : S1x150.BroadcastsInDim S100000x150 (![0, 1] : Fin 2 → Fin S100000x150.rank)
  slices_S100000x150_S100000x50_0_0 : S100000x150.Slices ![0, 0] S100000x50
  slices_S100000x150_S100000x50_0_50 : S100000x150.Slices ![0, 50] S100000x50
  slices_S100000x150_S100000x50_0_100 : S100000x150.Slices ![0, 100] S100000x50
  slices_S2x50x50_S1x50x50_1_0_0 : S2x50x50.Slices ![1, 0, 0] S1x50x50
  bcast_S_S1000 : S_.BroadcastsInDim S1000 (![] : Fin 0 → Fin S1000.rank)
  bcast_S_S1000x50 : S_.BroadcastsInDim S1000x50 (![] : Fin 0 → Fin S1000x50.rank)
  bcast_S1000_S1000x1_0 : S1000.BroadcastsInDim S1000x1 (![0] : Fin 1 → Fin S1000x1.rank)
  bcast_S1000x1_S1000x50_0_1 : S1000x1.BroadcastsInDim S1000x50 (![0, 1] : Fin 2 → Fin S1000x50.rank)
  transposes_S6x50_S50x6_1_0 : S6x50.Transposes [1, 0] S50x6
  bcast_S6_S1x6_1 : S6.BroadcastsInDim S1x6 (![1] : Fin 1 → Fin S1x6.rank)
  bcast_S1x6_S1000x6_0_1 : S1x6.BroadcastsInDim S1000x6 (![0, 1] : Fin 2 → Fin S1000x6.rank)
  reducesTo_S1000x6_S1000_d1 : S1000x6.ReducesTo [1] S1000
  h_S_ : 0 < S_.numel
  bcast_S1000x1_S1000x6_0_1 : S1000x1.BroadcastsInDim S1000x6 (![0, 1] : Fin 2 → Fin S1000x6.rank)
  scatter_S100000_S1600000x1_S1600000_n_0_0_1_wf : ScatterDims.WF S100000 S1600000x1 S1600000 [] [0] [0] 1
  dot_S100000x50_S50x50_S100000x50_1_0_0_1_n_n_wf : DotDims.WF S100000x50 S50x50 S100000x50 [1] [0] [0] [1] [] []
  gather_S100000x50_S1600000x1_S1600000x50_1_0_n_n_0_1_150_wf : GatherDims.WF S100000x50 S1600000x1 S1600000x50 [1] [0] [] [0] [] 1 ![1, 50]
  scatter_S100000x50_S1600000x1_S1600000x50_1_0_0_1_wf : ScatterDims.WF S100000x50 S1600000x1 S1600000x50 [1] [0] [0] 1
  dot_S100000x50_S50x150_S100000x150_1_0_0_1_n_n_wf : DotDims.WF S100000x50 S50x150 S100000x150 [1] [0] [0] [1] [] []
  scatter_S1000_S100000x1_S100000_n_0_0_1_wf : ScatterDims.WF S1000 S100000x1 S100000 [] [0] [0] 1
  scatter_S1000x50_S100000x1_S100000x50_1_0_0_1_wf : ScatterDims.WF S1000x50 S100000x1 S100000x50 [1] [0] [0] 1
  dot_S1000x50_S50x6_S1000x6_1_0_0_1_n_n_wf : DotDims.WF S1000x50 S50x6 S1000x6 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x50_S50x50_S100000x50_1_0_0_1_n_n : DotDims S100000x50 S50x50 S100000x50 where
  lhsContracting := [1]
  rhsContracting := [0]
  lhsNonContracting := [0]
  rhsNonContracting := [1]
  lhsBatch := []
  rhsBatch := []
  wf := dot_S100000x50_S50x50_S100000x50_1_0_0_1_n_n_wf
def gather_S100000x50_S1600000x1_S1600000x50_1_0_n_n_0_1_150 : GatherDims S100000x50 S1600000x1 S1600000x50 where
  offsetDims := [1]
  collapsedSliceDims := [0]
  operandBatchingDims := []
  startIndicesBatchingDims := []
  startIndexMap := [0]
  indexVectorDim := 1
  sliceSizes := ![1, 50]
  wf := gather_S100000x50_S1600000x1_S1600000x50_1_0_n_n_0_1_150_wf
def scatter_S100000x50_S1600000x1_S1600000x50_1_0_0_1 : ScatterDims S100000x50 S1600000x1 S1600000x50 where
  updateWindowDims := [1]
  insertedWindowDims := [0]
  scatterDimsToOperandDims := [0]
  indexVectorDim := 1
  wf := scatter_S100000x50_S1600000x1_S1600000x50_1_0_0_1_wf
def dot_S100000x50_S50x150_S100000x150_1_0_0_1_n_n : DotDims S100000x50 S50x150 S100000x150 where
  lhsContracting := [1]
  rhsContracting := [0]
  lhsNonContracting := [0]
  rhsNonContracting := [1]
  lhsBatch := []
  rhsBatch := []
  wf := dot_S100000x50_S50x150_S100000x150_1_0_0_1_n_n_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def scatter_S1000x50_S100000x1_S100000x50_1_0_0_1 : ScatterDims S1000x50 S100000x1 S100000x50 where
  updateWindowDims := [1]
  insertedWindowDims := [0]
  scatterDimsToOperandDims := [0]
  indexVectorDim := 1
  wf := scatter_S1000x50_S100000x1_S100000x50_1_0_0_1_wf
def dot_S1000x50_S50x6_S1000x6_1_0_0_1_n_n : DotDims S1000x50 S50x6 S1000x6 where
  lhsContracting := [1]
  rhsContracting := [0]
  lhsNonContracting := [0]
  rhsNonContracting := [1]
  lhsBatch := []
  rhsBatch := []
  wf := dot_S1000x50_S50x6_S1000x6_1_0_0_1_n_n_wf

class Facts : Prop extends Facts₀ where

variable [Facts]
-- ==== Proof.KRun.lean ====
/-
  The kernel program's run with its result named. The program is five kernel regions among stretches of host operations;
  its buffer contents at each boundary are a fold from the launch memory (`Gen.W0` … `Gen.W10`: a stretch's operations
  applied, a region's arrays at what its write-backs leave). Every weakly fair execution from any memory with zero
  counters terminates, nothing faulting, with the result buffer at the last boundary's contents of it and the arguments as
  launched: the library's launch theorem for a program of several regions over the program's segments, the last thread
  state (every unscoped buffer at `Gen.W10`) read against the final state.
-/
import proofs.«135199_j77764677862202_1_alg».proof.Proof.Gen.KernelIdeal.Frame

set_option maxRecDepth 16384

noncomputable section

namespace Cert.KernelIdeal.RunV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents of it, the arguments as launched. -/
theorem run : θ_run defs (onTc (τ := τ) (main (F := F))) ⟨m, fun _ => 0, ρ⟩ (fun r => ∀ c : Dev nD,
      r.2.mem ((c.tc : Thread nD τ).loc main_v58) = W10 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v58 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end Cert.KernelIdeal.RunV

end
-- ==== Proof.Spec.lean ====
/-
  The dense stages of the gated graph network, on the extended reals, each as a function of ONE ROW of its inputs.

  * the node transform: row `p` of `h · W` is `∑ₖ h[p, k] · W[k, j]`;
  * the gated recurrent update: with the two affine maps `gi = a · Wi + bi` and `gh = h · Wh + bh` of a row (150 entries
    each, three gates of 50), the reset gate `r = σ(gi₀ + gh₀)`, the update gate `z = σ(gi₁ + gh₁)`, the candidate
    `n = tanh(gi₂ + r · gh₂)`, and the new state `(1 − z) · n + z · h`; the last layer clamps it at zero from below.

  A row of the result depends on the same row of the row-indexed inputs only, so the same function describes a block of
  rows and the whole array: the array-level forms below take the number of rows as a parameter.
-/
import Idealize.ShloMosaic.PureOps.Ideal
import Idealize.ShloMosaic.Lib.ValueIdx

noncomputable section

open scoped BigOperators

namespace Cert.Graph

open Idealize.ShloMosaic Idealize.ShloMosaic.ValueIdx

/-- The float words of 1.0 and 0.0 as extended reals; both programs spell these same words. -/
abbrev one32 : EReal := Ideal.ofBits .f32 0x3F800000#32
abbrev zero32 : EReal := Ideal.ofBits .f32 0x00000000#32

/-- Entry `c` of a row times a matrix: `∑ₖ a k · w k c`. -/
def dot {K C : ℕ} (a : Fin K → EReal) (w : Fin K → Fin C → EReal) (c : Fin C) : EReal :=
  ∑ k : Fin K, a k * w k c

/-- Entry `c` of a row times a matrix plus a bias. -/
def affine {K C : ℕ} (a : Fin K → EReal) (w : Fin K → Fin C → EReal) (b : Fin C → EReal) (c : Fin C) : EReal :=
  dot a w c + b c

/-- Column `off + j` of a 150-wide gate row: gate `off / 50`, entry `j`. -/
def col (off : ℕ) (hoff : off + 50 ≤ 150) (j : Fin 50) : Fin 150 := ⟨off + j.val, by have := j.isLt; omega⟩

/-- The reset gate of entry `j`. -/
def rGate (a h : Fin 50 → EReal) (wi wh : Fin 50 → Fin 150 → EReal) (bi bh : Fin 150 → EReal) (j : Fin 50) : EReal :=
  Ideal.logistic (affine a wi bi (col 0 (by omega) j) + affine h wh bh (col 0 (by omega) j))

/-- The update gate of entry `j`. -/
def zGate (a h : Fin 50 → EReal) (wi wh : Fin 50 → Fin 150 → EReal) (bi bh : Fin 150 → EReal) (j : Fin 50) : EReal :=
  Ideal.logistic (affine a wi bi (col 50 (by omega) j) + affine h wh bh (col 50 (by omega) j))

/-- The candidate state of entry `j`. -/
def nGate (a h : Fin 50 → EReal) (wi wh : Fin 50 → Fin 150 → EReal) (bi bh : Fin 150 → EReal) (j : Fin 50) : EReal :=
  Ideal.tanh (affine a wi bi (col 100 (by omega) j) + rGate a h wi wh bi bh j * affine h wh bh (col 100 (by omega) j))

/-- One row of the gated recurrent update: the new state's entry `j` from the row `a` of aggregated messages and
    the row `h` of the old state. -/
def gruRow (a h : Fin 50 → EReal) (wi wh : Fin 50 → Fin 150 → EReal) (bi bh : Fin 150 → EReal) (j : Fin 50) : EReal :=
  (one32 - zGate a h wi wh bi bh j) * nGate a h wi wh bi bh j + zGate a h wi wh bi bh j * h j

/-! ## The same, on arrays of `R` rows -/

/-- Row `p` of a rank-2 array as a function of the column. -/
abbrev row {R C : ℕ} (x : (⟨2, ![R, C]⟩ : Shape).Idx → EReal) (p : Fin R) : Fin C → EReal := fun k => x (ix2 p k)

/-- A rank-2 array as a function of its two coordinates. -/
abbrev mat {K C : ℕ} (w : (⟨2, ![K, C]⟩ : Shape).Idx → EReal) : Fin K → Fin C → EReal := fun k c => w (ix2 k c)

/-- A rank-1 array as a function of its coordinate. -/
abbrev vec {C : ℕ} (b : (⟨1, ![C]⟩ : Shape).Idx → EReal) : Fin C → EReal := fun c => b (ix1 c)

/-- The node transform `h · W` of `R` rows. -/
def matT {R : ℕ} (h : (⟨2, ![R, 50]⟩ : Shape).Idx → EReal) (w : (⟨2, ![50, 50]⟩ : Shape).Idx → EReal) :
    (⟨2, ![R, 50]⟩ : Shape).Idx → EReal :=
  fun i => dot (row h (i 0)) (mat w) (i 1)

/-- The gated recurrent update of `R` rows. -/
def gru {R : ℕ} (a h : (⟨2, ![R, 50]⟩ : Shape).Idx → EReal) (wi wh : (⟨2, ![50, 150]⟩ : Shape).Idx → EReal)
    (bi bh : (⟨1, ![150]⟩ : Shape).Idx → EReal) : (⟨2, ![R, 50]⟩ : Shape).Idx → EReal :=
  fun i => gruRow (row a (i 0)) (row h (i 0)) (mat wi) (mat wh) (vec bi) (vec bh) (i 1)

/-- The last layer's update: the new state clamped at zero from below. -/
def gruRelu {R : ℕ} (a h : (⟨2, ![R, 50]⟩ : Shape).Idx → EReal) (wi wh : (⟨2, ![50, 150]⟩ : Shape).Idx → EReal)
    (bi bh : (⟨1, ![150]⟩ : Shape).Idx → EReal) : (⟨2, ![R, 50]⟩ : Shape).Idx → EReal :=
  fun i => max (gru a h wi wh bi bh i) zero32

theorem matT_apply {R : ℕ} (h : (⟨2, ![R, 50]⟩ : Shape).Idx → EReal) (w : (⟨2, ![50, 50]⟩ : Shape).Idx → EReal)
    (p : Fin R) (j : Fin 50) : matT h w (ix2 p j) = dot (row h p) (mat w) j := rfl

theorem gru_apply {R : ℕ} (a h : (⟨2, ![R, 50]⟩ : Shape).Idx → EReal) (wi wh : (⟨2, ![50, 150]⟩ : Shape).Idx → EReal)
    (bi bh : (⟨1, ![150]⟩ : Shape).Idx → EReal) (p : Fin R) (j : Fin 50) :
    gru a h wi wh bi bh (ix2 p j) = gruRow (row a p) (row h p) (mat wi) (mat wh) (vec bi) (vec bh) j := rfl

theorem gruRelu_apply {R : ℕ} (a h : (⟨2, ![R, 50]⟩ : Shape).Idx → EReal) (wi wh : (⟨2, ![50, 150]⟩ : Shape).Idx → EReal)
    (bi bh : (⟨1, ![150]⟩ : Shape).Idx → EReal) (p : Fin R) (j : Fin 50) :
    gruRelu a h wi wh bi bh (ix2 p j) = max (gruRow (row a p) (row h p) (mat wi) (mat wh) (vec bi) (vec bh) j) zero32 := rfl

end Cert.Graph

end
-- ==== Proof.FinalSpec.lean ====
/-
  The last stage of the gated graph network on the extended reals, as a function of ONE ROW: a linear layer from the 50
  pooled features into 6 classes, followed by the logarithm of the softmax over the classes.

  With the row's logits `z c = ∑ₖ p[r, k] · W[k, c] + b c`:

  * the row's maximum `m` is the fold of `max` over the six classes, started from the float word of −∞;
  * the shifted logits are `z c − m`;
  * the result's entry `c` is `(z c − m) − log (∑ₖ exp (z k − m))`.

  The word of −∞ is the bottom element of the extended reals, so taking the maximum with it changes nothing.
-/
import Idealize.ShloMosaic.PureOps.Ideal
import Idealize.ShloMosaic.Lib.ValueIdx
import proofs.«135199_j77764677862202_1_alg».proof.Proof.Spec

noncomputable section

open scoped BigOperators

namespace Cert.Graph

open Idealize.ShloMosaic Idealize.ShloMosaic.ValueIdx

/-- The float word of −∞ as an extended real; both programs start the row maximum from this same word. -/
abbrev negInf32 : EReal := Ideal.ofBits .f32 0xFF800000#32

/-- The word of −∞ is the bottom element. -/
theorem negInf32_eq_bot : negInf32 = ⊥ := by simp [Ideal.ofBits, Ideal.ieee]

/-- The maximum with −∞ is the other argument. -/
theorem max_negInf32 (x : EReal) : max negInf32 x = x := by
  rw [negInf32_eq_bot]; exact max_eq_right bot_le

/-- The largest of a row's six entries: the fold of `max` over the classes, from −∞. -/
def rowMax (z : Fin 6 → EReal) : EReal := (Finset.univ : Finset (Fin 6)).fold max negInf32 z

/-- Entry `c` of the logarithm of the softmax of a row of six logits: the logit shifted by the row's maximum, minus the
    logarithm of the sum of the exponentials of the shifted logits. -/
def logSoftmaxRow (z : Fin 6 → EReal) (c : Fin 6) : EReal :=
  (z c - rowMax z) - Ideal.log (∑ k : Fin 6, Ideal.exp (z k - rowMax z))

/-- The last stage: row `r` of the result is the logarithm of the softmax of row `r`'s logits `p[r, ·] · W + b`. -/
def final (p : (⟨2, ![1000, 50]⟩ : Shape).Idx → EReal) (w : (⟨2, ![50, 6]⟩ : Shape).Idx → EReal)
    (b : (⟨1, ![6]⟩ : Shape).Idx → EReal) : (⟨2, ![1000, 6]⟩ : Shape).Idx → EReal :=
  fun i => logSoftmaxRow (affine (row p (i 0)) (mat w) (vec b)) (i 1)

theorem final_apply (p : (⟨2, ![1000, 50]⟩ : Shape).Idx → EReal) (w : (⟨2, ![50, 6]⟩ : Shape).Idx → EReal)
    (b : (⟨1, ![6]⟩ : Shape).Idx → EReal) (r : Fin 1000) (e : Fin 6) :
    final p w b (ix2 r e) = logSoftmaxRow (affine (row p r) (mat w) (vec b)) e := rfl

end Cert.Graph

end
-- ==== Proof.KVal.lean ====
/-
  The kernel program's result as a function of its ten argument arrays, on the extended reals.

  The host stretches' operations are named once, as the program spells them: the edge sources and destinations (rows 0
  and 1 of the edge array), the clamped in-degree as a column, the two transposed gate weight matrices, the two layers'
  node weights (slices of the rank-3 weight array), the mean aggregation `agg` (gather the transformed rows at the sources —
  a negative source wrapped by the node count —, scatter-add them at the destinations into zeros, divide by the degree),
  the mean pooling `pool` (scatter-add the node rows at their graph into zeros, divide by the clamped graph size) and the
  transposed classifier weights. Between them stand the dense stages of the specification: `matT`, `gru`, `gruRelu`,
  and the final stage `final`. The reference applies the same host operations to the same dense stages, which is how the
  two programs' results are compared: stage by stage, never opening a gather or a scatter-add.
-/
import proofs.«135199_j77764677862202_1_alg».proof.KernelIdeal
import proofs.«135199_j77764677862202_1_alg».proof.Proof.Gen.KernelIdeal
import proofs.«135199_j77764677862202_1_alg».proof.Proof.Spec
import proofs.«135199_j77764677862202_1_alg».proof.Proof.FinalSpec

noncomputable section

namespace Cert.Graph

open Idealize.ShloMosaic Cert.KernelIdeal Cert.KernelIdeal.Facts₀ Cert.KernelIdeal.Facts

/-- The edges' source nodes: row 0 of the edge array. -/
def srcK (x1 : IVec S2x1600000 32) : IVec S1600000 32 :=
  shapeCast _ (extractStridedSlice S1x1600000 ![0, 0] x1 slices_S2x1600000_S1x1600000_0_0) shapeCasts_S1x1600000_S1600000

/-- The edges' destination nodes: row 1 of the edge array. -/
def dstK (x1 : IVec S2x1600000 32) : IVec S1600000 32 :=
  shapeCast _ (extractStridedSlice S1x1600000 ![1, 0] x1 slices_S2x1600000_S1x1600000_1_0) shapeCasts_S1x1600000_S1600000

/-- The in-degree of every node, clamped at one from below, as a column. -/
def degK (x1 : IVec S2x1600000 32) : FVec Ideal S100000x1 .f32 :=
  broadcastInDim S100000x1 ![0] bcast_S100000_S100000x1_0
    (maximumf
      (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 (dstK x1))
        (broadcastInDim S1600000 ![] bcast_S_S1600000 (constant (F := Ideal) S_ .f32 0x3F800000#32)))
      (broadcastInDim S100000 ![] bcast_S_S100000 (constant (F := Ideal) S_ .f32 0x3F800000#32)))

/-- A gate weight matrix `[150, 50]` transposed to `[50, 150]`. -/
def gateT (x : FVec Ideal S150x50 .f32) : FVec Ideal S50x150 .f32 :=
  transpose S50x150 [1, 0] x transposes_S150x50_S50x150_1_0

/-- The first and the second layer's node weights. -/
def w1K (x3 : FVec Ideal S2x50x50 .f32) : FVec Ideal S50x50 .f32 :=
  shapeCast _ (extractStridedSlice S1x50x50 ![0, 0, 0] x3 slices_S2x50x50_S1x50x50_0_0_0) shapeCasts_S1x50x50_S50x50
def w2K (x3 : FVec Ideal S2x50x50 .f32) : FVec Ideal S50x50 .f32 :=
  shapeCast _ (extractStridedSlice S1x50x50 ![1, 0, 0] x3 slices_S2x50x50_S1x50x50_1_0_0) shapeCasts_S1x50x50_S50x50

/-- The mean aggregation of the transformed node rows `t` over the edges, from the sources, the destinations and the
    degree column. -/
def aggOf (t : FVec Ideal S100000x50 .f32) (src dst : IVec S1600000 32) (deg : FVec Ideal S100000x1 .f32) :
    FVec Ideal S100000x50 .f32 :=
  Host.divf
    (Host.scatterAdd scatter_S100000x50_S1600000x1_S1600000x50_1_0_0_1
      (broadcastInDim S100000x50 ![] bcast_S_S100000x50 (constant (F := Ideal) S_ .f32 0x00000000#32))
      (broadcastInDim S1600000x1 ![0] bcast_S1600000_S1600000x1_0 dst)
      (Host.gather gather_S100000x50_S1600000x1_S1600000x50_1_0_n_n_0_1_150 t
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32)))
            src))))
    (broadcastInDim S100000x50 ![0, 1] bcast_S100000x1_S100000x50_0_1 deg)

/-- The mean aggregation over the edges of the edge array `x1`. -/
def aggK (t : FVec Ideal S100000x50 .f32) (x1 : IVec S2x1600000 32) : FVec Ideal S100000x50 .f32 :=
  aggOf t (srcK x1) (dstK x1) (degK x1)

/-- The mean pooling of the node rows `h` over the graphs. -/
def poolK (h : FVec Ideal S100000x50 .f32) (x2 : IVec S100000 32) : FVec Ideal S1000x50 .f32 :=
  Host.divf
    (Host.scatterAdd scatter_S1000x50_S100000x1_S100000x50_1_0_0_1
      (broadcastInDim S1000x50 ![] bcast_S_S1000x50 (constant (F := Ideal) S_ .f32 0x00000000#32))
      (broadcastInDim S100000x1 ![0] bcast_S100000_S100000x1_0 x2)
      h)
    (broadcastInDim S1000x50 ![0, 1] bcast_S1000x1_S1000x50_0_1
      (broadcastInDim S1000x1 ![0] bcast_S1000_S1000x1_0
        (maximumf
          (Host.scatterAdd scatter_S1000_S100000x1_S100000_n_0_0_1
            (broadcastInDim S1000 ![] bcast_S_S1000 (constant (F := Ideal) S_ .f32 0x00000000#32))
            (broadcastInDim S100000x1 ![0] bcast_S100000_S100000x1_0 x2)
            (broadcastInDim S100000 ![] bcast_S_S100000 (constant (F := Ideal) S_ .f32 0x3F800000#32)))
          (broadcastInDim S1000 ![] bcast_S_S1000 (constant (F := Ideal) S_ .f32 0x3F800000#32)))))

/-- The classifier weights `[6, 50]` transposed to `[50, 6]`. -/
def fcT (x8 : FVec Ideal S6x50 .f32) : FVec Ideal S50x6 .f32 :=
  transpose S50x6 [1, 0] x8 transposes_S6x50_S50x6_1_0

variable (x0 : FVec Ideal S100000x50 .f32) (x1 : IVec S2x1600000 32) (x2 : IVec S100000 32) (x3 : FVec Ideal S2x50x50 .f32)
  (x4 x5 : FVec Ideal S150x50 .f32) (x6 x7 : FVec Ideal S150 .f32) (x8 : FVec Ideal S6x50 .f32) (x9 : FVec Ideal S6 .f32)

/-- The first layer's transformed nodes, new state; the second layer's; the result. -/
def m1K : FVec Ideal S100000x50 .f32 := matT x0 (w1K x3)
def h1K : FVec Ideal S100000x50 .f32 := gru (aggK (m1K x0 x3) x1) x0 (gateT x4) (gateT x5) x6 x7
def m2K : FVec Ideal S100000x50 .f32 := matT (h1K x0 x1 x3 x4 x5 x6 x7) (w2K x3)
def h2K : FVec Ideal S100000x50 .f32 :=
  gruRelu (aggK (m2K x0 x1 x3 x4 x5 x6 x7) x1) (h1K x0 x1 x3 x4 x5 x6 x7) (gateT x4) (gateT x5) x6 x7
def outK : FVec Ideal S1000x6 .f32 := final (poolK (h2K x0 x1 x3 x4 x5 x6 x7) x2) (fcT x8) x9

end Cert.Graph

end
-- ==== Proof.Stretch.lean ====
/-
  What each host stretch of the kernel program computes, over ANY contents `W` of the buffers it starts from, and how to
  see that a stretch leaves a buffer alone.

  Stretch 0 computes the edge sources and destinations, the clamped degree column, the two transposed gate weight matrices
  and the first layer's node weights from the arguments; stretches 1 and 3 aggregate a region's transformed nodes over the
  edges (`aggOf`, from the sources, destinations and degrees stretch 0 left); stretch 2 slices the second layer's node
  weights; stretch 4 pools the last state over the graphs and transposes the classifier weights. Each is the stretch's
  operations applied in order: a buffer's contents after the stretch is its operation's function of its operands' contents
  after the operations before it.
-/
import proofs.«135199_j77764677862202_1_alg».proof.Proof.Gen.KernelIdeal.Launch
import proofs.«135199_j77764677862202_1_alg».proof.Proof.KVal
import Idealize.ShloMosaic.Lib.StableHlo.Run

noncomputable section

namespace Cert.Graph

open Idealize.ShloMosaic Idealize.ShloMosaic.TcCoe Idealize.SL.Sem
open Cert.KernelIdeal Cert.KernelIdeal.Gen

/-- No operation of the stretch writes the buffer, so the stretch leaves it as it was. -/
macro "not_written " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable (W : Valuation τ sig (Elt Ideal))

/-! ## Stretch 0 -/

theorem s0_v1 : StableHlo.after hostOps0 W (Proc.devRef .tc main_v1) = srcK (W (Proc.devRef .tc main_arg1)) := by
  after_results
  rfl
theorem s0_v3 : StableHlo.after hostOps0 W (Proc.devRef .tc main_v3) = dstK (W (Proc.devRef .tc main_arg1)) := by
  after_results
  rfl
theorem s0_v10 : StableHlo.after hostOps0 W (Proc.devRef .tc main_v10) = degK (W (Proc.devRef .tc main_arg1)) := by
  after_results
  rfl
theorem s0_v11 : StableHlo.after hostOps0 W (Proc.devRef .tc main_v11) = gateT (W (Proc.devRef .tc main_arg4)) := by
  after_results
  rfl
theorem s0_v12 : StableHlo.after hostOps0 W (Proc.devRef .tc main_v12) = gateT (W (Proc.devRef .tc main_arg5)) := by
  after_results
  rfl
theorem s0_v14 : StableHlo.after hostOps0 W (Proc.devRef .tc main_v14) = w1K (W (Proc.devRef .tc main_arg3)) := by
  after_results
  rfl

/-! ## Stretches 1 and 3: the aggregation (the sources are read three times: one pass, sharing them) -/

theorem s1_v27 : StableHlo.after hostOps1 W (Proc.devRef .tc main_v27)
    = aggOf (W (Proc.devRef .tc main_v15)) (W (Proc.devRef .tc main_v1)) (W (Proc.devRef .tc main_v3)) (W (Proc.devRef .tc main_v10)) := by
  after_results_simp
  rfl
theorem s3_v43 : StableHlo.after hostOps3 W (Proc.devRef .tc main_v43)
    = aggOf (W (Proc.devRef .tc main_v31)) (W (Proc.devRef .tc main_v1)) (W (Proc.devRef .tc main_v3)) (W (Proc.devRef .tc main_v10)) := by
  after_results_simp
  rfl

/-! ## Stretch 2 -/

theorem s2_v30 : StableHlo.after hostOps2 W (Proc.devRef .tc main_v30) = w2K (W (Proc.devRef .tc main_arg3)) := by
  after_results
  rfl

/-! ## Stretch 4 -/

theorem s4_v56 : StableHlo.after hostOps4 W (Proc.devRef .tc main_v56) = poolK (W (Proc.devRef .tc main_v44)) (W (Proc.devRef .tc main_arg2)) := by
  after_results
  rfl
theorem s4_v57 : StableHlo.after hostOps4 W (Proc.devRef .tc main_v57) = fcT (W (Proc.devRef .tc main_arg8)) := by
  after_results
  rfl

end Cert.Graph

end
-- ==== Proof.LibDot.lean ====
/-
  A product of an `[m, k]` array by a `[k, n]` array over ONE contracted axis, read at an output index `(p, e)` on the
  extended reals as the plain sum `∑ⱼ A[p, j] · B[j, e]` over `j : Fin k` — for the vector unit's matrix product into a zero
  accumulator and for the host's `dot_general` alike, whatever the two operands' float formats.  The dimension numbers
  enter only through four facts: where they send an output index and a contraction index in each operand.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index, re-indexed by the contracted axis's one coordinate. -/
theorem contract_sum {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (A : FVec Ideal ⟨2, ![m, k]⟩ φ₁) (B : FVec Ideal ⟨2, ![k, n]⟩ φ₂) (p : Fin m) (e : Fin n) :
    ∑ q : D.contr.Idx, A (D.lhsIdx (ix2 p e) q) * B (D.rhsIdx (ix2 p e) q) = ∑ j : Fin k, A (ix2 p j) * B (ix2 j e) := by
  rw [← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

/-- The vector unit's matrix product into the zero accumulator, at `(p, e)`. -/
theorem matmul_zero_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ φ₁) (B : FVec Ideal ⟨2, ![k, n]⟩ φ₂)
    (p : Fin m) (e : Fin n) :
    FloatOps.matmul D prec A B (constant ⟨2, ![m, n]⟩ .f32 0x00000000#32) (ix2 p e) = ∑ j : Fin k, A (ix2 p j) * B (ix2 j e) :=
  (Ideal.matmul_constant_zero_apply D prec A B (ix2 p e)).trans (contract_sum D hr hs hl0 hl1 hr0 hr1 A B p e)

/-- The host's `dot_general`, at `(p, e)`. -/
theorem dotGeneral_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (sched : HostSchedule) (A : FVec Ideal ⟨2, ![m, k]⟩ φ₁) (B : FVec Ideal ⟨2, ![k, n]⟩ φ₂)
    (p : Fin m) (e : Fin n) :
    FloatOps.dotGeneral D prec sched A B (ix2 p e) = ∑ j : Fin k, A (ix2 p j) * B (ix2 j e) :=
  (Ideal.dotGeneral_apply D prec sched A B (ix2 p e)).trans (contract_sum D hr hs hl0 hl1 hr0 hr1 A B p e)

end Cert.LibDot

end
-- ==== Proof.BodyMat.lean ====
/-
  The node transform's body on a block of rows is the specification's `matT` of the block: the vector unit's matrix
  product of the block `[2000, 50]` by the weights `[50, 50]` into a zero accumulator is, entry by entry, the plain sum
  `∑ₖ x[p, k] · w[k, j]` on the extended reals (the roundings of both operands to a shorter format are the identity
  there, and the cast of the weights to their own shape changes nothing).
-/
import proofs.«135199_j77764677862202_1_alg».proof.Proof.Gen.KernelIdeal.Skeleton
import proofs.«135199_j77764677862202_1_alg».proof.Proof.Spec
import proofs.«135199_j77764677862202_1_alg».proof.Proof.LibDot
import Idealize.ShloMosaic.Lib.ValueIdx
import Idealize.ShloMosaic.Lib.Pipeline.Value
import Idealize.ShloMosaic.PureOps.Ideal.Laws

noncomputable section

open scoped BigOperators

namespace Cert.Graph

open Idealize.ShloMosaic Idealize.ShloMosaic.ValueIdx Cert.KernelIdeal Cert.KernelIdeal.Gen

/-- The dimension numbers of the block product `[2000, 50] · [50, 50]`. -/
abbrev D0 : DotDims S2000x50 S50x50 S2000x50 := dot_S2000x50_S50x50_S2000x50_1_0_0_1_n_n

/-- Where they send an output index and a contraction index in each operand. -/
theorem D0_l0 (i : S2000x50.Idx) (q : D0.contr.Idx) : (D0.lhsIdx i q 0).val = (i 0).val := by
  unfold DotDims.lhsIdx
  rw [dif_neg (show ¬(0 : Fin S2000x50.rank) ∈ D0.lhsBatch by decide), dif_pos (show (0 : Fin S2000x50.rank) ∈ D0.lhsNonContracting by decide)]
  rfl
theorem D0_l1 (i : S2000x50.Idx) (q : D0.contr.Idx) : (D0.lhsIdx i q 1).val = (q ⟨0, by decide⟩).val :=
  D0.lhsIdx_val_of_single rfl i q
theorem D0_r0 (i : S2000x50.Idx) (q : D0.contr.Idx) : (D0.rhsIdx i q 0).val = (q ⟨0, by decide⟩).val :=
  D0.rhsIdx_val_of_single rfl i q
theorem D0_r1 (i : S2000x50.Idx) (q : D0.contr.Idx) : (D0.rhsIdx i q 1).val = (i 1).val := by
  unfold DotDims.rhsIdx
  rw [dif_neg (show ¬(1 : Fin S50x50.rank) ∈ D0.rhsBatch by decide), dif_pos (show (1 : Fin S50x50.rank) ∈ D0.rhsNonContracting by decide)]
  rfl

/-- The block product into the zero accumulator, entry `(p, j)`: the row of the block against the column of the weights. -/
theorem block_product {φ₁ φ₂ : FTy} (x : FVec Ideal S2000x50 φ₁) (w : FVec Ideal S50x50 φ₂) (p : Fin 2000) (j : Fin 50) :
    FloatOps.matmul D0 none x w (constant S2000x50 .f32 0x00000000#32) (ix2 p j) = ∑ k : Fin 50, x (ix2 p k) * w (ix2 k j) :=
  Cert.LibDot.matmul_zero_apply D0 rfl rfl D0_l0 D0_l1 D0_r0 D0_r1 none x w p j

/-- The first layer's node-transform body is `matT` of its block. -/
theorem pay0_eq (x : Vec Ideal S2000x50 .f32) (w : Vec Ideal S50x50 .f32) : k0_pay1 (F := Ideal) x w = matT x w := by
  funext i
  obtain ⟨p, j, rfl⟩ : ∃ (p : Fin 2000) (j : Fin 50), i = ix2 p j := ⟨i 0, i 1, eq_ix2 i⟩
  rw [matT_apply]
  unfold k0_pay1
  refine (block_product _ _ p j).trans ?_
  unfold dot
  refine Finset.sum_congr rfl fun k _ => ?_
  rw [shapeCast_self]
  rfl

/-- The second layer's node-transform body is `matT` of its block (it casts the block, too, to its own shape). -/
theorem pay2_eq (x : Vec Ideal S2000x50 .f32) (w : Vec Ideal S50x50 .f32) : k2_pay1 (F := Ideal) x w = matT x w := by
  funext i
  obtain ⟨p, j, rfl⟩ : ∃ (p : Fin 2000) (j : Fin 50), i = ix2 p j := ⟨i 0, i 1, eq_ix2 i⟩
  rw [matT_apply]
  unfold k2_pay1
  refine (block_product _ _ p j).trans ?_
  unfold dot
  refine Finset.sum_congr rfl fun k _ => ?_
  rw [shapeCast_self, shapeCast_self]
  rfl

end Cert.Graph

end
-- ==== Proof.ArrCommon.lean ====
/-
  What the five regions' array lemmas share: the zero offsets of a whole-buffer access, and the row-locality of the dense
  stages — `matT`, `gru` and `gruRelu` at two indices, of two families of arrays, agree as soon as the rows they read
  agree (a block of rows against the whole array).
-/
import proofs.«135199_j77764677862202_1_alg».proof.Proof.Spec
import Idealize.ShloMosaic.Lib.Pipeline.Value

noncomputable section

open scoped BigOperators

namespace Cert.Graph

open Idealize.ShloMosaic Idealize.ShloMosaic.ValueIdx

theorem hz1 : (![0] : Fin 1 → Nat) = fun _ => 0 := funext fun a => by fin_cases a; rfl
theorem hz2 : (![0, 0] : Fin 2 → Nat) = fun _ => 0 := funext fun a => by fin_cases a <;> rfl

/-- `matT` at two indices, of two pairs of arrays, agrees when the two rows of the node arrays agree and the two
    columns of the weights agree. -/
theorem matT_congr {R R' : ℕ} (x : (⟨2, ![R, 50]⟩ : Shape).Idx → EReal) (A : (⟨2, ![R', 50]⟩ : Shape).Idx → EReal)
    (w W : (⟨2, ![50, 50]⟩ : Shape).Idx → EReal) (p : Fin R) (q : Fin R') (j : Fin 50)
    (hx : ∀ k : Fin 50, x (ix2 p k) = A (ix2 q k)) (hw : ∀ k : Fin 50, w (ix2 k j) = W (ix2 k j)) :
    matT x w (ix2 p j) = matT A W (ix2 q j) := by
  rw [matT_apply, matT_apply]
  unfold dot
  exact Finset.sum_congr rfl fun k _ => congrArg₂ (· * ·) (hx k) (hw k)

/-- `gru` at two indices, of two families of arrays, agrees when the two rows of the messages and of the old state agree
    and the weights and biases are the same. -/
theorem gru_congr {R R' : ℕ} (a h : (⟨2, ![R, 50]⟩ : Shape).Idx → EReal) (A H : (⟨2, ![R', 50]⟩ : Shape).Idx → EReal)
    (wi wh Wi Wh : (⟨2, ![50, 150]⟩ : Shape).Idx → EReal) (bi bh Bi Bh : (⟨1, ![150]⟩ : Shape).Idx → EReal)
    (p : Fin R) (q : Fin R') (j : Fin 50)
    (ha : ∀ k : Fin 50, a (ix2 p k) = A (ix2 q k)) (hh : ∀ k : Fin 50, h (ix2 p k) = H (ix2 q k))
    (hwi : wi = Wi) (hwh : wh = Wh) (hbi : bi = Bi) (hbh : bh = Bh) :
    gru a h wi wh bi bh (ix2 p j) = gru A H Wi Wh Bi Bh (ix2 q j) := by
  subst hwi hwh hbi hbh
  rw [gru_apply, gru_apply]
  have e1 : row a p = row A q := funext ha
  have e2 : row h p = row H q := funext hh
  rw [e1, e2]

/-- The same for the clamped update. -/
theorem gruRelu_congr {R R' : ℕ} (a h : (⟨2, ![R, 50]⟩ : Shape).Idx → EReal) (A H : (⟨2, ![R', 50]⟩ : Shape).Idx → EReal)
    (wi wh Wi Wh : (⟨2, ![50, 150]⟩ : Shape).Idx → EReal) (bi bh Bi Bh : (⟨1, ![150]⟩ : Shape).Idx → EReal)
    (p : Fin R) (q : Fin R') (j : Fin 50)
    (ha : ∀ k : Fin 50, a (ix2 p k) = A (ix2 q k)) (hh : ∀ k : Fin 50, h (ix2 p k) = H (ix2 q k))
    (hwi : wi = Wi) (hwh : wh = Wh) (hbi : bi = Bi) (hbh : bh = Bh) :
    gruRelu a h wi wh bi bh (ix2 p j) = gruRelu A H Wi Wh Bi Bh (ix2 q j) := by
  rw [gruRelu_apply, gruRelu_apply, ← gru_apply, ← gru_apply, gru_congr a h A H wi wh Wi Wh bi bh Bi Bh p q j ha hh hwi hwh hbi hbh]

end Cert.Graph

end
-- ==== Proof.Arr0.lean ====
/-
  Region 0 (the first layer's node transform) as one function of the arrays it finds. The grid's point `t` stages rows
  `2000·t … 2000·t + 1999` of the node array and the whole weight matrix, and writes back rows `2000·t …` of the result;
  a row of `h · W` depends on the same row of `h` only, so what point `t` writes back is block `t` of `matT h W`, the
  fifty blocks tile the result array, and the array ends holding `matT h W`.
-/
import proofs.«135199_j77764677862202_1_alg».proof.Proof.Gen.KernelIdeal.Frame
import proofs.«135199_j77764677862202_1_alg».proof.Proof.Spec
import proofs.«135199_j77764677862202_1_alg».proof.Proof.BodyMat
import proofs.«135199_j77764677862202_1_alg».proof.Proof.ArrCommon
import Idealize.ShloMosaic.Lib.Pipeline.Value
import Idealize.ShloMosaic.Lib.Tactic

noncomputable section

open scoped BigOperators

namespace Cert.Graph

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The printed index maps of region 0, decided over the grid: the row windows move with the point, the weights stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The node window's block at point `t` is rows `2000·t …` of the node array. -/
theorem blk0_0 (c : Dev nD) (t : Fin cfg0.N) (x : S2000x50.Idx) (k : S100000x50.Idx)
    (hk0 : (k 0).val = 2000 * t.val + (x 0).val) (hk1 : (k 1).val = (x 1).val) :
    (iblk0 V c 0 t : Vec Ideal S2000x50 .f32) x = (V c main_arg0 : S100000x50.Idx → EReal) k := by
  obtain ⟨e0, e1, -⟩ := idx0 t
  unfold iblk0
  rw [View.read_apply]
  show V c main_arg0 _ = V c main_arg0 _
  refine congrArg (V c main_arg0) ?_
  funext a
  apply Fin.ext
  match a with
  | ⟨0, _⟩ => show win0_0.index t 0 * 2000 + 1 * (x 0).val = (k 0).val; rw [e0, hk0]; omega
  | ⟨1, _⟩ => show win0_0.index t 1 * 50 + 1 * (x 1).val = (k 1).val; rw [e1, hk1]; omega

/-- The weight window's block at every point is the whole weight matrix. -/
theorem blk0_1 (c : Dev nD) (t : Fin cfg0.N) (x : S50x50.Idx) :
    (iblk0 V c 1 t : Vec Ideal S50x50 .f32) x = (V c main_v14 : S50x50.Idx → EReal) x := by
  obtain ⟨-, -, e2, e3, -⟩ := idx0 t
  unfold iblk0
  rw [View.read_apply]
  show V c main_v14 _ = V c main_v14 _
  refine congrArg (V c main_v14) ?_
  funext a
  apply Fin.ext
  match a with
  | ⟨0, _⟩ => show win0_1.index t 0 * 50 + 1 * (x 0).val = (x 0).val; rw [e2]; omega
  | ⟨1, _⟩ => show win0_1.index t 1 * 50 + 1 * (x 1).val = (x 1).val; rw [e3]; omega

/-- Entry `y` of `matT` of point `t`'s two blocks is entry `i` of `matT` of the two arrays, when `i` is `y` moved down
    `2000·t` rows. -/
theorem flushed0_at (c : Dev nD) (t : Fin cfg0.N) (y : S2000x50.Idx) (i : S100000x50.Idx)
    (hi0 : (i 0).val = 2000 * t.val + (y 0).val) (hi1 : (i 1).val = (y 1).val) :
    matT (iblk0 V c 0 t : Vec Ideal S2000x50 .f32) (iblk0 V c 1 t : Vec Ideal S50x50 .f32) y
      = matT (V c main_arg0 : S100000x50.Idx → EReal) (V c main_v14 : S50x50.Idx → EReal) i := by
  obtain ⟨p, j, rfl⟩ : ∃ (p : Fin 2000) (j : Fin 50), y = ix2 p j := ⟨y 0, y 1, eq_ix2 y⟩
  obtain ⟨q, j', rfl⟩ : ∃ (q : Fin 100000) (j' : Fin 50), i = ix2 q j' := ⟨i 0, i 1, eq_ix2 i⟩
  obtain rfl : j' = j := Fin.ext hi1
  refine matT_congr _ _ _ _ p q j' (fun k => ?_) (fun k => ?_)
  · exact blk0_0 V c t (ix2 p k) (ix2 q k) hi0 rfl
  · exact blk0_1 V c t (ix2 k j')

/-- What point `t` writes back is block `t` of `matT` of the two arrays. -/
theorem flushed0 (c : Dev nD) (t : Fin cfg0.N) :
    (dat0 V c).flushed 2 t = ((cfg0.win 2).blk t).view.read (Elt Ideal) (matT (V c main_arg0) (V c main_v14)) := by
  obtain ⟨-, -, -, -, e4, e5⟩ := idx0 t
  show (cfg0.win 2).cut (grid0.coords t) ((dat0 V c).after 2 t) = _
  rw [after0_2]
  unfold out0_2
  rw [View.canon_unit_zero hz2]
  simp only [View.ld_unit_zero (S := S2000x50) hz2, View.ld_unit_zero (S := S50x50) hz2]
  rw [pay0_eq]
  funext y
  show matT (iblk0 V c 0 t) (iblk0 V c 1 t) y = matT (V c main_arg0) (V c main_v14) (((cfg0.win 2).blk t).view.emb y)
  refine flushed0_at V c t y _ ?_ ?_
  · show win0_2.index t 0 * 2000 + 1 * (y 0).val = 2000 * t.val + (y 0).val
    rw [e4]; omega
  · show win0_2.index t 1 * 50 + 1 * (y 1).val = (y 1).val
    rw [e5]; omega

/-- An index of the result array is in point `t`'s block iff each coordinate is in the block's range on its axis. -/
theorem mem_blk0 (t : Fin cfg0.N) (i : S100000x50.Idx) :
    i ∈ ((cfg0.win 2).blk t).view.set ↔ ∀ a : Fin 2, win0_2.index t a * S2000x50.size a ≤ (i a).val ∧ (i a).val < win0_2.index t a * S2000x50.size a + S2000x50.size a := by
  show i ∈ ((View.whole main_v15).slice (win0_2.rect t)).set ↔ _
  rw [View.set_slice_whole, Rect.mem_set_unit]
  exact Iff.rfl

/-- Every index of the result array is in the block of the point its row belongs to. -/
theorem cover0 (i : S100000x50.Idx) : ∃ t : Fin cfg0.N, (cfg0.win 2).flush t = true ∧ i ∈ ((cfg0.win 2).blk t).view.set := by
  have hi0 : (i 0).val < 100000 := (i 0).isLt
  have hi1 : (i 1).val < 50 := (i 1).isLt
  have hN : cfg0.N = 50 := N_0
  have ht : (i 0).val / 2000 < cfg0.N := by rw [hN]; omega
  obtain ⟨-, -, -, -, e4, e5⟩ := idx0 ⟨(i 0).val / 2000, ht⟩
  refine ⟨⟨(i 0).val / 2000, ht⟩, flush0_2 _, ?_⟩
  rw [mem_blk0]
  intro a
  match a with
  | ⟨0, _⟩ =>
    show win0_2.index ⟨(i 0).val / 2000, ht⟩ 0 * 2000 ≤ (i 0).val ∧ (i 0).val < win0_2.index ⟨(i 0).val / 2000, ht⟩ 0 * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ 1 * 50 ≤ (i 1).val ∧ (i 1).val < win0_2.index ⟨(i 0).val / 2000, ht⟩ 1 * 50 + 50
    rw [e5]; omega

/-- Region 0's result array after its write-backs: `matT` of the node array and the weight matrix it found. -/
theorem arr0 (c : Dev nD) : (dat0 V c).arrAt 2 cfg0.N = matT (V c main_arg0) (V c main_v14) :=
  (dat0 V c).arrAt_eq_of_cover 2 _ (fun t _ => flushed0 V c t) cover0

end Cert.Graph

end
-- ==== Proof.LibCols.lean ====
/-
  Column operations on rank-2 arrays read at an index written by its coordinates, over abstract extents.

  * a slice of columns `[off, off + C')` of an `[R, C]` array reads, at `(r, k)`, the array at `(r, off + k)`;
  * three one-column arrays `[R, 1]` joined along the second axis read, at `(r, i)`, the `i`-th of them at `(r, 0)`;
  * a bias vector of `c` entries cast to one row and repeated down `a` rows reads, at `(p, j)`, the vector at `j`.
-/
import Idealize.ShloMosaic.PureOps.Ideal
import Idealize.ShloMosaic.Lib.ValueIdx
import Idealize.ShloMosaic.Lib.Pipeline.Value

noncomputable section

namespace Cert.LibCols

open Idealize.ShloMosaic Idealize.ShloMosaic.ValueIdx

variable {α : Type}

/-- A slice of the columns from `off` on, all rows kept, at `(r, k)`: the operand at `(r, off + k)`. -/
theorem slice_cols_apply {R C C' : ℕ} (off : ℕ) (x : (⟨2, ![R, C]⟩ : Shape).Idx → α)
    (h : (⟨2, ![R, C]⟩ : Shape).Slices ![0, off] ⟨2, ![R, C']⟩) (r : Fin R) (k : Fin C') (hlt : off + k.val < C) :
    extractStridedSlice ⟨2, ![R, C']⟩ ![0, off] x h (ix2 r k) = x (ix2 r ⟨off + k.val, hlt⟩) :=
  extractStridedSlice_apply ![0, off] x h (ix2 r k) (ix2 r ⟨off + k.val, hlt⟩) (fun a => by
    match a with
    | ⟨0, _⟩ => exact (Nat.zero_add _).symm
    | ⟨1, _⟩ => rfl)

/-- A slice of the first `C'` columns, all rows kept, at `(r, k)`: the operand at `(r, k)`. -/
theorem slice_cols_zero_apply {R C C' : ℕ} (x : (⟨2, ![R, C]⟩ : Shape).Idx → α)
    (h : (⟨2, ![R, C]⟩ : Shape).Slices ![0, 0] ⟨2, ![R, C']⟩) (r : Fin R) (k : Fin C') (hlt : k.val < C) :
    extractStridedSlice ⟨2, ![R, C']⟩ ![0, 0] x h (ix2 r k) = x (ix2 r ⟨k.val, hlt⟩) :=
  extractStridedSlice_apply ![0, 0] x h (ix2 r k) (ix2 r ⟨k.val, hlt⟩) (fun a => by
    match a with
    | ⟨0, _⟩ => exact (Nat.zero_add _).symm
    | ⟨1, _⟩ => exact (Nat.zero_add _).symm)

/-- Three one-column arrays joined along the second axis, at `(r, i)`: the `i`-th array's entry of row `r`. -/
theorem concat3_unit_cols_apply {R : ℕ} (a b c : (⟨2, ![R, 1]⟩ : Shape).Idx → α)
    (h : Shape.Concatenates [(⟨2, ![R, 1]⟩ : Shape), ⟨2, ![R, 1]⟩, ⟨2, ![R, 1]⟩] ⟨2, ![R, 3]⟩ (1 : Fin 2)) (r : Fin R) (i : Fin 3) :
    concatenate ⟨2, ![R, 3]⟩ (1 : Fin 2) [⟨⟨2, ![R, 1]⟩, a⟩, ⟨⟨2, ![R, 1]⟩, b⟩, ⟨⟨2, ![R, 1]⟩, c⟩] h (ix2 r i)
      = (![a, b, c] : Fin 3 → (⟨2, ![R, 1]⟩ : Shape).Idx → α) i (ix2 r (0 : Fin 1)) := by
  have side : ∀ d : Fin 2, d ≠ (1 : Fin 2) → ((ix2 r (0 : Fin 1) : (⟨2, ![R, 1]⟩ : Shape).Idx) d).val = ((ix2 r i : (⟨2, ![R, 3]⟩ : Shape).Idx) d).val := fun d hd => by
    match d with
    | ⟨0, _⟩ => rfl
    | ⟨1, _⟩ => exact absurd rfl hd
  have h' : Shape.Concatenates (([⟨⟨2, ![R, 1]⟩, a⟩, ⟨⟨2, ![R, 1]⟩, b⟩, ⟨⟨2, ![R, 1]⟩, c⟩] : List ((s : Shape) × (s.Idx → α))).map (·.1)) (⟨2, ![R, 3]⟩ : Shape) (1 : Fin 2) := h
  match i with
  | ⟨0, _⟩ =>
    exact concatenate_apply_piece (t := ⟨2, ![R, 3]⟩) (1 : Fin 2) ([⟨⟨2, ![R, 1]⟩, a⟩, ⟨⟨2, ![R, 1]⟩, b⟩, ⟨⟨2, ![R, 1]⟩, c⟩] : List ((s : Shape) × (s.Idx → α))) h' (ix2 r _) 0 (by show 0 < 3; omega) ⟨2, ![R, 1]⟩ a rfl rfl 0 rfl (ix2 r (0 : Fin 1)) side rfl
  | ⟨1, _⟩ =>
    exact concatenate_apply_piece (t := ⟨2, ![R, 3]⟩) (1 : Fin 2) ([⟨⟨2, ![R, 1]⟩, a⟩, ⟨⟨2, ![R, 1]⟩, b⟩, ⟨⟨2, ![R, 1]⟩, c⟩] : List ((s : Shape) × (s.Idx → α))) h' (ix2 r _) 1 (by show 1 < 3; omega) ⟨2, ![R, 1]⟩ b rfl rfl 1 rfl (ix2 r (0 : Fin 1)) side rfl
  | ⟨2, _⟩ =>
    exact concatenate_apply_piece (t := ⟨2, ![R, 3]⟩) (1 : Fin 2) ([⟨⟨2, ![R, 1]⟩, a⟩, ⟨⟨2, ![R, 1]⟩, b⟩, ⟨⟨2, ![R, 1]⟩, c⟩] : List ((s : Shape) × (s.Idx → α))) h' (ix2 r _) 2 (by show 2 < 3; omega) ⟨2, ![R, 1]⟩ c rfl rfl 2 rfl (ix2 r (0 : Fin 1)) side rfl

/-- A vector of `c` entries cast to the one row `[1, c]` and repeated down `a` rows, at `(p, j)`: the vector at `j`. -/
theorem bias_rows_apply {a c : ℕ} (x : (⟨1, ![c]⟩ : Shape).Idx → α) (h : (⟨1, ![c]⟩ : Shape).ShapeCasts ⟨2, ![1, c]⟩)
    (h' : (⟨2, ![1, c]⟩ : Shape).Broadcasts ⟨2, ![a, c]⟩) (p : Fin a) (j : Fin c) :
    broadcastTo ⟨2, ![a, c]⟩ (shapeCast ⟨2, ![1, c]⟩ x h) h' (ix2 p j) = x (ix1 j) :=
  (broadcastTo_apply _ h' (ix2 p j) (ix2 (0 : Fin 1) j) (fun d => match d with
    | ⟨0, _⟩ => by show (0 : ℕ) = if (1 : ℕ) = 1 then 0 else p.val; rw [if_pos rfl]
    | ⟨1, _⟩ => by show j.val = if c = 1 then 0 else j.val; have := j.isLt; split <;> omega)).trans
  (shapeCast_apply x h _ _ (by
    rw [Shape.rowMajor_val_two, Shape.rowMajor_val_one]
    show j.val = (0 : ℕ) * c + j.val
    rw [Nat.zero_mul, Nat.zero_add]))

/-- A column `[a, 1]` repeated across `b` columns, at `(p, k)`: row `p`'s one entry. -/
theorem col_bcast_apply {a b : ℕ} (v : (⟨2, ![a, 1]⟩ : Shape).Idx → α) (h : (⟨2, ![a, 1]⟩ : Shape).Broadcasts ⟨2, ![a, b]⟩)
    (p : Fin a) (k : Fin b) : broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

end Cert.LibCols

end
-- ==== Proof.BodyGru.lean ====
/-
  The two gated-recurrent-update kernel bodies, on a block of 2000 rows, are the specification's `gru` and `gruRelu`.

  Each body forms two gate rows of 150 entries, `x · W + b` for the aggregated messages and for the old state (a matrix
  product into the zero accumulator plus a bias vector repeated down the rows), cuts each into its three gates of 50
  columns, and combines them pointwise.  Read at an index `(p, j)`, a gate column of a gate row is the specification's
  `affine` of row `p` at column `off + j`; everything else reads through the index.
-/
import proofs.«135199_j77764677862202_1_alg».proof.Proof.Gen.KernelIdeal.Skeleton
import proofs.«135199_j77764677862202_1_alg».proof.Proof.Spec
import proofs.«135199_j77764677862202_1_alg».proof.Proof.LibDot
import proofs.«135199_j77764677862202_1_alg».proof.Proof.LibCols
import Idealize.ShloMosaic.Lib.ValueIdx
import Idealize.ShloMosaic.Lib.Pipeline.Value
import Idealize.ShloMosaic.PureOps.Ideal.Laws

noncomputable section

open scoped BigOperators

namespace Cert.Graph

open Idealize.ShloMosaic Idealize.ShloMosaic.ValueIdx Cert.KernelIdeal Cert.KernelIdeal.Gen

/-! ## The contraction `[2000, 50] · [50, 150]`: where its dimension numbers send an index -/

theorem gateDot_l0 (i : S2000x150.Idx) (q : dot_S2000x50_S50x150_S2000x150_1_0_0_1_n_n.contr.Idx) :
    (dot_S2000x50_S50x150_S2000x150_1_0_0_1_n_n.lhsIdx i q 0).val = (i 0).val := by
  unfold DotDims.lhsIdx
  rw [dif_neg (show ¬(0 : Fin S2000x50.rank) ∈ dot_S2000x50_S50x150_S2000x150_1_0_0_1_n_n.lhsBatch by decide), dif_pos (show (0 : Fin S2000x50.rank) ∈ dot_S2000x50_S50x150_S2000x150_1_0_0_1_n_n.lhsNonContracting by decide)]
  rfl

theorem gateDot_l1 (i : S2000x150.Idx) (q : dot_S2000x50_S50x150_S2000x150_1_0_0_1_n_n.contr.Idx) :
    (dot_S2000x50_S50x150_S2000x150_1_0_0_1_n_n.lhsIdx i q 1).val = (q ⟨0, by decide⟩).val :=
  dot_S2000x50_S50x150_S2000x150_1_0_0_1_n_n.lhsIdx_val_of_single rfl i q

theorem gateDot_r0 (i : S2000x150.Idx) (q : dot_S2000x50_S50x150_S2000x150_1_0_0_1_n_n.contr.Idx) :
    (dot_S2000x50_S50x150_S2000x150_1_0_0_1_n_n.rhsIdx i q 0).val = (q ⟨0, by decide⟩).val :=
  dot_S2000x50_S50x150_S2000x150_1_0_0_1_n_n.rhsIdx_val_of_single rfl i q

theorem gateDot_r1 (i : S2000x150.Idx) (q : dot_S2000x50_S50x150_S2000x150_1_0_0_1_n_n.contr.Idx) :
    (dot_S2000x50_S50x150_S2000x150_1_0_0_1_n_n.rhsIdx i q 1).val = (i 1).val := by
  unfold DotDims.rhsIdx
  rw [dif_neg (show ¬(1 : Fin S50x150.rank) ∈ dot_S2000x50_S50x150_S2000x150_1_0_0_1_n_n.rhsBatch by decide), dif_pos (show (1 : Fin S50x150.rank) ∈ dot_S2000x50_S50x150_S2000x150_1_0_0_1_n_n.rhsNonContracting by decide)]
  rfl

/-! ## A gate row, and a gate column of it, at an index -/

/-- The gate row of the kernel: the product of the rows `x` by the weights `w` into the zero accumulator, plus the bias
    `b` repeated down the rows.  (The changes of float format are the identity on the extended reals.) -/
abbrev gateRows (x : FVec Ideal S2000x50 .f32) (w : FVec Ideal S50x150 .f32) (b : FVec Ideal S150 .f32)
    (hlt : FTy.bits .bf16 < FTy.bits .f32) (hw : S50x150.ShapeCasts S50x150) (hb : S150.ShapeCasts S1x150)
    (hbb : S1x150.Broadcasts S2000x150) : FVec Ideal S2000x150 .f32 :=
  addf (matmul dot_S2000x50_S50x150_S2000x150_1_0_0_1_n_n none (truncf .bf16 x hlt) (truncf .bf16 (shapeCast S50x150 w hw) hlt)
      (constant S2000x150 .f32 0x00000000#32))
    (broadcastTo S2000x150 (shapeCast S1x150 b hb) hbb)

/-- Entry `(p, c)` of the gate row is the specification's `affine` of row `p` at `c`. -/
theorem gateRows_apply (x : FVec Ideal S2000x50 .f32) (w : FVec Ideal S50x150 .f32) (b : FVec Ideal S150 .f32)
    (hlt : FTy.bits .bf16 < FTy.bits .f32) (hw : S50x150.ShapeCasts S50x150) (hb : S150.ShapeCasts S1x150)
    (hbb : S1x150.Broadcasts S2000x150) (p : Fin 2000) (c : Fin 150) :
    gateRows x w b hlt hw hb hbb (ix2 p c) = affine (row x p) (mat w) (vec b) c := by
  show FloatOps.matmul dot_S2000x50_S50x150_S2000x150_1_0_0_1_n_n none (truncf .bf16 x hlt) (truncf .bf16 (shapeCast S50x150 w hw) hlt)
      (constant S2000x150 .f32 0x00000000#32) (ix2 p c) + broadcastTo S2000x150 (shapeCast S1x150 b hb) hbb (ix2 p c) = _
  rw [shapeCast_self w hw]
  refine congrArg₂ (· + ·) ?_ (LibCols.bias_rows_apply b hb hbb p c)
  exact LibDot.matmul_zero_apply dot_S2000x50_S50x150_S2000x150_1_0_0_1_n_n rfl rfl gateDot_l0 gateDot_l1 gateDot_r0 gateDot_r1 none
    (truncf .bf16 x hlt) (truncf .bf16 w hlt) p c

/-- The gate of columns `[off, off + 50)` of the gate row at `(p, j)`: `affine` of row `p` at column `off + j`. -/
theorem gateCols_apply (off : ℕ) (hoff : off + 50 ≤ 150) (x : FVec Ideal S2000x50 .f32) (w : FVec Ideal S50x150 .f32)
    (b : FVec Ideal S150 .f32) (hlt : FTy.bits .bf16 < FTy.bits .f32) (hw : S50x150.ShapeCasts S50x150)
    (hb : S150.ShapeCasts S1x150) (hbb : S1x150.Broadcasts S2000x150) (hs : S2000x150.Slices ![0, off] S2000x50)
    (p : Fin 2000) (j : Fin 50) :
    extractStridedSlice S2000x50 ![0, off] (gateRows x w b hlt hw hb hbb) hs (ix2 p j)
      = affine (row x p) (mat w) (vec b) (col off hoff j) :=
  (LibCols.slice_cols_apply off (gateRows x w b hlt hw hb hbb) hs p j (by have := j.isLt; omega)).trans
    (gateRows_apply x w b hlt hw hb hbb p (col off hoff j))

/-- The same with the rows passed through a cast to their own shape, as the kernel passes them. -/
theorem gateCols_cast_apply (off : ℕ) (hoff : off + 50 ≤ 150) (x : FVec Ideal S2000x50 .f32) (w : FVec Ideal S50x150 .f32)
    (b : FVec Ideal S150 .f32) (hx : S2000x50.ShapeCasts S2000x50) (hlt : FTy.bits .bf16 < FTy.bits .f32)
    (hw : S50x150.ShapeCasts S50x150) (hb : S150.ShapeCasts S1x150) (hbb : S1x150.Broadcasts S2000x150)
    (hs : S2000x150.Slices ![0, off] S2000x50) (p : Fin 2000) (j : Fin 50) :
    extractStridedSlice S2000x50 ![0, off] (gateRows (shapeCast S2000x50 x hx) w b hlt hw hb hbb) hs (ix2 p j)
      = affine (row x p) (mat w) (vec b) (col off hoff j) := by
  rw [shapeCast_self x hx]
  exact gateCols_apply off hoff x w b hlt hw hb hbb hs p j

/-! ## The two bodies -/

/-- The first layer's update body is `gru`. -/
theorem pay1_eq (a h : Vec Ideal S2000x50 .f32) (wi wh : Vec Ideal S50x150 .f32) (bi bh : Vec Ideal S150 .f32) :
    k1_pay1 (F := Ideal) a h wi wh bi bh = gru a h wi wh bi bh := by
  funext i
  obtain ⟨p, j, rfl⟩ : ∃ (p : Fin 2000) (j : Fin 50), i = ix2 p j := ⟨i 0, i 1, eq_ix2 i⟩
  rw [gru_apply]
  unfold gruRow nGate zGate rGate
  rw [← gateCols_cast_apply 0 (by omega) a wi bi shapeCasts_S2000x50_S2000x50 bitsLt_bf16_f32 shapeCasts_S50x150_S50x150
      shapeCasts_S150_S1x150 broadcasts_S1x150_S2000x150 slices_S2000x150_o0_0_S2000x50 p j,
    ← gateCols_cast_apply 50 (by omega) a wi bi shapeCasts_S2000x50_S2000x50 bitsLt_bf16_f32 shapeCasts_S50x150_S50x150
      shapeCasts_S150_S1x150 broadcasts_S1x150_S2000x150 slices_S2000x150_o0_50_S2000x50 p j,
    ← gateCols_cast_apply 100 (by omega) a wi bi shapeCasts_S2000x50_S2000x50 bitsLt_bf16_f32 shapeCasts_S50x150_S50x150
      shapeCasts_S150_S1x150 broadcasts_S1x150_S2000x150 slices_S2000x150_o0_100_S2000x50 p j,
    ← gateCols_apply 0 (by omega) h wh bh bitsLt_bf16_f32 shapeCasts_S50x150_S50x150
      shapeCasts_S150_S1x150 broadcasts_S1x150_S2000x150 slices_S2000x150_o0_0_S2000x50 p j,
    ← gateCols_apply 50 (by omega) h wh bh bitsLt_bf16_f32 shapeCasts_S50x150_S50x150
      shapeCasts_S150_S1x150 broadcasts_S1x150_S2000x150 slices_S2000x150_o0_50_S2000x50 p j,
    ← gateCols_apply 100 (by omega) h wh bh bitsLt_bf16_f32 shapeCasts_S50x150_S50x150
      shapeCasts_S150_S1x150 broadcasts_S1x150_S2000x150 slices_S2000x150_o0_100_S2000x50 p j]
  rfl

/-- The new state with the old state's entry named apart from the row it came from: the last layer's body reads the
    old state through a cast to its own shape. -/
theorem gruRow_last (a h : Fin 50 → EReal) (wi wh : Fin 50 → Fin 150 → EReal) (bi bh : Fin 150 → EReal) (j : Fin 50)
    (t : EReal) (ht : t = h j) :
    gruRow a h wi wh bi bh j
      = (one32 - zGate a h wi wh bi bh j) * nGate a h wi wh bi bh j + zGate a h wi wh bi bh j * t := by
  rw [ht]; rfl

/-- The last layer's update body is `gruRelu`. -/
theorem pay3_eq (a h : Vec Ideal S2000x50 .f32) (wi wh : Vec Ideal S50x150 .f32) (bi bh : Vec Ideal S150 .f32) :
    k3_pay1 (F := Ideal) a h wi wh bi bh = gruRelu a h wi wh bi bh := by
  funext i
  obtain ⟨p, j, rfl⟩ : ∃ (p : Fin 2000) (j : Fin 50), i = ix2 p j := ⟨i 0, i 1, eq_ix2 i⟩
  have hh : shapeCast S2000x50 h shapeCasts_S2000x50_S2000x50 (ix2 p j) = h (ix2 p j) :=
    congrFun (shapeCast_self h shapeCasts_S2000x50_S2000x50) (ix2 p j)
  rw [gruRelu_apply, gruRow_last (row a p) (row h p) (mat wi) (mat wh) (vec bi) (vec bh) j _ hh]
  unfold nGate zGate rGate
  rw [← gateCols_cast_apply 0 (by omega) a wi bi shapeCasts_S2000x50_S2000x50 bitsLt_bf16_f32 shapeCasts_S50x150_S50x150
      shapeCasts_S150_S1x150 broadcasts_S1x150_S2000x150 slices_S2000x150_o0_0_S2000x50 p j,
    ← gateCols_cast_apply 50 (by omega) a wi bi shapeCasts_S2000x50_S2000x50 bitsLt_bf16_f32 shapeCasts_S50x150_S50x150
      shapeCasts_S150_S1x150 broadcasts_S1x150_S2000x150 slices_S2000x150_o0_50_S2000x50 p j,
    ← gateCols_cast_apply 100 (by omega) a wi bi shapeCasts_S2000x50_S2000x50 bitsLt_bf16_f32 shapeCasts_S50x150_S50x150
      shapeCasts_S150_S1x150 broadcasts_S1x150_S2000x150 slices_S2000x150_o0_100_S2000x50 p j,
    ← gateCols_cast_apply 0 (by omega) h wh bh shapeCasts_S2000x50_S2000x50 bitsLt_bf16_f32 shapeCasts_S50x150_S50x150
      shapeCasts_S150_S1x150 broadcasts_S1x150_S2000x150 slices_S2000x150_o0_0_S2000x50 p j,
    ← gateCols_cast_apply 50 (by omega) h wh bh shapeCasts_S2000x50_S2000x50 bitsLt_bf16_f32 shapeCasts_S50x150_S50x150
      shapeCasts_S150_S1x150 broadcasts_S1x150_S2000x150 slices_S2000x150_o0_50_S2000x50 p j,
    ← gateCols_cast_apply 100 (by omega) h wh bh shapeCasts_S2000x50_S2000x50 bitsLt_bf16_f32 shapeCasts_S50x150_S50x150
      shapeCasts_S150_S1x150 broadcasts_S1x150_S2000x150 slices_S2000x150_o0_100_S2000x50 p j]
  rfl

end Cert.Graph

end
-- ==== Proof.Arr1.lean ====
/-
  Region 1 (the first layer's gated recurrent update) as one function of the arrays it finds. The grid's point `t`
  stages rows `2000·t … 2000·t + 1999` of the aggregated messages and of the old state, and the whole of the two gate
  weight matrices and the two bias vectors, and writes back rows `2000·t …` of the new state; a row of the new state
  depends on the same row of the messages and of the old state only, so what point `t` writes back is block `t` of
  `gru` of the six arrays, the fifty blocks tile the result array, and the array ends holding it.
-/
import proofs.«135199_j77764677862202_1_alg».proof.Proof.Gen.KernelIdeal.Frame
import proofs.«135199_j77764677862202_1_alg».proof.Proof.Spec
import proofs.«135199_j77764677862202_1_alg».proof.Proof.BodyGru
import proofs.«135199_j77764677862202_1_alg».proof.Proof.ArrCommon
import Idealize.ShloMosaic.Lib.Pipeline.Value
import Idealize.ShloMosaic.Lib.Tactic

noncomputable section

open scoped BigOperators

namespace Cert.Graph

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The printed index maps of region 1, decided over the grid: the two row windows and the result move with the point,
    the weights and biases stay. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0 ∧ win1_5.index t (0 : Fin 1) = 0
    ∧ win1_6.index t (0 : Fin 2) = t.val ∧ win1_6.index t (1 : Fin 2) = 0 :=
  (by decide +kernel : ∀ t : Fin grid1.N, _)

/-- The message window's block at point `t` is rows `2000·t …` of the message array. -/
theorem blk1_0 (c : Dev nD) (t : Fin cfg1.N) (x : S2000x50.Idx) (k : S100000x50.Idx)
    (hk0 : (k 0).val = 2000 * t.val + (x 0).val) (hk1 : (k 1).val = (x 1).val) :
    (iblk1 V c 0 t : Vec Ideal S2000x50 .f32) x = (V c main_v27 : S100000x50.Idx → EReal) k := by
  obtain ⟨e0, e1, -⟩ := idx1 t
  unfold iblk1
  rw [View.read_apply]
  show V c main_v27 _ = V c main_v27 _
  refine congrArg (V c main_v27) ?_
  funext a
  apply Fin.ext
  match a with
  | ⟨0, _⟩ => show win1_0.index t 0 * 2000 + 1 * (x 0).val = (k 0).val; rw [e0, hk0]; omega
  | ⟨1, _⟩ => show win1_0.index t 1 * 50 + 1 * (x 1).val = (k 1).val; rw [e1, hk1]; omega

/-- The state window's block at point `t` is rows `2000·t …` of the old state. -/
theorem blk1_1 (c : Dev nD) (t : Fin cfg1.N) (x : S2000x50.Idx) (k : S100000x50.Idx)
    (hk0 : (k 0).val = 2000 * t.val + (x 0).val) (hk1 : (k 1).val = (x 1).val) :
    (iblk1 V c 1 t : Vec Ideal S2000x50 .f32) x = (V c main_arg0 : S100000x50.Idx → EReal) k := by
  obtain ⟨-, -, e0, e1, -⟩ := idx1 t
  unfold iblk1
  rw [View.read_apply]
  show V c main_arg0 _ = V c main_arg0 _
  refine congrArg (V c main_arg0) ?_
  funext a
  apply Fin.ext
  match a with
  | ⟨0, _⟩ => show win1_1.index t 0 * 2000 + 1 * (x 0).val = (k 0).val; rw [e0, hk0]; omega
  | ⟨1, _⟩ => show win1_1.index t 1 * 50 + 1 * (x 1).val = (k 1).val; rw [e1, hk1]; omega

/-- The two weight windows' and the two bias windows' blocks at every point are the whole arrays. -/
theorem blk1_2 (c : Dev nD) (t : Fin cfg1.N) :
    (iblk1 V c 2 t : Vec Ideal S50x150 .f32) = (V c main_v11 : S50x150.Idx → EReal) := by
  obtain ⟨-, -, -, -, e0, e1, -⟩ := idx1 t
  funext x
  unfold iblk1
  rw [View.read_apply]
  show V c main_v11 _ = V c main_v11 _
  refine congrArg (V c main_v11) ?_
  funext a
  apply Fin.ext
  match a with
  | ⟨0, _⟩ => show win1_2.index t 0 * 50 + 1 * (x 0).val = (x 0).val; rw [e0]; omega
  | ⟨1, _⟩ => show win1_2.index t 1 * 150 + 1 * (x 1).val = (x 1).val; rw [e1]; omega
theorem blk1_3 (c : Dev nD) (t : Fin cfg1.N) :
    (iblk1 V c 3 t : Vec Ideal S50x150 .f32) = (V c main_v12 : S50x150.Idx → EReal) := by
  obtain ⟨-, -, -, -, -, -, e0, e1, -⟩ := idx1 t
  funext x
  unfold iblk1
  rw [View.read_apply]
  show V c main_v12 _ = V c main_v12 _
  refine congrArg (V c main_v12) ?_
  funext a
  apply Fin.ext
  match a with
  | ⟨0, _⟩ => show win1_3.index t 0 * 50 + 1 * (x 0).val = (x 0).val; rw [e0]; omega
  | ⟨1, _⟩ => show win1_3.index t 1 * 150 + 1 * (x 1).val = (x 1).val; rw [e1]; omega
theorem blk1_4 (c : Dev nD) (t : Fin cfg1.N) :
    (iblk1 V c 4 t : Vec Ideal S150 .f32) = (V c main_arg6 : S150.Idx → EReal) := by
  obtain ⟨-, -, -, -, -, -, -, -, e0, -⟩ := idx1 t
  funext x
  unfold iblk1
  rw [View.read_apply]
  show V c main_arg6 _ = V c main_arg6 _
  refine congrArg (V c main_arg6) ?_
  funext a
  apply Fin.ext
  match a with
  | ⟨0, _⟩ => show win1_4.index t 0 * 150 + 1 * (x 0).val = (x 0).val; rw [e0]; omega
theorem blk1_5 (c : Dev nD) (t : Fin cfg1.N) :
    (iblk1 V c 5 t : Vec Ideal S150 .f32) = (V c main_arg7 : S150.Idx → EReal) := by
  obtain ⟨-, -, -, -, -, -, -, -, -, e0, -⟩ := idx1 t
  funext x
  unfold iblk1
  rw [View.read_apply]
  show V c main_arg7 _ = V c main_arg7 _
  refine congrArg (V c main_arg7) ?_
  funext a
  apply Fin.ext
  match a with
  | ⟨0, _⟩ => show win1_5.index t 0 * 150 + 1 * (x 0).val = (x 0).val; rw [e0]; omega

/-- Entry `y` of `gru` of point `t`'s six blocks is entry `i` of `gru` of the six arrays, when `i` is `y` moved down
    `2000·t` rows. -/
theorem flushed1_at (c : Dev nD) (t : Fin cfg1.N) (y : S2000x50.Idx) (i : S100000x50.Idx)
    (hi0 : (i 0).val = 2000 * t.val + (y 0).val) (hi1 : (i 1).val = (y 1).val) :
    gru (iblk1 V c 0 t : Vec Ideal S2000x50 .f32) (iblk1 V c 1 t : Vec Ideal S2000x50 .f32)
        (iblk1 V c 2 t : Vec Ideal S50x150 .f32) (iblk1 V c 3 t : Vec Ideal S50x150 .f32)
        (iblk1 V c 4 t : Vec Ideal S150 .f32) (iblk1 V c 5 t : Vec Ideal S150 .f32) y
      = gru (V c main_v27 : S100000x50.Idx → EReal) (V c main_arg0 : S100000x50.Idx → EReal)
        (V c main_v11 : S50x150.Idx → EReal) (V c main_v12 : S50x150.Idx → EReal)
        (V c main_arg6 : S150.Idx → EReal) (V c main_arg7 : S150.Idx → EReal) i := by
  obtain ⟨p, j, rfl⟩ : ∃ (p : Fin 2000) (j : Fin 50), y = ix2 p j := ⟨y 0, y 1, eq_ix2 y⟩
  obtain ⟨q, j', rfl⟩ : ∃ (q : Fin 100000) (j' : Fin 50), i = ix2 q j' := ⟨i 0, i 1, eq_ix2 i⟩
  obtain rfl : j' = j := Fin.ext hi1
  exact gru_congr _ _ _ _ _ _ _ _ _ _ _ _ p q j'
    (fun k => blk1_0 V c t (ix2 p k) (ix2 q k) hi0 rfl) (fun k => blk1_1 V c t (ix2 p k) (ix2 q k) hi0 rfl)
    (blk1_2 V c t) (blk1_3 V c t) (blk1_4 V c t) (blk1_5 V c t)

/-- What point `t` writes back is block `t` of `gru` of the six arrays. -/
theorem flushed1 (c : Dev nD) (t : Fin cfg1.N) :
    (dat1 V c).flushed 6 t = ((cfg1.win 6).blk t).view.read (Elt Ideal)
      (gru (V c main_v27) (V c main_arg0) (V c main_v11) (V c main_v12) (V c main_arg6) (V c main_arg7)) := by
  obtain ⟨-, -, -, -, -, -, -, -, -, -, e4, e5⟩ := idx1 t
  show (cfg1.win 6).cut (grid1.coords t) ((dat1 V c).after 6 t) = _
  rw [after1_6]
  unfold out1_6
  rw [View.canon_unit_zero hz2]
  simp only [View.ld_unit_zero (S := S2000x50) hz2, View.ld_unit_zero (S := S50x150) hz2, View.ld_unit_zero (S := S150) hz1]
  rw [pay1_eq]
  funext y
  show gru (iblk1 V c 0 t) (iblk1 V c 1 t) (iblk1 V c 2 t) (iblk1 V c 3 t) (iblk1 V c 4 t) (iblk1 V c 5 t) y
    = gru (V c main_v27) (V c main_arg0) (V c main_v11) (V c main_v12) (V c main_arg6) (V c main_arg7) (((cfg1.win 6).blk t).view.emb y)
  refine flushed1_at V c t y _ ?_ ?_
  · show win1_6.index t 0 * 2000 + 1 * (y 0).val = 2000 * t.val + (y 0).val
    rw [e4]; omega
  · show win1_6.index t 1 * 50 + 1 * (y 1).val = (y 1).val
    rw [e5]; omega

/-- An index of the result array is in point `t`'s block iff each coordinate is in the block's range on its axis. -/
theorem mem_blk1 (t : Fin cfg1.N) (i : S100000x50.Idx) :
    i ∈ ((cfg1.win 6).blk t).view.set ↔ ∀ a : Fin 2, win1_6.index t a * S2000x50.size a ≤ (i a).val ∧ (i a).val < win1_6.index t a * S2000x50.size a + S2000x50.size a := by
  show i ∈ ((View.whole main_v28).slice (win1_6.rect t)).set ↔ _
  rw [View.set_slice_whole, Rect.mem_set_unit]
  exact Iff.rfl

/-- Every index of the result array is in the block of the point its row belongs to. -/
theorem cover1 (i : S100000x50.Idx) : ∃ t : Fin cfg1.N, (cfg1.win 6).flush t = true ∧ i ∈ ((cfg1.win 6).blk t).view.set := by
  have hi0 : (i 0).val < 100000 := (i 0).isLt
  have hi1 : (i 1).val < 50 := (i 1).isLt
  have hN : cfg1.N = 50 := N_1
  have ht : (i 0).val / 2000 < cfg1.N := by rw [hN]; omega
  obtain ⟨-, -, -, -, -, -, -, -, -, -, e4, e5⟩ := idx1 ⟨(i 0).val / 2000, ht⟩
  refine ⟨⟨(i 0).val / 2000, ht⟩, flush1_6 _, ?_⟩
  rw [mem_blk1]
  intro a
  match a with
  | ⟨0, _⟩ =>
    show win1_6.index ⟨(i 0).val / 2000, ht⟩ 0 * 2000 ≤ (i 0).val ∧ (i 0).val < win1_6.index ⟨(i 0).val / 2000, ht⟩ 0 * 2000 + 2000
    rw [e4]; show (i 0).val / 2000 * 2000 ≤ (i 0).val ∧ (i 0).val < (i 0).val / 2000 * 2000 + 2000; omega
  | ⟨1, _⟩ =>
    show win1_6.index ⟨(i 0).val / 2000, ht⟩ 1 * 50 ≤ (i 1).val ∧ (i 1).val < win1_6.index ⟨(i 0).val / 2000, ht⟩ 1 * 50 + 50
    rw [e5]; omega

/-- Region 1's result array after its write-backs: `gru` of the six arrays it found. -/
theorem arr1 (c : Dev nD) : (dat1 V c).arrAt 6 cfg1.N
    = gru (V c main_v27) (V c main_arg0) (V c main_v11) (V c main_v12) (V c main_arg6) (V c main_arg7) :=
  (dat1 V c).arrAt_eq_of_cover 6 _ (fun t _ => flushed1 V c t) cover1

end Cert.Graph

end
-- ==== Proof.Arr2.lean ====
/-
  Region 2 (the second layer's node transform) as one function of the arrays it finds. The grid's point `t` stages rows
  `2000·t … 2000·t + 1999` of the node array and the whole weight matrix, and writes back rows `2000·t …` of the result;
  a row of `h · W` depends on the same row of `h` only, so what point `t` writes back is block `t` of `matT h W`, the
  fifty blocks tile the result array, and the array ends holding `matT h W`.
-/
import proofs.«135199_j77764677862202_1_alg».proof.Proof.Gen.KernelIdeal.Frame
import proofs.«135199_j77764677862202_1_alg».proof.Proof.Spec
import proofs.«135199_j77764677862202_1_alg».proof.Proof.BodyMat
import proofs.«135199_j77764677862202_1_alg».proof.Proof.ArrCommon
import Idealize.ShloMosaic.Lib.Pipeline.Value
import Idealize.ShloMosaic.Lib.Tactic

noncomputable section

open scoped BigOperators

namespace Cert.Graph

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The printed index maps of region 2, decided over the grid: the row windows move with the point, the weights stay. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The node window's block at point `t` is rows `2000·t …` of the node array. -/
theorem blk2_0 (c : Dev nD) (t : Fin cfg2.N) (x : S2000x50.Idx) (k : S100000x50.Idx)
    (hk0 : (k 0).val = 2000 * t.val + (x 0).val) (hk1 : (k 1).val = (x 1).val) :
    (iblk2 V c 0 t : Vec Ideal S2000x50 .f32) x = (V c main_v28 : S100000x50.Idx → EReal) k := by
  obtain ⟨e0, e1, -⟩ := idx2 t
  unfold iblk2
  rw [View.read_apply]
  show V c main_v28 _ = V c main_v28 _
  refine congrArg (V c main_v28) ?_
  funext a
  apply Fin.ext
  match a with
  | ⟨0, _⟩ => show win2_0.index t 0 * 2000 + 1 * (x 0).val = (k 0).val; rw [e0, hk0]; omega
  | ⟨1, _⟩ => show win2_0.index t 1 * 50 + 1 * (x 1).val = (k 1).val; rw [e1, hk1]; omega

/-- The weight window's block at every point is the whole weight matrix. -/
theorem blk2_1 (c : Dev nD) (t : Fin cfg2.N) (x : S50x50.Idx) :
    (iblk2 V c 1 t : Vec Ideal S50x50 .f32) x = (V c main_v30 : S50x50.Idx → EReal) x := by
  obtain ⟨-, -, e2, e3, -⟩ := idx2 t
  unfold iblk2
  rw [View.read_apply]
  show V c main_v30 _ = V c main_v30 _
  refine congrArg (V c main_v30) ?_
  funext a
  apply Fin.ext
  match a with
  | ⟨0, _⟩ => show win2_1.index t 0 * 50 + 1 * (x 0).val = (x 0).val; rw [e2]; omega
  | ⟨1, _⟩ => show win2_1.index t 1 * 50 + 1 * (x 1).val = (x 1).val; rw [e3]; omega

/-- Entry `y` of `matT` of point `t`'s two blocks is entry `i` of `matT` of the two arrays, when `i` is `y` moved down
    `2000·t` rows. -/
theorem flushed2_at (c : Dev nD) (t : Fin cfg2.N) (y : S2000x50.Idx) (i : S100000x50.Idx)
    (hi0 : (i 0).val = 2000 * t.val + (y 0).val) (hi1 : (i 1).val = (y 1).val) :
    matT (iblk2 V c 0 t : Vec Ideal S2000x50 .f32) (iblk2 V c 1 t : Vec Ideal S50x50 .f32) y
      = matT (V c main_v28 : S100000x50.Idx → EReal) (V c main_v30 : S50x50.Idx → EReal) i := by
  obtain ⟨p, j, rfl⟩ : ∃ (p : Fin 2000) (j : Fin 50), y = ix2 p j := ⟨y 0, y 1, eq_ix2 y⟩
  obtain ⟨q, j', rfl⟩ : ∃ (q : Fin 100000) (j' : Fin 50), i = ix2 q j' := ⟨i 0, i 1, eq_ix2 i⟩
  obtain rfl : j' = j := Fin.ext hi1
  refine matT_congr _ _ _ _ p q j' (fun k => ?_) (fun k => ?_)
  · exact blk2_0 V c t (ix2 p k) (ix2 q k) hi0 rfl
  · exact blk2_1 V c t (ix2 k j')

/-- What point `t` writes back is block `t` of `matT` of the two arrays. -/
theorem flushed2 (c : Dev nD) (t : Fin cfg2.N) :
    (dat2 V c).flushed 2 t = ((cfg2.win 2).blk t).view.read (Elt Ideal) (matT (V c main_v28) (V c main_v30)) := by
  obtain ⟨-, -, -, -, e4, e5⟩ := idx2 t
  show (cfg2.win 2).cut (grid2.coords t) ((dat2 V c).after 2 t) = _
  rw [after2_2]
  unfold out2_2
  rw [View.canon_unit_zero hz2]
  simp only [View.ld_unit_zero (S := S2000x50) hz2, View.ld_unit_zero (S := S50x50) hz2]
  rw [pay2_eq]
  funext y
  show matT (iblk2 V c 0 t) (iblk2 V c 1 t) y = matT (V c main_v28) (V c main_v30) (((cfg2.win 2).blk t).view.emb y)
  refine flushed2_at V c t y _ ?_ ?_
  · show win2_2.index t 0 * 2000 + 1 * (y 0).val = 2000 * t.val + (y 0).val
    rw [e4]; omega
  · show win2_2.index t 1 * 50 + 1 * (y 1).val = (y 1).val
    rw [e5]; omega

/-- An index of the result array is in point `t`'s block iff each coordinate is in the block's range on its axis. -/
theorem mem_blk2 (t : Fin cfg2.N) (i : S100000x50.Idx) :
    i ∈ ((cfg2.win 2).blk t).view.set ↔ ∀ a : Fin 2, win2_2.index t a * S2000x50.size a ≤ (i a).val ∧ (i a).val < win2_2.index t a * S2000x50.size a + S2000x50.size a := by
  show i ∈ ((View.whole main_v31).slice (win2_2.rect t)).set ↔ _
  rw [View.set_slice_whole, Rect.mem_set_unit]
  exact Iff.rfl

/-- Every index of the result array is in the block of the point its row belongs to. -/
theorem cover2 (i : S100000x50.Idx) : ∃ t : Fin cfg2.N, (cfg2.win 2).flush t = true ∧ i ∈ ((cfg2.win 2).blk t).view.set := by
  have hi0 : (i 0).val < 100000 := (i 0).isLt
  have hi1 : (i 1).val < 50 := (i 1).isLt
  have hN : cfg2.N = 50 := N_2
  have ht : (i 0).val / 2000 < cfg2.N := by rw [hN]; omega
  obtain ⟨-, -, -, -, e4, e5⟩ := idx2 ⟨(i 0).val / 2000, ht⟩
  refine ⟨⟨(i 0).val / 2000, ht⟩, flush2_2 _, ?_⟩
  rw [mem_blk2]
  intro a
  match a with
  | ⟨0, _⟩ =>
    show win2_2.index ⟨(i 0).val / 2000, ht⟩ 0 * 2000 ≤ (i 0).val ∧ (i 0).val < win2_2.index ⟨(i 0).val / 2000, ht⟩ 0 * 2000 + 2000
    rw [e4]; show (i 0).val / 2000 * 2000 ≤ (i 0).val ∧ (i 0).val < (i 0).val / 2000 * 2000 + 2000; omega
  | ⟨1, _⟩ =>
    show win2_2.index ⟨(i 0).val / 2000, ht⟩ 1 * 50 ≤ (i 1).val ∧ (i 1).val < win2_2.index ⟨(i 0).val / 2000, ht⟩ 1 * 50 + 50
    rw [e5]; omega

/-- Region 2's result array after its write-backs: `matT` of the node array and the weight matrix it found. -/
theorem arr2 (c : Dev nD) : (dat2 V c).arrAt 2 cfg2.N = matT (V c main_v28) (V c main_v30) :=
  (dat2 V c).arrAt_eq_of_cover 2 _ (fun t _ => flushed2 V c t) cover2

end Cert.Graph

end
-- ==== Proof.Arr3.lean ====
/-
  Region 3 (the second layer's gated recurrent update) as one function of the arrays it finds. The grid's point `t`
  stages rows `2000·t … 2000·t + 1999` of the aggregated messages and of the old state, and the whole of the two gate
  weight matrices and the two bias vectors, and writes back rows `2000·t …` of the new state; a row of the new state
  depends on the same row of the messages and of the old state only, so what point `t` writes back is block `t` of
  `gruRelu` of the six arrays, the fifty blocks tile the result array, and the array ends holding it.
-/
import proofs.«135199_j77764677862202_1_alg».proof.Proof.Gen.KernelIdeal.Frame
import proofs.«135199_j77764677862202_1_alg».proof.Proof.Spec
import proofs.«135199_j77764677862202_1_alg».proof.Proof.BodyGru
import proofs.«135199_j77764677862202_1_alg».proof.Proof.ArrCommon
import Idealize.ShloMosaic.Lib.Pipeline.Value
import Idealize.ShloMosaic.Lib.Tactic

noncomputable section

open scoped BigOperators

namespace Cert.Graph

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The printed index maps of region 3, decided over the grid: the two row windows and the result move with the point,
    the weights and biases stay. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 1) = 0 ∧ win3_5.index t (0 : Fin 1) = 0
    ∧ win3_6.index t (0 : Fin 2) = t.val ∧ win3_6.index t (1 : Fin 2) = 0 :=
  (by decide +kernel : ∀ t : Fin grid3.N, _)

/-- The message window's block at point `t` is rows `2000·t …` of the message array. -/
theorem blk3_0 (c : Dev nD) (t : Fin cfg3.N) (x : S2000x50.Idx) (k : S100000x50.Idx)
    (hk0 : (k 0).val = 2000 * t.val + (x 0).val) (hk1 : (k 1).val = (x 1).val) :
    (iblk3 V c 0 t : Vec Ideal S2000x50 .f32) x = (V c main_v43 : S100000x50.Idx → EReal) k := by
  obtain ⟨e0, e1, -⟩ := idx3 t
  unfold iblk3
  rw [View.read_apply]
  show V c main_v43 _ = V c main_v43 _
  refine congrArg (V c main_v43) ?_
  funext a
  apply Fin.ext
  match a with
  | ⟨0, _⟩ => show win3_0.index t 0 * 2000 + 1 * (x 0).val = (k 0).val; rw [e0, hk0]; omega
  | ⟨1, _⟩ => show win3_0.index t 1 * 50 + 1 * (x 1).val = (k 1).val; rw [e1, hk1]; omega

/-- The state window's block at point `t` is rows `2000·t …` of the old state. -/
theorem blk3_1 (c : Dev nD) (t : Fin cfg3.N) (x : S2000x50.Idx) (k : S100000x50.Idx)
    (hk0 : (k 0).val = 2000 * t.val + (x 0).val) (hk1 : (k 1).val = (x 1).val) :
    (iblk3 V c 1 t : Vec Ideal S2000x50 .f32) x = (V c main_v28 : S100000x50.Idx → EReal) k := by
  obtain ⟨-, -, e0, e1, -⟩ := idx3 t
  unfold iblk3
  rw [View.read_apply]
  show V c main_v28 _ = V c main_v28 _
  refine congrArg (V c main_v28) ?_
  funext a
  apply Fin.ext
  match a with
  | ⟨0, _⟩ => show win3_1.index t 0 * 2000 + 1 * (x 0).val = (k 0).val; rw [e0, hk0]; omega
  | ⟨1, _⟩ => show win3_1.index t 1 * 50 + 1 * (x 1).val = (k 1).val; rw [e1, hk1]; omega

/-- The two weight windows' and the two bias windows' blocks at every point are the whole arrays. -/
theorem blk3_2 (c : Dev nD) (t : Fin cfg3.N) :
    (iblk3 V c 2 t : Vec Ideal S50x150 .f32) = (V c main_v11 : S50x150.Idx → EReal) := by
  obtain ⟨-, -, -, -, e0, e1, -⟩ := idx3 t
  funext x
  unfold iblk3
  rw [View.read_apply]
  show V c main_v11 _ = V c main_v11 _
  refine congrArg (V c main_v11) ?_
  funext a
  apply Fin.ext
  match a with
  | ⟨0, _⟩ => show win3_2.index t 0 * 50 + 1 * (x 0).val = (x 0).val; rw [e0]; omega
  | ⟨1, _⟩ => show win3_2.index t 1 * 150 + 1 * (x 1).val = (x 1).val; rw [e1]; omega
theorem blk3_3 (c : Dev nD) (t : Fin cfg3.N) :
    (iblk3 V c 3 t : Vec Ideal S50x150 .f32) = (V c main_v12 : S50x150.Idx → EReal) := by
  obtain ⟨-, -, -, -, -, -, e0, e1, -⟩ := idx3 t
  funext x
  unfold iblk3
  rw [View.read_apply]
  show V c main_v12 _ = V c main_v12 _
  refine congrArg (V c main_v12) ?_
  funext a
  apply Fin.ext
  match a with
  | ⟨0, _⟩ => show win3_3.index t 0 * 50 + 1 * (x 0).val = (x 0).val; rw [e0]; omega
  | ⟨1, _⟩ => show win3_3.index t 1 * 150 + 1 * (x 1).val = (x 1).val; rw [e1]; omega
theorem blk3_4 (c : Dev nD) (t : Fin cfg3.N) :
    (iblk3 V c 4 t : Vec Ideal S150 .f32) = (V c main_arg6 : S150.Idx → EReal) := by
  obtain ⟨-, -, -, -, -, -, -, -, e0, -⟩ := idx3 t
  funext x
  unfold iblk3
  rw [View.read_apply]
  show V c main_arg6 _ = V c main_arg6 _
  refine congrArg (V c main_arg6) ?_
  funext a
  apply Fin.ext
  match a with
  | ⟨0, _⟩ => show win3_4.index t 0 * 150 + 1 * (x 0).val = (x 0).val; rw [e0]; omega
theorem blk3_5 (c : Dev nD) (t : Fin cfg3.N) :
    (iblk3 V c 5 t : Vec Ideal S150 .f32) = (V c main_arg7 : S150.Idx → EReal) := by
  obtain ⟨-, -, -, -, -, -, -, -, -, e0, -⟩ := idx3 t
  funext x
  unfold iblk3
  rw [View.read_apply]
  show V c main_arg7 _ = V c main_arg7 _
  refine congrArg (V c main_arg7) ?_
  funext a
  apply Fin.ext
  match a with
  | ⟨0, _⟩ => show win3_5.index t 0 * 150 + 1 * (x 0).val = (x 0).val; rw [e0]; omega

/-- Entry `y` of `gruRelu` of point `t`'s six blocks is entry `i` of `gruRelu` of the six arrays, when `i` is `y` moved down
    `2000·t` rows. -/
theorem flushed3_at (c : Dev nD) (t : Fin cfg3.N) (y : S2000x50.Idx) (i : S100000x50.Idx)
    (hi0 : (i 0).val = 2000 * t.val + (y 0).val) (hi1 : (i 1).val = (y 1).val) :
    gruRelu (iblk3 V c 0 t : Vec Ideal S2000x50 .f32) (iblk3 V c 1 t : Vec Ideal S2000x50 .f32)
        (iblk3 V c 2 t : Vec Ideal S50x150 .f32) (iblk3 V c 3 t : Vec Ideal S50x150 .f32)
        (iblk3 V c 4 t : Vec Ideal S150 .f32) (iblk3 V c 5 t : Vec Ideal S150 .f32) y
      = gruRelu (V c main_v43 : S100000x50.Idx → EReal) (V c main_v28 : S100000x50.Idx → EReal)
        (V c main_v11 : S50x150.Idx → EReal) (V c main_v12 : S50x150.Idx → EReal)
        (V c main_arg6 : S150.Idx → EReal) (V c main_arg7 : S150.Idx → EReal) i := by
  obtain ⟨p, j, rfl⟩ : ∃ (p : Fin 2000) (j : Fin 50), y = ix2 p j := ⟨y 0, y 1, eq_ix2 y⟩
  obtain ⟨q, j', rfl⟩ : ∃ (q : Fin 100000) (j' : Fin 50), i = ix2 q j' := ⟨i 0, i 1, eq_ix2 i⟩
  obtain rfl : j' = j := Fin.ext hi1
  exact gruRelu_congr _ _ _ _ _ _ _ _ _ _ _ _ p q j'
    (fun k => blk3_0 V c t (ix2 p k) (ix2 q k) hi0 rfl) (fun k => blk3_1 V c t (ix2 p k) (ix2 q k) hi0 rfl)
    (blk3_2 V c t) (blk3_3 V c t) (blk3_4 V c t) (blk3_5 V c t)

/-- What point `t` writes back is block `t` of `gruRelu` of the six arrays. -/
theorem flushed3 (c : Dev nD) (t : Fin cfg3.N) :
    (dat3 V c).flushed 6 t = ((cfg3.win 6).blk t).view.read (Elt Ideal)
      (gruRelu (V c main_v43) (V c main_v28) (V c main_v11) (V c main_v12) (V c main_arg6) (V c main_arg7)) := by
  obtain ⟨-, -, -, -, -, -, -, -, -, -, e4, e5⟩ := idx3 t
  show (cfg3.win 6).cut (grid3.coords t) ((dat3 V c).after 6 t) = _
  rw [after3_6]
  unfold out3_6
  rw [View.canon_unit_zero hz2]
  simp only [View.ld_unit_zero (S := S2000x50) hz2, View.ld_unit_zero (S := S50x150) hz2, View.ld_unit_zero (S := S150) hz1]
  rw [pay3_eq]
  funext y
  show gruRelu (iblk3 V c 0 t) (iblk3 V c 1 t) (iblk3 V c 2 t) (iblk3 V c 3 t) (iblk3 V c 4 t) (iblk3 V c 5 t) y
    = gruRelu (V c main_v43) (V c main_v28) (V c main_v11) (V c main_v12) (V c main_arg6) (V c main_arg7) (((cfg3.win 6).blk t).view.emb y)
  refine flushed3_at V c t y _ ?_ ?_
  · show win3_6.index t 0 * 2000 + 1 * (y 0).val = 2000 * t.val + (y 0).val
    rw [e4]; omega
  · show win3_6.index t 1 * 50 + 1 * (y 1).val = (y 1).val
    rw [e5]; omega

/-- An index of the result array is in point `t`'s block iff each coordinate is in the block's range on its axis. -/
theorem mem_blk3 (t : Fin cfg3.N) (i : S100000x50.Idx) :
    i ∈ ((cfg3.win 6).blk t).view.set ↔ ∀ a : Fin 2, win3_6.index t a * S2000x50.size a ≤ (i a).val ∧ (i a).val < win3_6.index t a * S2000x50.size a + S2000x50.size a := by
  show i ∈ ((View.whole main_v44).slice (win3_6.rect t)).set ↔ _
  rw [View.set_slice_whole, Rect.mem_set_unit]
  exact Iff.rfl

/-- Every index of the result array is in the block of the point its row belongs to. -/
theorem cover3 (i : S100000x50.Idx) : ∃ t : Fin cfg3.N, (cfg3.win 6).flush t = true ∧ i ∈ ((cfg3.win 6).blk t).view.set := by
  have hi0 : (i 0).val < 100000 := (i 0).isLt
  have hi1 : (i 1).val < 50 := (i 1).isLt
  have hN : cfg3.N = 50 := N_3
  have ht : (i 0).val / 2000 < cfg3.N := by rw [hN]; omega
  obtain ⟨-, -, -, -, -, -, -, -, -, -, e4, e5⟩ := idx3 ⟨(i 0).val / 2000, ht⟩
  refine ⟨⟨(i 0).val / 2000, ht⟩, flush3_6 _, ?_⟩
  rw [mem_blk3]
  intro a
  match a with
  | ⟨0, _⟩ =>
    show win3_6.index ⟨(i 0).val / 2000, ht⟩ 0 * 2000 ≤ (i 0).val ∧ (i 0).val < win3_6.index ⟨(i 0).val / 2000, ht⟩ 0 * 2000 + 2000
    rw [e4]; show (i 0).val / 2000 * 2000 ≤ (i 0).val ∧ (i 0).val < (i 0).val / 2000 * 2000 + 2000; omega
  | ⟨1, _⟩ =>
    show win3_6.index ⟨(i 0).val / 2000, ht⟩ 1 * 50 ≤ (i 1).val ∧ (i 1).val < win3_6.index ⟨(i 0).val / 2000, ht⟩ 1 * 50 + 50
    rw [e5]; omega

/-- Region 3's result array after its write-backs: `gruRelu` of the six arrays it found. -/
theorem arr3 (c : Dev nD) : (dat3 V c).arrAt 6 cfg3.N
    = gruRelu (V c main_v43) (V c main_v28) (V c main_v11) (V c main_v12) (V c main_arg6) (V c main_arg7) :=
  (dat3 V c).arrAt_eq_of_cover 6 _ (fun t _ => flushed3 V c t) cover3

end Cert.Graph

end
-- ==== Proof.LibRowwise.lean ====
/-
  Layout operations of row-wise kernels read at an index written by coordinates, over abstract extents, and a
  matrix product into a zero accumulator read as a plain sum.

  * a vector of `a` entries cast to a column `[a, 1]` reads, at `(i, u)`, the vector at `i`;
  * a column `[a, 1]` broadcast to `[a, b]` reads, at `(p, c)`, the column at `(p, 0)`: every entry of a row is the row's one value;
  * two arrays `[R, a]` and `[R, b]` joined along the second axis read, at `(r, j)`, the first at `(r, j)` when `j < a`
    and the second at `(r, j - a)` otherwise;
  * a product of an `[m, k]` by a `[k, n]` array contracting the first's columns with the second's rows, accumulated into
    zero, is `∑ⱼ A[p, j] · B[j, e]` at `(p, e)` on the extended reals.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibRowwise

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two arrays joined along the second axis, read at `(r, j)`: the first below its width `a`, the second from `a` on. -/
theorem concatenate_cols_apply {R a b c : ℕ} (hc : c = a + b) (x : (⟨2, ![R, a]⟩ : Shape).Idx → α) (y : (⟨2, ![R, b]⟩ : Shape).Idx → α)
    (h : Shape.Concatenates [(⟨2, ![R, a]⟩ : Shape), ⟨2, ![R, b]⟩] ⟨2, ![R, c]⟩ (1 : Fin 2)) (r : Fin R) (j : Fin c) :
    concatenate ⟨2, ![R, c]⟩ (1 : Fin 2) [⟨⟨2, ![R, a]⟩, x⟩, ⟨⟨2, ![R, b]⟩, y⟩] h (ix2 r j)
      = if hj : j.val < a then x (ix2 r ⟨j.val, hj⟩) else y (ix2 r ⟨j.val - a, by have := j.isLt; omega⟩) := by
  by_cases hj : j.val < a
  · rw [dif_pos hj]
    exact concatenate_pair_apply_left (1 : Fin 2) x y h (ix2 r j) rfl (ix2 r ⟨j.val, hj⟩) (fun d => by
      match d with
      | ⟨0, _⟩ => rfl
      | ⟨1, _⟩ => rfl)
  · rw [dif_neg hj]
    exact concatenate_pair_apply_right (1 : Fin 2) x y h (ix2 r j) rfl rfl
      (ix2 r ⟨j.val - a, by have := j.isLt; omega⟩) (fun d hd => by
        match d with
        | ⟨0, _⟩ => rfl
        | ⟨1, _⟩ => exact absurd rfl hd) (by show (j.val - a) + a = j.val; omega)

/-- A matrix product of rows by columns into the zero accumulator, at `(p, e)`: the sum over the one contracted
    coordinate of `A[p, j] · B[j, e]`.  The four hypotheses say where the product's dimension numbers send an output
    index and a contraction index in each operand (rows of the first with its columns contracted against the rows of
    the second). -/
theorem matmul_zero_apply {m k n : ℕ} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ .f32) (B : FVec Ideal ⟨2, ![k, n]⟩ .f32)
    (p : Fin m) (e : Fin n) :
    FloatOps.matmul D prec A B (constant ⟨2, ![m, n]⟩ .f32 0x00000000#32) (ix2 p e) = ∑ j : Fin k, A (ix2 p j) * B (ix2 j e) := by
  rw [Ideal.matmul_constant_zero_apply, ← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

end Cert.LibRowwise

end
-- ==== Proof.BodyFinal.lean ====
/-
  The vector unit's last stage read at an index: the payload of the final kernel — a matrix product of the pooled array
  by the class weights into a zero accumulator, the bias repeated down the rows, a lane maximum from −∞, a lane sum of
  exponentials, a logarithm — is, at `(r, e)`, entry `e` of the logarithm of the softmax of row `r`'s logits.

  Each operation that is not pointwise gets one small lemma over variables and explicit coordinates:
  * the reduced axis's inserted index: row `r` with class `c` inserted on axis 1 is `(r, c)`;
  * the lane maximum of an array at row `r` is the fold of `max` from −∞ over that row's six entries;
  * the lane sum at row `r` is the sum of that row's six entries;
  * a vector stood up as a column and spread along the rows reads, at `(r, e)`, the vector at `r`;
  * the matrix product into zero plus the repeated bias is the affine map of the row.
  A change of float format is the identity on the extended reals, and a cast to the same shape is the identity.
-/
import proofs.«135199_j77764677862202_1_alg».proof.Proof.Gen.KernelIdeal.Skeleton
import proofs.«135199_j77764677862202_1_alg».proof.Proof.FinalSpec
import proofs.«135199_j77764677862202_1_alg».proof.Proof.LibDot
import proofs.«135199_j77764677862202_1_alg».proof.Proof.LibCols
import proofs.«135199_j77764677862202_1_alg».proof.Proof.LibRowwise
import Idealize.ShloMosaic.PureOps.Ideal.Laws

noncomputable section

open scoped BigOperators

namespace Cert.Graph

open Idealize.ShloMosaic Idealize.ShloMosaic.ValueIdx
open Cert.KernelIdeal Cert.KernelIdeal.Gen

/-- Row `r` with class `c` inserted on the reduced axis is the index `(r, c)`. -/
theorem lift_row (h : S1000x6.Reduces [1] S1000) (r : Fin 1000) (c : Fin 6) : h.lift (ix1 r) c = ix2 r c :=
  funext fun a => Fin.ext (by
    match a with
    | ⟨0, _⟩ => rfl
    | ⟨1, _⟩ => rfl)

/-- The lane maximum from −∞ at row `r`: the fold of `max` over the row's six entries. -/
theorem lane_max_apply (z : FVec Ideal S1000x6 .f32) (h : S1000x6.Reduces [1] S1000) (hφ : FKind.Formats .f32)
    (hacc : (0xFF800000#32 : BitVec 32) = FKind.maximumf.neutral .f32 hφ) (r : Fin 1000) :
    multiReduction .maximumf [1] S1000 z 0xFF800000#32 h hφ hacc (ix1 r) = rowMax (fun c => z (ix2 r c)) := by
  refine (Ideal.multiReduction_maximumf_single z 0xFF800000#32 h hφ hacc (ix1 r)).trans ?_
  exact congrArg (fun f => (Finset.univ : Finset (Fin 6)).fold max negInf32 f)
    (funext fun c => congrArg z (lift_row h r c))

/-- The lane sum at row `r`: the sum of the row's six entries. -/
theorem lane_sum_apply (y : FVec Ideal S1000x6 .f32) (h : S1000x6.Reduces [1] S1000) (hφ : FKind.Formats .f32)
    (hacc : (0x00000000#32 : BitVec 32) = FKind.add.neutral .f32 hφ) (r : Fin 1000) :
    multiReduction .add [1] S1000 y 0x00000000#32 h hφ hacc (ix1 r) = ∑ k : Fin 6, y (ix2 r k) := by
  refine (Ideal.multiReduction_add_single y 0x00000000#32 h hφ hacc (ix1 r)).trans ?_
  exact Finset.sum_congr rfl fun k _ => congrArg y (lift_row h r k)

/-- A vector of 1000 entries stood up as a column and spread along six columns reads, at `(r, e)`, the vector at `r`. -/
theorem keepdims_apply (v : FVec Ideal S1000 .f32) (r : Fin 1000) (e : Fin 6) :
    broadcastTo S1000x6 (shapeCast S1000x1 v shapeCasts_S1000_S1000x1) broadcasts_S1000x1_S1000x6 (ix2 r e) = v (ix1 r) :=
  (LibRowwise.broadcastTo_a1_ab_apply _ broadcasts_S1000x1_S1000x6 r e).trans
    (LibRowwise.shapeCast_a_a1_apply v shapeCasts_S1000_S1000x1 r 0)

/-! ## The linear layer -/

theorem lhs_final_0 (i : S1000x6.Idx) (q : dot_S1000x50_S50x6_S1000x6_1_0_0_1_n_n.contr.Idx) :
    (dot_S1000x50_S50x6_S1000x6_1_0_0_1_n_n.lhsIdx i q 0).val = (i 0).val := by
  unfold DotDims.lhsIdx
  rw [dif_neg (show ¬(0 : Fin S1000x50.rank) ∈ dot_S1000x50_S50x6_S1000x6_1_0_0_1_n_n.lhsBatch by decide),
    dif_pos (show (0 : Fin S1000x50.rank) ∈ dot_S1000x50_S50x6_S1000x6_1_0_0_1_n_n.lhsNonContracting by decide)]
  rfl

theorem lhs_final_1 (i : S1000x6.Idx) (q : dot_S1000x50_S50x6_S1000x6_1_0_0_1_n_n.contr.Idx) :
    (dot_S1000x50_S50x6_S1000x6_1_0_0_1_n_n.lhsIdx i q 1).val = (q ⟨0, by decide⟩).val :=
  dot_S1000x50_S50x6_S1000x6_1_0_0_1_n_n.lhsIdx_val_of_single rfl i q

theorem rhs_final_0 (i : S1000x6.Idx) (q : dot_S1000x50_S50x6_S1000x6_1_0_0_1_n_n.contr.Idx) :
    (dot_S1000x50_S50x6_S1000x6_1_0_0_1_n_n.rhsIdx i q 0).val = (q ⟨0, by decide⟩).val :=
  dot_S1000x50_S50x6_S1000x6_1_0_0_1_n_n.rhsIdx_val_of_single rfl i q

theorem rhs_final_1 (i : S1000x6.Idx) (q : dot_S1000x50_S50x6_S1000x6_1_0_0_1_n_n.contr.Idx) :
    (dot_S1000x50_S50x6_S1000x6_1_0_0_1_n_n.rhsIdx i q 1).val = (i 1).val := by
  unfold DotDims.rhsIdx
  rw [dif_neg (show ¬(1 : Fin S50x6.rank) ∈ dot_S1000x50_S50x6_S1000x6_1_0_0_1_n_n.rhsBatch by decide),
    dif_pos (show (1 : Fin S50x6.rank) ∈ dot_S1000x50_S50x6_S1000x6_1_0_0_1_n_n.rhsNonContracting by decide)]
  rfl

/-- The payload's logits: the pooled array times the class weights into the zero accumulator, plus the bias repeated
    down the rows. -/
def kLogits (p : FVec Ideal S1000x50 .f32) (w : FVec Ideal S50x6 .f32) (b : FVec Ideal S6 .f32) : FVec Ideal S1000x6 .f32 :=
  addf (matmul dot_S1000x50_S50x6_S1000x6_1_0_0_1_n_n none
      (truncf .bf16 (shapeCast S1000x50 p shapeCasts_S1000x50_S1000x50) bitsLt_bf16_f32)
      (truncf .bf16 (shapeCast S50x6 w shapeCasts_S50x6_S50x6) bitsLt_bf16_f32)
      (constant S1000x6 .f32 0x00000000#32))
    (broadcastTo S1000x6 (shapeCast S1x6 b shapeCasts_S6_S1x6) broadcasts_S1x6_S1000x6)

/-- The logits at `(r, e)`: the affine map of row `r`. -/
theorem kLogits_apply (p : FVec Ideal S1000x50 .f32) (w : FVec Ideal S50x6 .f32) (b : FVec Ideal S6 .f32)
    (r : Fin 1000) (e : Fin 6) : kLogits p w b (ix2 r e) = affine (row p r) (mat w) (vec b) e := by
  unfold kLogits
  rw [shapeCast_self p, shapeCast_self w]
  exact congrArg₂ (· + ·)
    (LibDot.matmul_zero_apply dot_S1000x50_S50x6_S1000x6_1_0_0_1_n_n rfl rfl lhs_final_0 lhs_final_1 rhs_final_0 rhs_final_1
      none (truncf .bf16 p bitsLt_bf16_f32) (truncf .bf16 w bitsLt_bf16_f32) r e)
    (LibCols.bias_rows_apply b shapeCasts_S6_S1x6 broadcasts_S1x6_S1000x6 r e)

/-! ## The logarithm of the softmax of an array's rows -/

/-- An array shifted by its rows' maxima, at `(r, c)`. -/
theorem shift_apply (z : FVec Ideal S1000x6 .f32) (r : Fin 1000) (c : Fin 6) :
    subf z (broadcastTo S1000x6 (shapeCast S1000x1
        (multiReduction .maximumf [1] S1000 z 0xFF800000#32 reduces_S1000x6_S1000 (.inl rfl) rfl)
        shapeCasts_S1000_S1000x1) broadcasts_S1000x1_S1000x6) (ix2 r c)
      = z (ix2 r c) - rowMax (fun k => z (ix2 r k)) :=
  congrArg (z (ix2 r c) - ·) ((keepdims_apply _ r c).trans (lane_max_apply z _ _ _ r))

/-- The logarithm of the rows' sums of exponentials, spread along the rows, at `(r, e)`. -/
theorem lse_apply (y : FVec Ideal S1000x6 .f32) (r : Fin 1000) (e : Fin 6) :
    broadcastTo S1000x6 (log (shapeCast S1000x1
        (multiReduction .add [1] S1000 (exp y) 0x00000000#32 reduces_S1000x6_S1000 (.inl rfl) rfl)
        shapeCasts_S1000_S1000x1)) broadcasts_S1000x1_S1000x6 (ix2 r e)
      = Ideal.log (∑ k : Fin 6, Ideal.exp (y (ix2 r k))) :=
  (LibRowwise.broadcastTo_a1_ab_apply _ broadcasts_S1000x1_S1000x6 r e).trans
    (congrArg Ideal.log ((LibRowwise.shapeCast_a_a1_apply _ shapeCasts_S1000_S1000x1 r 0).trans
      (lane_sum_apply (exp y) _ _ _ r)))

/-- The payload's row-wise part on any array of logits, at `(r, e)`. -/
theorem logSoftmax_apply (z : FVec Ideal S1000x6 .f32) (r : Fin 1000) (e : Fin 6) :
    subf (subf z (broadcastTo S1000x6 (shapeCast S1000x1
          (multiReduction .maximumf [1] S1000 z 0xFF800000#32 reduces_S1000x6_S1000 (.inl rfl) rfl)
          shapeCasts_S1000_S1000x1) broadcasts_S1000x1_S1000x6))
      (broadcastTo S1000x6 (log (shapeCast S1000x1
          (multiReduction .add [1] S1000 (exp (subf z (broadcastTo S1000x6 (shapeCast S1000x1
              (multiReduction .maximumf [1] S1000 z 0xFF800000#32 reduces_S1000x6_S1000 (.inl rfl) rfl)
              shapeCasts_S1000_S1000x1) broadcasts_S1000x1_S1000x6))) 0x00000000#32 reduces_S1000x6_S1000 (.inl rfl) rfl)
          shapeCasts_S1000_S1000x1)) broadcasts_S1000x1_S1000x6) (ix2 r e)
      = logSoftmaxRow (fun c => z (ix2 r c)) e :=
  congrArg₂ (· - ·) (shift_apply z r e)
    ((lse_apply _ r e).trans (congrArg Ideal.log (Finset.sum_congr rfl fun k _ => congrArg Ideal.exp (shift_apply z r k))))

/-- The final kernel's payload is the last stage of the specification. -/
theorem pay4_eq (p : Vec Ideal S1000x50 .f32) (w : Vec Ideal S50x6 .f32) (b : Vec Ideal S6 .f32) :
    k4_pay1 (F := Ideal) p w b = final p w b := by
  funext i
  obtain ⟨r, e, rfl⟩ : ∃ (r : Fin 1000) (e : Fin 6), i = ix2 r e := ⟨i 0, i 1, eq_ix2 i⟩
  rw [final_apply]
  exact (logSoftmax_apply (kLogits p w b) r e).trans
    (congrArg (fun f => logSoftmaxRow f e) (funext fun c => kLogits_apply p w b r c))

end Cert.Graph

end
-- ==== Proof.Arr4.lean ====
/-
  Region 4 (the linear layer and the logarithm of the softmax) as one function of the arrays it finds. The grid has one
  point; every window's block there is its whole array, so what the point writes back is the whole of `final` of the
  pooled features, the weights and the bias, and the result array ends holding it.
-/
import proofs.«135199_j77764677862202_1_alg».proof.Proof.Gen.KernelIdeal.Frame
import proofs.«135199_j77764677862202_1_alg».proof.Proof.Spec
import proofs.«135199_j77764677862202_1_alg».proof.Proof.BodyFinal
import proofs.«135199_j77764677862202_1_alg».proof.Proof.ArrCommon
import Idealize.ShloMosaic.Lib.Pipeline.Value
import Idealize.ShloMosaic.Lib.Tactic

noncomputable section

open scoped BigOperators

namespace Cert.Graph

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- `final` of equal arrays is equal. -/
theorem final_congr (p P : (⟨2, ![1000, 50]⟩ : Shape).Idx → EReal) (w W : (⟨2, ![50, 6]⟩ : Shape).Idx → EReal)
    (b B : (⟨1, ![6]⟩ : Shape).Idx → EReal) (hp : p = P) (hw : w = W) (hb : b = B) : final p w b = final P W B := by
  subst hp hw hb; rfl

/-- The printed index maps of region 4, decided over the grid: every window stays at block zero. -/
theorem idx4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = 0 ∧ win4_3.index t (1 : Fin 2) = 0 :=
  (by decide +kernel : ∀ t : Fin grid4.N, _)

/-- The three input windows' blocks at the one point are the whole arrays. -/
theorem blk4_0 (c : Dev nD) (t : Fin cfg4.N) :
    (iblk4 V c 0 t : Vec Ideal S1000x50 .f32) = (V c main_v56 : S1000x50.Idx → EReal) := by
  obtain ⟨e0, e1, -⟩ := idx4 t
  funext x
  unfold iblk4
  rw [View.read_apply]
  show V c main_v56 _ = V c main_v56 _
  refine congrArg (V c main_v56) ?_
  funext a
  apply Fin.ext
  match a with
  | ⟨0, _⟩ => show win4_0.index t 0 * 1000 + 1 * (x 0).val = (x 0).val; rw [e0]; omega
  | ⟨1, _⟩ => show win4_0.index t 1 * 50 + 1 * (x 1).val = (x 1).val; rw [e1]; omega
theorem blk4_1 (c : Dev nD) (t : Fin cfg4.N) :
    (iblk4 V c 1 t : Vec Ideal S50x6 .f32) = (V c main_v57 : S50x6.Idx → EReal) := by
  obtain ⟨-, -, e0, e1, -⟩ := idx4 t
  funext x
  unfold iblk4
  rw [View.read_apply]
  show V c main_v57 _ = V c main_v57 _
  refine congrArg (V c main_v57) ?_
  funext a
  apply Fin.ext
  match a with
  | ⟨0, _⟩ => show win4_1.index t 0 * 50 + 1 * (x 0).val = (x 0).val; rw [e0]; omega
  | ⟨1, _⟩ => show win4_1.index t 1 * 6 + 1 * (x 1).val = (x 1).val; rw [e1]; omega
theorem blk4_2 (c : Dev nD) (t : Fin cfg4.N) :
    (iblk4 V c 2 t : Vec Ideal S6 .f32) = (V c main_arg9 : S6.Idx → EReal) := by
  obtain ⟨-, -, -, -, e0, -⟩ := idx4 t
  funext x
  unfold iblk4
  rw [View.read_apply]
  show V c main_arg9 _ = V c main_arg9 _
  refine congrArg (V c main_arg9) ?_
  funext a
  apply Fin.ext
  match a with
  | ⟨0, _⟩ => show win4_2.index t 0 * 6 + 1 * (x 0).val = (x 0).val; rw [e0]; omega

/-- Entry `y` of `final` of the point's three blocks is entry `i` of `final` of the three arrays, when `i` is `y`. -/
theorem flushed4_at (c : Dev nD) (t : Fin cfg4.N) (y i : S1000x6.Idx) (hi : i = y) :
    final (iblk4 V c 0 t : Vec Ideal S1000x50 .f32) (iblk4 V c 1 t : Vec Ideal S50x6 .f32) (iblk4 V c 2 t : Vec Ideal S6 .f32) y
      = final (V c main_v56 : S1000x50.Idx → EReal) (V c main_v57 : S50x6.Idx → EReal) (V c main_arg9 : S6.Idx → EReal) i := by
  subst hi
  exact congrFun (final_congr _ _ _ _ _ _ (blk4_0 V c t) (blk4_1 V c t) (blk4_2 V c t)) i

/-- What the point writes back is its block of `final` of the three arrays. -/
theorem flushed4 (c : Dev nD) (t : Fin cfg4.N) :
    (dat4 V c).flushed 3 t = ((cfg4.win 3).blk t).view.read (Elt Ideal)
      (final (V c main_v56) (V c main_v57) (V c main_arg9)) := by
  obtain ⟨-, -, -, -, -, e5, e6⟩ := idx4 t
  show (cfg4.win 3).cut (grid4.coords t) ((dat4 V c).after 3 t) = _
  rw [after4_3]
  unfold out4_3
  rw [View.canon_unit_zero hz2]
  simp only [View.ld_unit_zero (S := S1000x50) hz2, View.ld_unit_zero (S := S50x6) hz2, View.ld_unit_zero (S := S6) hz1]
  rw [pay4_eq]
  funext y
  show final (iblk4 V c 0 t) (iblk4 V c 1 t) (iblk4 V c 2 t) y
    = final (V c main_v56) (V c main_v57) (V c main_arg9) (((cfg4.win 3).blk t).view.emb y)
  refine flushed4_at V c t y _ ?_
  funext a
  apply Fin.ext
  match a with
  | ⟨0, _⟩ => show win4_3.index t 0 * 1000 + 1 * (y 0).val = (y 0).val; rw [e5]; omega
  | ⟨1, _⟩ => show win4_3.index t 1 * 6 + 1 * (y 1).val = (y 1).val; rw [e6]; omega

/-- An index of the result array is in the point's block iff each coordinate is in the block's range on its axis. -/
theorem mem_blk4 (t : Fin cfg4.N) (i : S1000x6.Idx) :
    i ∈ ((cfg4.win 3).blk t).view.set ↔ ∀ a : Fin 2, win4_3.index t a * S1000x6.size a ≤ (i a).val ∧ (i a).val < win4_3.index t a * S1000x6.size a + S1000x6.size a := by
  show i ∈ ((View.whole main_v58).slice (win4_3.rect t)).set ↔ _
  rw [View.set_slice_whole, Rect.mem_set_unit]
  exact Iff.rfl

/-- Every index of the result array is in the one point's block. -/
theorem cover4 (i : S1000x6.Idx) : ∃ t : Fin cfg4.N, (cfg4.win 3).flush t = true ∧ i ∈ ((cfg4.win 3).blk t).view.set := by
  have hi0 : (i 0).val < 1000 := (i 0).isLt
  have hi1 : (i 1).val < 6 := (i 1).isLt
  obtain ⟨-, -, -, -, -, e5, e6⟩ := idx4 t4_0
  refine ⟨t4_0, flush4_3 _, ?_⟩
  rw [mem_blk4]
  intro a
  match a with
  | ⟨0, _⟩ =>
    show win4_3.index t4_0 0 * 1000 ≤ (i 0).val ∧ (i 0).val < win4_3.index t4_0 0 * 1000 + 1000
    rw [e5]; omega
  | ⟨1, _⟩ =>
    show win4_3.index t4_0 1 * 6 ≤ (i 1).val ∧ (i 1).val < win4_3.index t4_0 1 * 6 + 6
    rw [e6]; omega

/-- Region 4's result array after its write-back: `final` of the three arrays it found. -/
theorem arr4 (c : Dev nD) : (dat4 V c).arrAt 3 cfg4.N = final (V c main_v56) (V c main_v57) (V c main_arg9) :=
  (dat4 V c).arrAt_eq_of_cover 3 _ (fun t _ => flushed4 V c t) cover4

end Cert.Graph

end
-- ==== Proof.Fold.lean ====
/-
  The kernel program's buffer contents, boundary by boundary, read back to the argument arrays.

  The generated frame carries the contents of every buffer through @main as a fold (`Gen.W0` … `Gen.W10`): a host
  stretch applies its operations, a region leaves its result array at what its write-backs wrote and every other buffer
  as it was. Read from the launch memory forward: stretch 0 computes the edge sources and destinations, the clamped
  degrees, the transposed gate weights and the first layer's node weights; region 0 leaves `m1K`; stretch 1 aggregates
  it; region 1 leaves the first layer's state `h1K`; stretch 2 slices the second layer's node weights; region 2 leaves
  `m2K`; stretch 3 aggregates it; region 3 leaves `h2K`; stretch 4 pools it and transposes the classifier weights; region 4
  leaves the result `outK`. A buffer that a stretch does not write keeps its contents across it; so does, across a region,
  a buffer that is not one of the region's arrays, and an input array of the region (never written). One line per buffer
  and boundary below, for exactly the buffers some later stage reads; the last line is the result.
-/
import proofs.«135199_j77764677862202_1_alg».proof.Proof.Gen.KernelIdeal.Frame
import proofs.«135199_j77764677862202_1_alg».proof.Proof.KVal
import proofs.«135199_j77764677862202_1_alg».proof.Proof.Stretch
import proofs.«135199_j77764677862202_1_alg».proof.Proof.Arr0
import proofs.«135199_j77764677862202_1_alg».proof.Proof.Arr1
import proofs.«135199_j77764677862202_1_alg».proof.Proof.Arr2
import proofs.«135199_j77764677862202_1_alg».proof.Proof.Arr3
import proofs.«135199_j77764677862202_1_alg».proof.Proof.Arr4
import Idealize.ShloMosaic.Lib.StableHlo.Run

noncomputable section

namespace Cert.Graph

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg) (c : Dev nD)

/-! ### Boundary 1: after host stretch 0 -/

theorem W1_arg0 : W1 m ρ c (Proc.devRef .tc main_arg0) = (m ((c : Thread nD τ).loc main_arg0)) :=
  (by not_written hostOps0 : W1 m ρ c (Proc.devRef .tc main_arg0) = W0 m ρ c (Proc.devRef .tc main_arg0)).trans rfl
theorem W1_v14 : W1 m ρ c (Proc.devRef .tc main_v14) = (w1K (m ((c : Thread nD τ).loc main_arg3))) :=
  s0_v14 (W0 m ρ c)
theorem W1_v1 : W1 m ρ c (Proc.devRef .tc main_v1) = (srcK (m ((c : Thread nD τ).loc main_arg1))) :=
  s0_v1 (W0 m ρ c)
theorem W1_v3 : W1 m ρ c (Proc.devRef .tc main_v3) = (dstK (m ((c : Thread nD τ).loc main_arg1))) :=
  s0_v3 (W0 m ρ c)
theorem W1_v10 : W1 m ρ c (Proc.devRef .tc main_v10) = (degK (m ((c : Thread nD τ).loc main_arg1))) :=
  s0_v10 (W0 m ρ c)
theorem W1_v11 : W1 m ρ c (Proc.devRef .tc main_v11) = (gateT (m ((c : Thread nD τ).loc main_arg4))) :=
  s0_v11 (W0 m ρ c)
theorem W1_v12 : W1 m ρ c (Proc.devRef .tc main_v12) = (gateT (m ((c : Thread nD τ).loc main_arg5))) :=
  s0_v12 (W0 m ρ c)
theorem W1_arg6 : W1 m ρ c (Proc.devRef .tc main_arg6) = (m ((c : Thread nD τ).loc main_arg6)) :=
  (by not_written hostOps0 : W1 m ρ c (Proc.devRef .tc main_arg6) = W0 m ρ c (Proc.devRef .tc main_arg6)).trans rfl
theorem W1_arg7 : W1 m ρ c (Proc.devRef .tc main_arg7) = (m ((c : Thread nD τ).loc main_arg7)) :=
  (by not_written hostOps0 : W1 m ρ c (Proc.devRef .tc main_arg7) = W0 m ρ c (Proc.devRef .tc main_arg7)).trans rfl
theorem W1_arg3 : W1 m ρ c (Proc.devRef .tc main_arg3) = (m ((c : Thread nD τ).loc main_arg3)) :=
  (by not_written hostOps0 : W1 m ρ c (Proc.devRef .tc main_arg3) = W0 m ρ c (Proc.devRef .tc main_arg3)).trans rfl
theorem W1_arg2 : W1 m ρ c (Proc.devRef .tc main_arg2) = (m ((c : Thread nD τ).loc main_arg2)) :=
  (by not_written hostOps0 : W1 m ρ c (Proc.devRef .tc main_arg2) = W0 m ρ c (Proc.devRef .tc main_arg2)).trans rfl
theorem W1_arg8 : W1 m ρ c (Proc.devRef .tc main_arg8) = (m ((c : Thread nD τ).loc main_arg8)) :=
  (by not_written hostOps0 : W1 m ρ c (Proc.devRef .tc main_arg8) = W0 m ρ c (Proc.devRef .tc main_arg8)).trans rfl
theorem W1_arg9 : W1 m ρ c (Proc.devRef .tc main_arg9) = (m ((c : Thread nD τ).loc main_arg9)) :=
  (by not_written hostOps0 : W1 m ρ c (Proc.devRef .tc main_arg9) = W0 m ρ c (Proc.devRef .tc main_arg9)).trans rfl

/-! ### Boundary 2: after region 0 -/

theorem W2_v15 : W2 m ρ c (Proc.devRef .tc main_v15) = (m1K (m ((c : Thread nD τ).loc main_arg0)) (m ((c : Thread nD τ).loc main_arg3))) :=
  (W2_arr m ρ c 2).trans ((arr0 (V1 m ρ) c).trans (by
    rw [show V1 m ρ c main_arg0 = _ from W1_arg0 m ρ c,
      show V1 m ρ c main_v14 = _ from W1_v14 m ρ c]
    rfl))
theorem W2_v1 : W2 m ρ c (Proc.devRef .tc main_v1) = (srcK (m ((c : Thread nD τ).loc main_arg1))) :=
  (W2_of_ne m ρ c main_v1 (by decide)).trans (W1_v1 m ρ c)
theorem W2_v3 : W2 m ρ c (Proc.devRef .tc main_v3) = (dstK (m ((c : Thread nD τ).loc main_arg1))) :=
  (W2_of_ne m ρ c main_v3 (by decide)).trans (W1_v3 m ρ c)
theorem W2_v10 : W2 m ρ c (Proc.devRef .tc main_v10) = (degK (m ((c : Thread nD τ).loc main_arg1))) :=
  (W2_of_ne m ρ c main_v10 (by decide)).trans (W1_v10 m ρ c)
theorem W2_arg0 : W2 m ρ c (Proc.devRef .tc main_arg0) = (m ((c : Thread nD τ).loc main_arg0)) :=
  ((W2_arr m ρ c 0).trans (((dat0 (V1 m ρ) c).arrAt_in 0 rfl _).trans (A_eq0 (V1 m ρ) c 0))).trans (W1_arg0 m ρ c)
theorem W2_v11 : W2 m ρ c (Proc.devRef .tc main_v11) = (gateT (m ((c : Thread nD τ).loc main_arg4))) :=
  (W2_of_ne m ρ c main_v11 (by decide)).trans (W1_v11 m ρ c)
theorem W2_v12 : W2 m ρ c (Proc.devRef .tc main_v12) = (gateT (m ((c : Thread nD τ).loc main_arg5))) :=
  (W2_of_ne m ρ c main_v12 (by decide)).trans (W1_v12 m ρ c)
theorem W2_arg6 : W2 m ρ c (Proc.devRef .tc main_arg6) = (m ((c : Thread nD τ).loc main_arg6)) :=
  (W2_of_ne m ρ c main_arg6 (by decide)).trans (W1_arg6 m ρ c)
theorem W2_arg7 : W2 m ρ c (Proc.devRef .tc main_arg7) = (m ((c : Thread nD τ).loc main_arg7)) :=
  (W2_of_ne m ρ c main_arg7 (by decide)).trans (W1_arg7 m ρ c)
theorem W2_arg3 : W2 m ρ c (Proc.devRef .tc main_arg3) = (m ((c : Thread nD τ).loc main_arg3)) :=
  (W2_of_ne m ρ c main_arg3 (by decide)).trans (W1_arg3 m ρ c)
theorem W2_arg2 : W2 m ρ c (Proc.devRef .tc main_arg2) = (m ((c : Thread nD τ).loc main_arg2)) :=
  (W2_of_ne m ρ c main_arg2 (by decide)).trans (W1_arg2 m ρ c)
theorem W2_arg8 : W2 m ρ c (Proc.devRef .tc main_arg8) = (m ((c : Thread nD τ).loc main_arg8)) :=
  (W2_of_ne m ρ c main_arg8 (by decide)).trans (W1_arg8 m ρ c)
theorem W2_arg9 : W2 m ρ c (Proc.devRef .tc main_arg9) = (m ((c : Thread nD τ).loc main_arg9)) :=
  (W2_of_ne m ρ c main_arg9 (by decide)).trans (W1_arg9 m ρ c)

/-! ### Boundary 3: after host stretch 1 -/

theorem W3_v27 : W3 m ρ c (Proc.devRef .tc main_v27) = (aggK (m1K (m ((c : Thread nD τ).loc main_arg0)) (m ((c : Thread nD τ).loc main_arg3))) (m ((c : Thread nD τ).loc main_arg1))) :=
  (s1_v27 (W2 m ρ c)).trans (by rw [W2_v15 m ρ c, W2_v1 m ρ c, W2_v3 m ρ c, W2_v10 m ρ c]; rfl)
theorem W3_arg0 : W3 m ρ c (Proc.devRef .tc main_arg0) = (m ((c : Thread nD τ).loc main_arg0)) :=
  (by not_written hostOps1 : W3 m ρ c (Proc.devRef .tc main_arg0) = W2 m ρ c (Proc.devRef .tc main_arg0)).trans (W2_arg0 m ρ c)
theorem W3_v11 : W3 m ρ c (Proc.devRef .tc main_v11) = (gateT (m ((c : Thread nD τ).loc main_arg4))) :=
  (by not_written hostOps1 : W3 m ρ c (Proc.devRef .tc main_v11) = W2 m ρ c (Proc.devRef .tc main_v11)).trans (W2_v11 m ρ c)
theorem W3_v12 : W3 m ρ c (Proc.devRef .tc main_v12) = (gateT (m ((c : Thread nD τ).loc main_arg5))) :=
  (by not_written hostOps1 : W3 m ρ c (Proc.devRef .tc main_v12) = W2 m ρ c (Proc.devRef .tc main_v12)).trans (W2_v12 m ρ c)
theorem W3_arg6 : W3 m ρ c (Proc.devRef .tc main_arg6) = (m ((c : Thread nD τ).loc main_arg6)) :=
  (by not_written hostOps1 : W3 m ρ c (Proc.devRef .tc main_arg6) = W2 m ρ c (Proc.devRef .tc main_arg6)).trans (W2_arg6 m ρ c)
theorem W3_arg7 : W3 m ρ c (Proc.devRef .tc main_arg7) = (m ((c : Thread nD τ).loc main_arg7)) :=
  (by not_written hostOps1 : W3 m ρ c (Proc.devRef .tc main_arg7) = W2 m ρ c (Proc.devRef .tc main_arg7)).trans (W2_arg7 m ρ c)
theorem W3_arg3 : W3 m ρ c (Proc.devRef .tc main_arg3) = (m ((c : Thread nD τ).loc main_arg3)) :=
  (by not_written hostOps1 : W3 m ρ c (Proc.devRef .tc main_arg3) = W2 m ρ c (Proc.devRef .tc main_arg3)).trans (W2_arg3 m ρ c)
theorem W3_v1 : W3 m ρ c (Proc.devRef .tc main_v1) = (srcK (m ((c : Thread nD τ).loc main_arg1))) :=
  (by not_written hostOps1 : W3 m ρ c (Proc.devRef .tc main_v1) = W2 m ρ c (Proc.devRef .tc main_v1)).trans (W2_v1 m ρ c)
theorem W3_v3 : W3 m ρ c (Proc.devRef .tc main_v3) = (dstK (m ((c : Thread nD τ).loc main_arg1))) :=
  (by not_written hostOps1 : W3 m ρ c (Proc.devRef .tc main_v3) = W2 m ρ c (Proc.devRef .tc main_v3)).trans (W2_v3 m ρ c)
theorem W3_v10 : W3 m ρ c (Proc.devRef .tc main_v10) = (degK (m ((c : Thread nD τ).loc main_arg1))) :=
  (by not_written hostOps1 : W3 m ρ c (Proc.devRef .tc main_v10) = W2 m ρ c (Proc.devRef .tc main_v10)).trans (W2_v10 m ρ c)
theorem W3_arg2 : W3 m ρ c (Proc.devRef .tc main_arg2) = (m ((c : Thread nD τ).loc main_arg2)) :=
  (by not_written hostOps1 : W3 m ρ c (Proc.devRef .tc main_arg2) = W2 m ρ c (Proc.devRef .tc main_arg2)).trans (W2_arg2 m ρ c)
theorem W3_arg8 : W3 m ρ c (Proc.devRef .tc main_arg8) = (m ((c : Thread nD τ).loc main_arg8)) :=
  (by not_written hostOps1 : W3 m ρ c (Proc.devRef .tc main_arg8) = W2 m ρ c (Proc.devRef .tc main_arg8)).trans (W2_arg8 m ρ c)
theorem W3_arg9 : W3 m ρ c (Proc.devRef .tc main_arg9) = (m ((c : Thread nD τ).loc main_arg9)) :=
  (by not_written hostOps1 : W3 m ρ c (Proc.devRef .tc main_arg9) = W2 m ρ c (Proc.devRef .tc main_arg9)).trans (W2_arg9 m ρ c)

/-! ### Boundary 4: after region 1 -/

theorem W4_v28 : W4 m ρ c (Proc.devRef .tc main_v28) = (h1K (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) :=
  (W4_arr m ρ c 6).trans ((arr1 (V3 m ρ) c).trans (by
    rw [show V3 m ρ c main_v27 = _ from W3_v27 m ρ c,
      show V3 m ρ c main_arg0 = _ from W3_arg0 m ρ c,
      show V3 m ρ c main_v11 = _ from W3_v11 m ρ c,
      show V3 m ρ c main_v12 = _ from W3_v12 m ρ c,
      show V3 m ρ c main_arg6 = _ from W3_arg6 m ρ c,
      show V3 m ρ c main_arg7 = _ from W3_arg7 m ρ c]
    rfl))
theorem W4_arg3 : W4 m ρ c (Proc.devRef .tc main_arg3) = (m ((c : Thread nD τ).loc main_arg3)) :=
  (W4_of_ne m ρ c main_arg3 (by decide)).trans (W3_arg3 m ρ c)
theorem W4_v1 : W4 m ρ c (Proc.devRef .tc main_v1) = (srcK (m ((c : Thread nD τ).loc main_arg1))) :=
  (W4_of_ne m ρ c main_v1 (by decide)).trans (W3_v1 m ρ c)
theorem W4_v3 : W4 m ρ c (Proc.devRef .tc main_v3) = (dstK (m ((c : Thread nD τ).loc main_arg1))) :=
  (W4_of_ne m ρ c main_v3 (by decide)).trans (W3_v3 m ρ c)
theorem W4_v10 : W4 m ρ c (Proc.devRef .tc main_v10) = (degK (m ((c : Thread nD τ).loc main_arg1))) :=
  (W4_of_ne m ρ c main_v10 (by decide)).trans (W3_v10 m ρ c)
theorem W4_v11 : W4 m ρ c (Proc.devRef .tc main_v11) = (gateT (m ((c : Thread nD τ).loc main_arg4))) :=
  ((W4_arr m ρ c 2).trans (((dat1 (V3 m ρ) c).arrAt_in 2 rfl _).trans (A_eq1 (V3 m ρ) c 2))).trans (W3_v11 m ρ c)
theorem W4_v12 : W4 m ρ c (Proc.devRef .tc main_v12) = (gateT (m ((c : Thread nD τ).loc main_arg5))) :=
  ((W4_arr m ρ c 3).trans (((dat1 (V3 m ρ) c).arrAt_in 3 rfl _).trans (A_eq1 (V3 m ρ) c 3))).trans (W3_v12 m ρ c)
theorem W4_arg6 : W4 m ρ c (Proc.devRef .tc main_arg6) = (m ((c : Thread nD τ).loc main_arg6)) :=
  ((W4_arr m ρ c 4).trans (((dat1 (V3 m ρ) c).arrAt_in 4 rfl _).trans (A_eq1 (V3 m ρ) c 4))).trans (W3_arg6 m ρ c)
theorem W4_arg7 : W4 m ρ c (Proc.devRef .tc main_arg7) = (m ((c : Thread nD τ).loc main_arg7)) :=
  ((W4_arr m ρ c 5).trans (((dat1 (V3 m ρ) c).arrAt_in 5 rfl _).trans (A_eq1 (V3 m ρ) c 5))).trans (W3_arg7 m ρ c)
theorem W4_arg2 : W4 m ρ c (Proc.devRef .tc main_arg2) = (m ((c : Thread nD τ).loc main_arg2)) :=
  (W4_of_ne m ρ c main_arg2 (by decide)).trans (W3_arg2 m ρ c)
theorem W4_arg8 : W4 m ρ c (Proc.devRef .tc main_arg8) = (m ((c : Thread nD τ).loc main_arg8)) :=
  (W4_of_ne m ρ c main_arg8 (by decide)).trans (W3_arg8 m ρ c)
theorem W4_arg9 : W4 m ρ c (Proc.devRef .tc main_arg9) = (m ((c : Thread nD τ).loc main_arg9)) :=
  (W4_of_ne m ρ c main_arg9 (by decide)).trans (W3_arg9 m ρ c)

/-! ### Boundary 5: after host stretch 2 -/

theorem W5_v28 : W5 m ρ c (Proc.devRef .tc main_v28) = (h1K (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) :=
  (by not_written hostOps2 : W5 m ρ c (Proc.devRef .tc main_v28) = W4 m ρ c (Proc.devRef .tc main_v28)).trans (W4_v28 m ρ c)
theorem W5_v30 : W5 m ρ c (Proc.devRef .tc main_v30) = (w2K (m ((c : Thread nD τ).loc main_arg3))) :=
  (s2_v30 (W4 m ρ c)).trans (congrArg w2K (W4_arg3 m ρ c))
theorem W5_v1 : W5 m ρ c (Proc.devRef .tc main_v1) = (srcK (m ((c : Thread nD τ).loc main_arg1))) :=
  (by not_written hostOps2 : W5 m ρ c (Proc.devRef .tc main_v1) = W4 m ρ c (Proc.devRef .tc main_v1)).trans (W4_v1 m ρ c)
theorem W5_v3 : W5 m ρ c (Proc.devRef .tc main_v3) = (dstK (m ((c : Thread nD τ).loc main_arg1))) :=
  (by not_written hostOps2 : W5 m ρ c (Proc.devRef .tc main_v3) = W4 m ρ c (Proc.devRef .tc main_v3)).trans (W4_v3 m ρ c)
theorem W5_v10 : W5 m ρ c (Proc.devRef .tc main_v10) = (degK (m ((c : Thread nD τ).loc main_arg1))) :=
  (by not_written hostOps2 : W5 m ρ c (Proc.devRef .tc main_v10) = W4 m ρ c (Proc.devRef .tc main_v10)).trans (W4_v10 m ρ c)
theorem W5_v11 : W5 m ρ c (Proc.devRef .tc main_v11) = (gateT (m ((c : Thread nD τ).loc main_arg4))) :=
  (by not_written hostOps2 : W5 m ρ c (Proc.devRef .tc main_v11) = W4 m ρ c (Proc.devRef .tc main_v11)).trans (W4_v11 m ρ c)
theorem W5_v12 : W5 m ρ c (Proc.devRef .tc main_v12) = (gateT (m ((c : Thread nD τ).loc main_arg5))) :=
  (by not_written hostOps2 : W5 m ρ c (Proc.devRef .tc main_v12) = W4 m ρ c (Proc.devRef .tc main_v12)).trans (W4_v12 m ρ c)
theorem W5_arg6 : W5 m ρ c (Proc.devRef .tc main_arg6) = (m ((c : Thread nD τ).loc main_arg6)) :=
  (by not_written hostOps2 : W5 m ρ c (Proc.devRef .tc main_arg6) = W4 m ρ c (Proc.devRef .tc main_arg6)).trans (W4_arg6 m ρ c)
theorem W5_arg7 : W5 m ρ c (Proc.devRef .tc main_arg7) = (m ((c : Thread nD τ).loc main_arg7)) :=
  (by not_written hostOps2 : W5 m ρ c (Proc.devRef .tc main_arg7) = W4 m ρ c (Proc.devRef .tc main_arg7)).trans (W4_arg7 m ρ c)
theorem W5_arg2 : W5 m ρ c (Proc.devRef .tc main_arg2) = (m ((c : Thread nD τ).loc main_arg2)) :=
  (by not_written hostOps2 : W5 m ρ c (Proc.devRef .tc main_arg2) = W4 m ρ c (Proc.devRef .tc main_arg2)).trans (W4_arg2 m ρ c)
theorem W5_arg8 : W5 m ρ c (Proc.devRef .tc main_arg8) = (m ((c : Thread nD τ).loc main_arg8)) :=
  (by not_written hostOps2 : W5 m ρ c (Proc.devRef .tc main_arg8) = W4 m ρ c (Proc.devRef .tc main_arg8)).trans (W4_arg8 m ρ c)
theorem W5_arg9 : W5 m ρ c (Proc.devRef .tc main_arg9) = (m ((c : Thread nD τ).loc main_arg9)) :=
  (by not_written hostOps2 : W5 m ρ c (Proc.devRef .tc main_arg9) = W4 m ρ c (Proc.devRef .tc main_arg9)).trans (W4_arg9 m ρ c)

/-! ### Boundary 6: after region 2 -/

theorem W6_v31 : W6 m ρ c (Proc.devRef .tc main_v31) = (m2K (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) :=
  (W6_arr m ρ c 2).trans ((arr2 (V5 m ρ) c).trans (by
    rw [show V5 m ρ c main_v28 = _ from W5_v28 m ρ c,
      show V5 m ρ c main_v30 = _ from W5_v30 m ρ c]
    rfl))
theorem W6_v1 : W6 m ρ c (Proc.devRef .tc main_v1) = (srcK (m ((c : Thread nD τ).loc main_arg1))) :=
  (W6_of_ne m ρ c main_v1 (by decide)).trans (W5_v1 m ρ c)
theorem W6_v3 : W6 m ρ c (Proc.devRef .tc main_v3) = (dstK (m ((c : Thread nD τ).loc main_arg1))) :=
  (W6_of_ne m ρ c main_v3 (by decide)).trans (W5_v3 m ρ c)
theorem W6_v10 : W6 m ρ c (Proc.devRef .tc main_v10) = (degK (m ((c : Thread nD τ).loc main_arg1))) :=
  (W6_of_ne m ρ c main_v10 (by decide)).trans (W5_v10 m ρ c)
theorem W6_v28 : W6 m ρ c (Proc.devRef .tc main_v28) = (h1K (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) :=
  ((W6_arr m ρ c 0).trans (((dat2 (V5 m ρ) c).arrAt_in 0 rfl _).trans (A_eq2 (V5 m ρ) c 0))).trans (W5_v28 m ρ c)
theorem W6_v11 : W6 m ρ c (Proc.devRef .tc main_v11) = (gateT (m ((c : Thread nD τ).loc main_arg4))) :=
  (W6_of_ne m ρ c main_v11 (by decide)).trans (W5_v11 m ρ c)
theorem W6_v12 : W6 m ρ c (Proc.devRef .tc main_v12) = (gateT (m ((c : Thread nD τ).loc main_arg5))) :=
  (W6_of_ne m ρ c main_v12 (by decide)).trans (W5_v12 m ρ c)
theorem W6_arg6 : W6 m ρ c (Proc.devRef .tc main_arg6) = (m ((c : Thread nD τ).loc main_arg6)) :=
  (W6_of_ne m ρ c main_arg6 (by decide)).trans (W5_arg6 m ρ c)
theorem W6_arg7 : W6 m ρ c (Proc.devRef .tc main_arg7) = (m ((c : Thread nD τ).loc main_arg7)) :=
  (W6_of_ne m ρ c main_arg7 (by decide)).trans (W5_arg7 m ρ c)
theorem W6_arg2 : W6 m ρ c (Proc.devRef .tc main_arg2) = (m ((c : Thread nD τ).loc main_arg2)) :=
  (W6_of_ne m ρ c main_arg2 (by decide)).trans (W5_arg2 m ρ c)
theorem W6_arg8 : W6 m ρ c (Proc.devRef .tc main_arg8) = (m ((c : Thread nD τ).loc main_arg8)) :=
  (W6_of_ne m ρ c main_arg8 (by decide)).trans (W5_arg8 m ρ c)
theorem W6_arg9 : W6 m ρ c (Proc.devRef .tc main_arg9) = (m ((c : Thread nD τ).loc main_arg9)) :=
  (W6_of_ne m ρ c main_arg9 (by decide)).trans (W5_arg9 m ρ c)

/-! ### Boundary 7: after host stretch 3 -/

theorem W7_v43 : W7 m ρ c (Proc.devRef .tc main_v43) = (aggK (m2K (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1))) :=
  (s3_v43 (W6 m ρ c)).trans (by rw [W6_v31 m ρ c, W6_v1 m ρ c, W6_v3 m ρ c, W6_v10 m ρ c]; rfl)
theorem W7_v28 : W7 m ρ c (Proc.devRef .tc main_v28) = (h1K (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) :=
  (by not_written hostOps3 : W7 m ρ c (Proc.devRef .tc main_v28) = W6 m ρ c (Proc.devRef .tc main_v28)).trans (W6_v28 m ρ c)
theorem W7_v11 : W7 m ρ c (Proc.devRef .tc main_v11) = (gateT (m ((c : Thread nD τ).loc main_arg4))) :=
  (by not_written hostOps3 : W7 m ρ c (Proc.devRef .tc main_v11) = W6 m ρ c (Proc.devRef .tc main_v11)).trans (W6_v11 m ρ c)
theorem W7_v12 : W7 m ρ c (Proc.devRef .tc main_v12) = (gateT (m ((c : Thread nD τ).loc main_arg5))) :=
  (by not_written hostOps3 : W7 m ρ c (Proc.devRef .tc main_v12) = W6 m ρ c (Proc.devRef .tc main_v12)).trans (W6_v12 m ρ c)
theorem W7_arg6 : W7 m ρ c (Proc.devRef .tc main_arg6) = (m ((c : Thread nD τ).loc main_arg6)) :=
  (by not_written hostOps3 : W7 m ρ c (Proc.devRef .tc main_arg6) = W6 m ρ c (Proc.devRef .tc main_arg6)).trans (W6_arg6 m ρ c)
theorem W7_arg7 : W7 m ρ c (Proc.devRef .tc main_arg7) = (m ((c : Thread nD τ).loc main_arg7)) :=
  (by not_written hostOps3 : W7 m ρ c (Proc.devRef .tc main_arg7) = W6 m ρ c (Proc.devRef .tc main_arg7)).trans (W6_arg7 m ρ c)
theorem W7_arg2 : W7 m ρ c (Proc.devRef .tc main_arg2) = (m ((c : Thread nD τ).loc main_arg2)) :=
  (by not_written hostOps3 : W7 m ρ c (Proc.devRef .tc main_arg2) = W6 m ρ c (Proc.devRef .tc main_arg2)).trans (W6_arg2 m ρ c)
theorem W7_arg8 : W7 m ρ c (Proc.devRef .tc main_arg8) = (m ((c : Thread nD τ).loc main_arg8)) :=
  (by not_written hostOps3 : W7 m ρ c (Proc.devRef .tc main_arg8) = W6 m ρ c (Proc.devRef .tc main_arg8)).trans (W6_arg8 m ρ c)
theorem W7_arg9 : W7 m ρ c (Proc.devRef .tc main_arg9) = (m ((c : Thread nD τ).loc main_arg9)) :=
  (by not_written hostOps3 : W7 m ρ c (Proc.devRef .tc main_arg9) = W6 m ρ c (Proc.devRef .tc main_arg9)).trans (W6_arg9 m ρ c)

/-! ### Boundary 8: after region 3 -/

theorem W8_v44 : W8 m ρ c (Proc.devRef .tc main_v44) = (h2K (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) :=
  (W8_arr m ρ c 6).trans ((arr3 (V7 m ρ) c).trans (by
    rw [show V7 m ρ c main_v43 = _ from W7_v43 m ρ c,
      show V7 m ρ c main_v28 = _ from W7_v28 m ρ c,
      show V7 m ρ c main_v11 = _ from W7_v11 m ρ c,
      show V7 m ρ c main_v12 = _ from W7_v12 m ρ c,
      show V7 m ρ c main_arg6 = _ from W7_arg6 m ρ c,
      show V7 m ρ c main_arg7 = _ from W7_arg7 m ρ c]
    rfl))
theorem W8_arg2 : W8 m ρ c (Proc.devRef .tc main_arg2) = (m ((c : Thread nD τ).loc main_arg2)) :=
  (W8_of_ne m ρ c main_arg2 (by decide)).trans (W7_arg2 m ρ c)
theorem W8_arg8 : W8 m ρ c (Proc.devRef .tc main_arg8) = (m ((c : Thread nD τ).loc main_arg8)) :=
  (W8_of_ne m ρ c main_arg8 (by decide)).trans (W7_arg8 m ρ c)
theorem W8_arg9 : W8 m ρ c (Proc.devRef .tc main_arg9) = (m ((c : Thread nD τ).loc main_arg9)) :=
  (W8_of_ne m ρ c main_arg9 (by decide)).trans (W7_arg9 m ρ c)

/-! ### Boundary 9: after host stretch 4 -/

theorem W9_v56 : W9 m ρ c (Proc.devRef .tc main_v56) = (poolK (h2K (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg2))) :=
  (s4_v56 (W8 m ρ c)).trans (congrArg₂ poolK (W8_v44 m ρ c) (W8_arg2 m ρ c))
theorem W9_v57 : W9 m ρ c (Proc.devRef .tc main_v57) = (fcT (m ((c : Thread nD τ).loc main_arg8))) :=
  (s4_v57 (W8 m ρ c)).trans (congrArg fcT (W8_arg8 m ρ c))
theorem W9_arg9 : W9 m ρ c (Proc.devRef .tc main_arg9) = (m ((c : Thread nD τ).loc main_arg9)) :=
  (by not_written hostOps4 : W9 m ρ c (Proc.devRef .tc main_arg9) = W8 m ρ c (Proc.devRef .tc main_arg9)).trans (W8_arg9 m ρ c)

/-! ### Boundary 10: after region 4 -/

theorem W10_v58 : W10 m ρ c (Proc.devRef .tc main_v58) = (outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :=
  (W10_arr m ρ c 3).trans ((arr4 (V9 m ρ) c).trans (by
    rw [show V9 m ρ c main_v56 = _ from W9_v56 m ρ c,
      show V9 m ρ c main_v57 = _ from W9_v57 m ρ c,
      show V9 m ρ c main_arg9 = _ from W9_arg9 m ρ c]
    rfl))

end Cert.Graph

end
-- ==== Proof.RefStages.lean ====
/-
  The dense stages of the reference program are the specification's node transform and gated recurrent update.

  Each stage of the reference is read at an index `(p, j)` through the read-at-an-index lemmas of its operations, down to
  the stages this file leaves closed (the aggregated messages, the previous state, the transposed weights); what is left is
  the specification's row formula, up to the spelling of the indices and of the constant 1 inside the two sigmoids.
-/
import proofs.«135199_j77764677862202_1_alg».proof.Proof.RefRead
import proofs.«135199_j77764677862202_1_alg».proof.Proof.Spec

noncomputable section

open scoped BigOperators

namespace Cert.Graph

open Idealize.ShloMosaic Idealize.ShloMosaic.ValueIdx Cert.ReferenceIdeal Cert.ReferenceIdeal.ReadP

/-- The float word of 1.0 is the extended real 1. -/
theorem one_word : Ideal.ofBits .f32 0x3F800000#32 = 1 := by
  simp [Ideal.ofBits, Ideal.ieee, -EReal.coe_mul]; norm_num

/-- The sigmoid written out as `1 / (1 + exp (-x))` with the float word of 1 is the logistic function. -/
theorem sigmoid_words (x : EReal) :
    Ideal.div (Ideal.ofBits .f32 0x3F800000#32) (Ideal.ofBits .f32 0x3F800000#32 + Ideal.exp (-x)) = Ideal.logistic x := by
  rw [one_word]; rfl

variable (x0 : (⟨S100000x50, .f32⟩ : BufTy).Contents (Elt Ideal)) (x1 : (⟨S2x1600000, .i32⟩ : BufTy).Contents (Elt Ideal))
  (x3 : (⟨S2x50x50, .f32⟩ : BufTy).Contents (Elt Ideal)) (x4 x5 : (⟨S150x50, .f32⟩ : BufTy).Contents (Elt Ideal))
  (x6 x7 : (⟨S150, .f32⟩ : BufTy).Contents (Elt Ideal))

/-! ## The node transform of the first layer -/

theorem ref_mat1 : val_main_v13 (F := Ideal) x0 x3 = matT x0 (val_main_v12 x3) := by
  funext i
  obtain ⟨p, j, rfl⟩ : ∃ (p : Fin 100000) (j : Fin 50), i = ix2 p j := ⟨i 0, i 1, eq_ix2 i⟩
  rw [matT_apply, val_main_v13_apply]
  unfold dot
  refine Finset.sum_congr rfl fun k _ => ?_
  have el : lidx_main_v13 (ix2 p j) k = ix2 p k :=
    funext fun a => Fin.ext (by match a with | ⟨0, _⟩ => rfl | ⟨1, _⟩ => rfl)
  have er : ridx_main_v13 (ix2 p j) k = ix2 k j :=
    funext fun a => Fin.ext (by match a with | ⟨0, _⟩ => rfl | ⟨1, _⟩ => rfl)
  rw [el, er]

/-! ## The first gated recurrent update -/

/-- The message side's pre-activation at `(p, c)`: the row of aggregated messages times the transposed weight, plus the bias. -/
theorem ref_gi1 (p : Fin 100000) (c : Fin 150) :
    val_main_v30 (F := Ideal) x0 x1 x3 x4 x6 (ix2 p c)
      = affine (row (val_main_v25 x0 x1 x3) p) (mat (val_main_v26 x4)) (vec x6) c := by
  rw [val_main_v30_apply, val_main_v27_apply, val_main_v29_apply, val_main_v28_apply]
  generalize val_main_v25 (F := Ideal) x0 x1 x3 = A
  generalize val_main_v26 (F := Ideal) x4 = W
  have eb : idx_main_v28 (idx_main_v29 (ix2 p c)) = ix1 c :=
    funext fun a => Fin.ext (by match a with | ⟨0, _⟩ => rfl)
  have el : ∀ k : Fin 50, lidx_main_v27 (ix2 p c) k = ix2 p k := fun k =>
    funext fun a => Fin.ext (by match a with | ⟨0, _⟩ => rfl | ⟨1, _⟩ => rfl)
  have er : ∀ k : Fin 50, ridx_main_v27 (ix2 p c) k = ix2 k c := fun k =>
    funext fun a => Fin.ext (by match a with | ⟨0, _⟩ => rfl | ⟨1, _⟩ => rfl)
  rw [eb]
  simp only [el, er]
  rfl

/-- The state side's pre-activation at `(p, c)`: the row of the old state times the transposed weight, plus the bias. -/
theorem ref_gh1 (p : Fin 100000) (c : Fin 150) :
    val_main_v35 (F := Ideal) x0 x5 x7 (ix2 p c)
      = affine (row x0 p) (mat (val_main_v31 x5)) (vec x7) c := by
  rw [val_main_v35_apply, val_main_v32_apply, val_main_v34_apply, val_main_v33_apply]
  generalize val_main_v31 (F := Ideal) x5 = W
  have eb : idx_main_v33 (idx_main_v34 (ix2 p c)) = ix1 c :=
    funext fun a => Fin.ext (by match a with | ⟨0, _⟩ => rfl)
  have el : ∀ k : Fin 50, lidx_main_v32 (ix2 p c) k = ix2 p k := fun k =>
    funext fun a => Fin.ext (by match a with | ⟨0, _⟩ => rfl | ⟨1, _⟩ => rfl)
  have er : ∀ k : Fin 50, ridx_main_v32 (ix2 p c) k = ix2 k c := fun k =>
    funext fun a => Fin.ext (by match a with | ⟨0, _⟩ => rfl | ⟨1, _⟩ => rfl)
  rw [eb]
  simp only [el, er]
  rfl

/-- The three column slices of a 150-wide pre-activation read gate `off / 50`'s entry `j`. -/
theorem ref_slices1 (p : Fin 100000) (j : Fin 50) :
    idx_main_v36 (ix2 p j) = ix2 p (col 0 (by omega) j) ∧ idx_main_v37 (ix2 p j) = ix2 p (col 50 (by omega) j)
      ∧ idx_main_v38 (ix2 p j) = ix2 p (col 100 (by omega) j) ∧ idx_main_v39 (ix2 p j) = ix2 p (col 0 (by omega) j)
      ∧ idx_main_v40 (ix2 p j) = ix2 p (col 50 (by omega) j) ∧ idx_main_v41 (ix2 p j) = ix2 p (col 100 (by omega) j) := by
  refine ⟨?_, ?_, ?_, ?_, ?_, ?_⟩ <;>
    exact funext fun a => Fin.ext (by
      match a with
      | ⟨0, _⟩ => rfl
      | ⟨1, _⟩ => first | rfl | exact (Nat.zero_add j.val).symm)

/-- The reset gate of the reference at `(p, j)`: the sigmoid, spelt `1 / (1 + exp (-x))`, of the two first column blocks. -/
theorem ref_r1 (p : Fin 100000) (j : Fin 50) :
    val_main_v48 (F := Ideal) x0 x1 x3 x4 x5 x6 x7 (ix2 p j)
      = rGate (row (val_main_v25 x0 x1 x3) p) (row x0 p) (mat (val_main_v26 x4)) (mat (val_main_v31 x5))
          (vec x6) (vec x7) j := by
  obtain ⟨e36, -, -, e39, -, -⟩ := ref_slices1 p j
  rw [val_main_v48_apply, val_main_v47_apply, val_main_cst_5_apply, val_main_v46_apply, val_main_v45_apply,
    val_main_cst_4_apply, val_main_v44_apply, val_main_v43_apply, val_main_v42_apply, val_main_v36_apply,
    val_main_v39_apply, e36, e39, ref_gi1, ref_gh1]
  generalize val_main_v25 (F := Ideal) x0 x1 x3 = A
  generalize val_main_v26 (F := Ideal) x4 = Wi
  generalize val_main_v31 (F := Ideal) x5 = Wh
  unfold rGate
  rw [← sigmoid_words]
  rfl

/-- The update gate of the reference at `(p, j)`: the sigmoid of the two second column blocks. -/
theorem ref_z1 (p : Fin 100000) (j : Fin 50) :
    val_main_v55 (F := Ideal) x0 x1 x3 x4 x5 x6 x7 (ix2 p j)
      = zGate (row (val_main_v25 x0 x1 x3) p) (row x0 p) (mat (val_main_v26 x4)) (mat (val_main_v31 x5))
          (vec x6) (vec x7) j := by
  obtain ⟨-, e37, -, -, e40, -⟩ := ref_slices1 p j
  rw [val_main_v55_apply, val_main_v54_apply, val_main_cst_7_apply, val_main_v53_apply, val_main_v52_apply,
    val_main_cst_6_apply, val_main_v51_apply, val_main_v50_apply, val_main_v49_apply, val_main_v37_apply,
    val_main_v40_apply, e37, e40, ref_gi1, ref_gh1]
  generalize val_main_v25 (F := Ideal) x0 x1 x3 = A
  generalize val_main_v26 (F := Ideal) x4 = Wi
  generalize val_main_v31 (F := Ideal) x5 = Wh
  unfold zGate
  rw [← sigmoid_words]
  rfl

/-- The candidate state of the reference at `(p, j)`: `tanh` of the third message block plus the reset gate times
    the third state block. -/
theorem ref_n1 (p : Fin 100000) (j : Fin 50) :
    val_main_v58 (F := Ideal) x0 x1 x3 x4 x5 x6 x7 (ix2 p j)
      = nGate (row (val_main_v25 x0 x1 x3) p) (row x0 p) (mat (val_main_v26 x4)) (mat (val_main_v31 x5))
          (vec x6) (vec x7) j := by
  obtain ⟨-, -, e38, -, -, e41⟩ := ref_slices1 p j
  rw [val_main_v58_apply, val_main_v57_apply, val_main_v56_apply, val_main_v38_apply, val_main_v41_apply,
    e38, e41, ref_gi1, ref_gh1, ref_r1]
  generalize val_main_v25 (F := Ideal) x0 x1 x3 = A
  generalize val_main_v26 (F := Ideal) x4 = Wi
  generalize val_main_v31 (F := Ideal) x5 = Wh
  unfold nGate
  rfl

theorem ref_gru1 : val_main_v63 (F := Ideal) x0 x1 x3 x4 x5 x6 x7
    = gru (val_main_v25 x0 x1 x3) x0 (val_main_v26 x4) (val_main_v31 x5) x6 x7 := by
  funext i
  obtain ⟨p, j, rfl⟩ : ∃ (p : Fin 100000) (j : Fin 50), i = ix2 p j := ⟨i 0, i 1, eq_ix2 i⟩
  rw [gru_apply, val_main_v63_apply, val_main_v61_apply, val_main_v62_apply, val_main_v60_apply,
    val_main_v59_apply, val_main_cst_8_apply, ref_z1, ref_n1]
  generalize val_main_v25 (F := Ideal) x0 x1 x3 = A
  generalize val_main_v26 (F := Ideal) x4 = Wi
  generalize val_main_v31 (F := Ideal) x5 = Wh
  unfold gruRow
  rfl

end Cert.Graph

end
-- ==== Proof.RefStages2.lean ====
/-
  The dense stages of the reference program's second layer are the specification's node transform and gated recurrent
  update with the final clamp at zero.

  The second cell is the first one's mathematics on other operands: the aggregated messages of the second layer and the
  first layer's state, both left closed here, with the same transposed weights and biases. Each stage is read at an index
  `(p, j)` through the read-at-an-index lemmas of its operations down to those closed stages; what is left is the
  specification's row formula, up to the spelling of the indices and of the constant 1 inside the two sigmoids.
-/
import proofs.«135199_j77764677862202_1_alg».proof.Proof.RefRead
import proofs.«135199_j77764677862202_1_alg».proof.Proof.Spec

noncomputable section

open scoped BigOperators

namespace Cert.Graph.Layer2

open Idealize.ShloMosaic Idealize.ShloMosaic.ValueIdx Cert.ReferenceIdeal Cert.ReferenceIdeal.ReadP

/-- The float word of 1.0 is the extended real 1. -/
theorem one_word : Ideal.ofBits .f32 0x3F800000#32 = 1 := by
  simp [Ideal.ofBits, Ideal.ieee, -EReal.coe_mul]; norm_num

/-- The sigmoid written out as `1 / (1 + exp (-x))` with the float word of 1 is the logistic function. -/
theorem sigmoid_words (x : EReal) :
    Ideal.div (Ideal.ofBits .f32 0x3F800000#32) (Ideal.ofBits .f32 0x3F800000#32 + Ideal.exp (-x)) = Ideal.logistic x := by
  rw [one_word]; rfl

variable (x0 : (⟨S100000x50, .f32⟩ : BufTy).Contents (Elt Ideal)) (x1 : (⟨S2x1600000, .i32⟩ : BufTy).Contents (Elt Ideal))
  (x3 : (⟨S2x50x50, .f32⟩ : BufTy).Contents (Elt Ideal)) (x4 x5 : (⟨S150x50, .f32⟩ : BufTy).Contents (Elt Ideal))
  (x6 x7 : (⟨S150, .f32⟩ : BufTy).Contents (Elt Ideal))

/-- The message side's pre-activation at `(p, c)`: the row of aggregated messages times the transposed weight, plus the bias. -/
theorem ref_gi2 (p : Fin 100000) (c : Fin 150) :
    val_main_v83 (F := Ideal) x0 x1 x3 x4 x5 x6 x7 (ix2 p c)
      = affine (row (val_main_v78 (F := Ideal) x0 x1 x3 x4 x5 x6 x7) p) (mat (val_main_v79 (F := Ideal) x4)) (vec x6) c := by
  rw [val_main_v83_apply, val_main_v80_apply, val_main_v82_apply, val_main_v81_apply]
  generalize val_main_v78 (F := Ideal) x0 x1 x3 x4 x5 x6 x7 = A
  generalize val_main_v79 (F := Ideal) x4 = W
  have eb : idx_main_v81 (idx_main_v82 (ix2 p c)) = ix1 c :=
    funext fun a => Fin.ext (by match a with | ⟨0, _⟩ => rfl)
  have el : ∀ k : Fin 50, lidx_main_v80 (ix2 p c) k = ix2 p k := fun k =>
    funext fun a => Fin.ext (by match a with | ⟨0, _⟩ => rfl | ⟨1, _⟩ => rfl)
  have er : ∀ k : Fin 50, ridx_main_v80 (ix2 p c) k = ix2 k c := fun k =>
    funext fun a => Fin.ext (by match a with | ⟨0, _⟩ => rfl | ⟨1, _⟩ => rfl)
  rw [eb]
  simp only [el, er]
  rfl

/-- The state side's pre-activation at `(p, c)`: the row of the first layer's state times the transposed weight, plus
    the bias. -/
theorem ref_gh2 (p : Fin 100000) (c : Fin 150) :
    val_main_v88 (F := Ideal) x0 x1 x3 x4 x5 x6 x7 (ix2 p c)
      = affine (row (val_main_v63 (F := Ideal) x0 x1 x3 x4 x5 x6 x7) p) (mat (val_main_v84 (F := Ideal) x5)) (vec x7) c := by
  rw [val_main_v88_apply, val_main_v85_apply, val_main_v87_apply, val_main_v86_apply]
  generalize val_main_v63 (F := Ideal) x0 x1 x3 x4 x5 x6 x7 = H
  generalize val_main_v84 (F := Ideal) x5 = W
  have eb : idx_main_v86 (idx_main_v87 (ix2 p c)) = ix1 c :=
    funext fun a => Fin.ext (by match a with | ⟨0, _⟩ => rfl)
  have el : ∀ k : Fin 50, lidx_main_v85 (ix2 p c) k = ix2 p k := fun k =>
    funext fun a => Fin.ext (by match a with | ⟨0, _⟩ => rfl | ⟨1, _⟩ => rfl)
  have er : ∀ k : Fin 50, ridx_main_v85 (ix2 p c) k = ix2 k c := fun k =>
    funext fun a => Fin.ext (by match a with | ⟨0, _⟩ => rfl | ⟨1, _⟩ => rfl)
  rw [eb]
  simp only [el, er]
  rfl

/-- The three column slices of a 150-wide pre-activation read gate `off / 50`'s entry `j`. -/
theorem ref_slices2 (p : Fin 100000) (j : Fin 50) :
    idx_main_v89 (ix2 p j) = ix2 p (col 0 (by omega) j) ∧ idx_main_v90 (ix2 p j) = ix2 p (col 50 (by omega) j)
      ∧ idx_main_v91 (ix2 p j) = ix2 p (col 100 (by omega) j) ∧ idx_main_v92 (ix2 p j) = ix2 p (col 0 (by omega) j)
      ∧ idx_main_v93 (ix2 p j) = ix2 p (col 50 (by omega) j) ∧ idx_main_v94 (ix2 p j) = ix2 p (col 100 (by omega) j) := by
  refine ⟨?_, ?_, ?_, ?_, ?_, ?_⟩ <;>
    exact funext fun a => Fin.ext (by
      match a with
      | ⟨0, _⟩ => rfl
      | ⟨1, _⟩ => first | rfl | exact (Nat.zero_add j.val).symm)

/-- The reset gate of the reference at `(p, j)`: the sigmoid, spelt `1 / (1 + exp (-x))`, of the two first column blocks. -/
theorem ref_r2 (p : Fin 100000) (j : Fin 50) :
    val_main_v101 (F := Ideal) x0 x1 x3 x4 x5 x6 x7 (ix2 p j)
      = rGate (row (val_main_v78 (F := Ideal) x0 x1 x3 x4 x5 x6 x7) p) (row (val_main_v63 (F := Ideal) x0 x1 x3 x4 x5 x6 x7) p)
          (mat (val_main_v79 (F := Ideal) x4)) (mat (val_main_v84 (F := Ideal) x5)) (vec x6) (vec x7) j := by
  obtain ⟨e89, -, -, e92, -, -⟩ := ref_slices2 p j
  rw [val_main_v101_apply, val_main_v100_apply, val_main_cst_13_apply, val_main_v99_apply, val_main_v98_apply,
    val_main_cst_12_apply, val_main_v97_apply, val_main_v96_apply, val_main_v95_apply, val_main_v89_apply,
    val_main_v92_apply, e89, e92, ref_gi2, ref_gh2]
  generalize val_main_v78 (F := Ideal) x0 x1 x3 x4 x5 x6 x7 = A
  generalize val_main_v63 (F := Ideal) x0 x1 x3 x4 x5 x6 x7 = H
  generalize val_main_v79 (F := Ideal) x4 = Wi
  generalize val_main_v84 (F := Ideal) x5 = Wh
  unfold rGate
  rw [← sigmoid_words]
  rfl

/-- The update gate of the reference at `(p, j)`: the sigmoid of the two second column blocks. -/
theorem ref_z2 (p : Fin 100000) (j : Fin 50) :
    val_main_v108 (F := Ideal) x0 x1 x3 x4 x5 x6 x7 (ix2 p j)
      = zGate (row (val_main_v78 (F := Ideal) x0 x1 x3 x4 x5 x6 x7) p) (row (val_main_v63 (F := Ideal) x0 x1 x3 x4 x5 x6 x7) p)
          (mat (val_main_v79 (F := Ideal) x4)) (mat (val_main_v84 (F := Ideal) x5)) (vec x6) (vec x7) j := by
  obtain ⟨-, e90, -, -, e93, -⟩ := ref_slices2 p j
  rw [val_main_v108_apply, val_main_v107_apply, val_main_cst_15_apply, val_main_v106_apply, val_main_v105_apply,
    val_main_cst_14_apply, val_main_v104_apply, val_main_v103_apply, val_main_v102_apply, val_main_v90_apply,
    val_main_v93_apply, e90, e93, ref_gi2, ref_gh2]
  generalize val_main_v78 (F := Ideal) x0 x1 x3 x4 x5 x6 x7 = A
  generalize val_main_v63 (F := Ideal) x0 x1 x3 x4 x5 x6 x7 = H
  generalize val_main_v79 (F := Ideal) x4 = Wi
  generalize val_main_v84 (F := Ideal) x5 = Wh
  unfold zGate
  rw [← sigmoid_words]
  rfl

/-- The candidate state of the reference at `(p, j)`: `tanh` of the third message block plus the reset gate times
    the third state block. -/
theorem ref_n2 (p : Fin 100000) (j : Fin 50) :
    val_main_v111 (F := Ideal) x0 x1 x3 x4 x5 x6 x7 (ix2 p j)
      = nGate (row (val_main_v78 (F := Ideal) x0 x1 x3 x4 x5 x6 x7) p) (row (val_main_v63 (F := Ideal) x0 x1 x3 x4 x5 x6 x7) p)
          (mat (val_main_v79 (F := Ideal) x4)) (mat (val_main_v84 (F := Ideal) x5)) (vec x6) (vec x7) j := by
  obtain ⟨-, -, e91, -, -, e94⟩ := ref_slices2 p j
  rw [val_main_v111_apply, val_main_v110_apply, val_main_v109_apply, val_main_v91_apply, val_main_v94_apply,
    e91, e94, ref_gi2, ref_gh2, ref_r2]
  generalize val_main_v78 (F := Ideal) x0 x1 x3 x4 x5 x6 x7 = A
  generalize val_main_v63 (F := Ideal) x0 x1 x3 x4 x5 x6 x7 = H
  generalize val_main_v79 (F := Ideal) x4 = Wi
  generalize val_main_v84 (F := Ideal) x5 = Wh
  unfold nGate
  rfl

end Cert.Graph.Layer2

namespace Cert.Graph

open Idealize.ShloMosaic Idealize.ShloMosaic.ValueIdx Cert.ReferenceIdeal Cert.ReferenceIdeal.ReadP Cert.Graph.Layer2

variable (x0 : (⟨S100000x50, .f32⟩ : BufTy).Contents (Elt Ideal)) (x1 : (⟨S2x1600000, .i32⟩ : BufTy).Contents (Elt Ideal))
  (x3 : (⟨S2x50x50, .f32⟩ : BufTy).Contents (Elt Ideal)) (x4 x5 : (⟨S150x50, .f32⟩ : BufTy).Contents (Elt Ideal))
  (x6 x7 : (⟨S150, .f32⟩ : BufTy).Contents (Elt Ideal))

/-! ## The node transform of the second layer -/

theorem ref_mat2 : val_main_v66 (F := Ideal) x0 x1 x3 x4 x5 x6 x7
    = matT (val_main_v63 (F := Ideal) x0 x1 x3 x4 x5 x6 x7) (val_main_v65 (F := Ideal) x3) := by
  funext i
  obtain ⟨p, j, rfl⟩ : ∃ (p : Fin 100000) (j : Fin 50), i = ix2 p j := ⟨i 0, i 1, eq_ix2 i⟩
  rw [matT_apply, val_main_v66_apply]
  generalize val_main_v63 (F := Ideal) x0 x1 x3 x4 x5 x6 x7 = H
  generalize val_main_v65 (F := Ideal) x3 = W
  unfold dot
  refine Finset.sum_congr rfl fun k _ => ?_
  have el : lidx_main_v66 (ix2 p j) k = ix2 p k :=
    funext fun a => Fin.ext (by match a with | ⟨0, _⟩ => rfl | ⟨1, _⟩ => rfl)
  have er : ridx_main_v66 (ix2 p j) k = ix2 k j :=
    funext fun a => Fin.ext (by match a with | ⟨0, _⟩ => rfl | ⟨1, _⟩ => rfl)
  rw [el, er]

/-! ## The second gated recurrent update, clamped at zero from below -/

theorem ref_gru2 : val_main_v117 (F := Ideal) x0 x1 x3 x4 x5 x6 x7
    = gruRelu (val_main_v78 (F := Ideal) x0 x1 x3 x4 x5 x6 x7) (val_main_v63 (F := Ideal) x0 x1 x3 x4 x5 x6 x7)
        (val_main_v79 (F := Ideal) x4) (val_main_v84 (F := Ideal) x5) x6 x7 := by
  funext i
  obtain ⟨p, j, rfl⟩ : ∃ (p : Fin 100000) (j : Fin 50), i = ix2 p j := ⟨i 0, i 1, eq_ix2 i⟩
  rw [gruRelu_apply, val_main_v117_apply, val_main_call0_v0_apply, val_main_call0_cst_apply, val_main_v116_apply,
    val_main_v114_apply, val_main_v115_apply, val_main_v113_apply, val_main_v112_apply, val_main_cst_16_apply,
    ref_z2, ref_n2]
  generalize val_main_v78 (F := Ideal) x0 x1 x3 x4 x5 x6 x7 = A
  generalize val_main_v63 (F := Ideal) x0 x1 x3 x4 x5 x6 x7 = H
  generalize val_main_v79 (F := Ideal) x4 = Wi
  generalize val_main_v84 (F := Ideal) x5 = Wh
  unfold gruRow
  rfl

end Cert.Graph

end
-- ==== Proof.RefFinal.lean ====
/-
  The reference's last stage read at an index: its linear layer (a contraction of the pooled array's columns with the
  transposed class weights' rows, plus the bias laid as one row and repeated down the rows) followed by the inlined
  logarithm of the softmax is, at `(r, e)`, entry `e` of the logarithm of the softmax of row `r`'s logits — the same
  function of the pooled array, the weights and the bias that the specification states.

  The pooled array and the transposed weights are carried as they are: nothing here looks inside them.

  * the host's maximum over axis 1 is, at row `r`, the fold of `max` from −∞ over the row's six entries; the maximum
    of that with a −∞ broadcast changes nothing, −∞ being the bottom element;
  * the host's sum over axis 1 is the zero word plus the sum of the row's six entries, and the zero word is `0`;
  * each keepdims broadcast reads a row's one value.
-/
import proofs.«135199_j77764677862202_1_alg».proof.Proof.RefRead
import proofs.«135199_j77764677862202_1_alg».proof.Proof.FinalSpec

noncomputable section

open scoped BigOperators

namespace Cert.Graph

open Idealize.ShloMosaic Idealize.ShloMosaic.ValueIdx
open Cert.ReferenceIdeal Cert.ReferenceIdeal.Gen Cert.ReferenceIdeal.ReadP

/-! ## Index equations: the composed index functions of the reference's operations, on coordinates -/

theorem lidx_v131_eq (r : Fin 1000) (c : Fin 6) (k : Fin 50) : lidx_main_v131 (ix2 r c) k = ix2 r k :=
  funext fun a => Fin.ext (by
    match a with
    | ⟨0, _⟩ => rfl
    | ⟨1, _⟩ => rfl)

theorem ridx_v131_eq (r : Fin 1000) (c : Fin 6) (k : Fin 50) : ridx_main_v131 (ix2 r c) k = ix2 k c :=
  funext fun a => Fin.ext (by
    match a with
    | ⟨0, _⟩ => rfl
    | ⟨1, _⟩ => rfl)

theorem idx_bias_eq (r : Fin 1000) (c : Fin 6) : idx_main_v132 (idx_main_v133 (ix2 r c)) = ix1 c :=
  funext fun a => Fin.ext (by
    match a with
    | ⟨0, _⟩ => rfl)

theorem idx_keepmax_eq (r : Fin 1000) (c : Fin 6) : idx_main_call1_v3 (idx_main_call1_v4 (ix2 r c)) = ix1 r :=
  funext fun a => Fin.ext (by
    match a with
    | ⟨0, _⟩ => rfl)

theorem idx_keepsum_eq (r : Fin 1000) (c : Fin 6) : idx_main_call1_v8 (idx_main_call1_v10 (ix2 r c)) = ix1 r :=
  funext fun a => Fin.ext (by
    match a with
    | ⟨0, _⟩ => rfl)

theorem idx_v7_eq (r : Fin 1000) (k : Fin 6) : idx_main_call1_v7 (ix1 r) k = ix2 r k :=
  funext fun a => Fin.ext (by
    match a with
    | ⟨0, _⟩ => rfl
    | ⟨1, _⟩ => rfl)

/-- Row `r` with class `c` inserted on the reduced axis is the index `(r, c)`. -/
theorem ref_lift_row (h : S1000x6.Reduces [1] S1000) (r : Fin 1000) (c : Fin 6) : h.lift (ix1 r) c = ix2 r c :=
  funext fun a => Fin.ext (by
    match a with
    | ⟨0, _⟩ => rfl
    | ⟨1, _⟩ => rfl)

/-- The host's maximum over axis 1 from the −∞ word at row `r`, then the maximum with −∞: the fold of `max` from −∞ over
    the row's six entries. -/
theorem host_rowMax (z : FVec Ideal S1000x6 .f32) (r : Fin 1000) :
    FloatOps.maximumf (F := Ideal) (φ := .f32) (FloatOps.ofBits .f32 0xFF800000#32)
        (Host.reduce FloatOps.maximumf z (val_main_call1_cst (F := Ideal)) reducesTo_S1000x6_S1000_d1 h_S_ (ix1 r))
      = rowMax (fun c => z (ix2 r c)) := by
  rw [Host.reduce_eq_fold_single FloatOps.maximumf z _ reducesTo_S1000x6_S1000_d1 (by decide) h_S_ (ix1 r),
    val_main_call1_cst_apply]
  refine (max_negInf32 _).trans ?_
  exact congrArg (fun f => (Finset.univ : Finset (Fin 6)).fold max negInf32 f)
    (funext fun c => congrArg z (ref_lift_row _ r c))

variable (x0 : (⟨S100000x50, .f32⟩ : BufTy).Contents (Elt Ideal)) (x1 : (⟨S2x1600000, .i32⟩ : BufTy).Contents (Elt Ideal))
  (x2 : (⟨S100000, .i32⟩ : BufTy).Contents (Elt Ideal)) (x3 : (⟨S2x50x50, .f32⟩ : BufTy).Contents (Elt Ideal))
  (x4 x5 : (⟨S150x50, .f32⟩ : BufTy).Contents (Elt Ideal)) (x6 x7 : (⟨S150, .f32⟩ : BufTy).Contents (Elt Ideal))
  (x8 : (⟨S6x50, .f32⟩ : BufTy).Contents (Elt Ideal)) (x9 : (⟨S6, .f32⟩ : BufTy).Contents (Elt Ideal))

/-- The reference's logits at `(r, c)`: the affine map of row `r` of the pooled array. -/
theorem ref_logits (r : Fin 1000) (c : Fin 6) :
    val_main_v134 (F := Ideal) x0 x1 x2 x3 x4 x5 x6 x7 x8 x9 (ix2 r c)
      = affine (row (val_main_v129 (F := Ideal) x0 x1 x2 x3 x4 x5 x6 x7) r) (mat (val_main_v130 (F := Ideal) x8)) (vec x9) c := by
  rw [val_main_v134_apply, val_main_v131_apply, val_main_v133_apply, val_main_v132_apply, idx_bias_eq]
  generalize val_main_v129 (F := Ideal) x0 x1 x2 x3 x4 x5 x6 x7 = P
  generalize val_main_v130 (F := Ideal) x8 = W
  exact congrArg (· + x9 (ix1 c)) (Finset.sum_congr rfl fun k _ => by rw [lidx_v131_eq, ridx_v131_eq])

/-- The host's maximum over axis 1 of an array, at row `r`, then the maximum with −∞: the fold of `max` from −∞ over the
    row's six entries. -/
theorem ref_rowMax (r : Fin 1000) :
    val_main_call1_v2 (F := Ideal) x0 x1 x2 x3 x4 x5 x6 x7 x8 x9 (ix1 r) = rowMax (fun c => val_main_v134 (F := Ideal) x0 x1 x2 x3 x4 x5 x6 x7 x8 x9 (ix2 r c)) := by
  rw [val_main_call1_v2_apply, val_main_call1_v1_apply, val_main_call1_cst_0_apply]
  unfold val_main_call1_v0
  generalize val_main_v134 (F := Ideal) x0 x1 x2 x3 x4 x5 x6 x7 x8 x9 = z
  exact host_rowMax z r

/-- The shifted logits at `(r, c)`. -/
theorem ref_shift (r : Fin 1000) (c : Fin 6) :
    val_main_call1_v5 (F := Ideal) x0 x1 x2 x3 x4 x5 x6 x7 x8 x9 (ix2 r c)
      = val_main_v134 (F := Ideal) x0 x1 x2 x3 x4 x5 x6 x7 x8 x9 (ix2 r c) - rowMax (fun k => val_main_v134 (F := Ideal) x0 x1 x2 x3 x4 x5 x6 x7 x8 x9 (ix2 r k)) := by
  rw [val_main_call1_v5_apply, val_main_call1_v4_apply, val_main_call1_v3_apply, idx_keepmax_eq, ref_rowMax]
  exact Ideal.subf_def _ _

/-- The logarithm of the row's sum of exponentials, spread along the row, at `(r, e)`. -/
theorem ref_lse (r : Fin 1000) (e : Fin 6) :
    val_main_call1_v10 (F := Ideal) x0 x1 x2 x3 x4 x5 x6 x7 x8 x9 (ix2 r e)
      = Ideal.log (∑ k : Fin 6, Ideal.exp (val_main_call1_v5 (F := Ideal) x0 x1 x2 x3 x4 x5 x6 x7 x8 x9 (ix2 r k))) := by
  rw [val_main_call1_v10_apply, val_main_call1_v9_apply, val_main_call1_v8_apply, idx_keepsum_eq, val_main_call1_v7_apply,
    val_main_call1_cst_1_apply]
  simp only [Ideal.hostUnary_log_def, Ideal.ofBits_def, Ideal.ofBits_zero_f32, zero_add]
  refine congrArg Ideal.log (Finset.sum_congr rfl fun k _ => ?_)
  rw [idx_v7_eq, val_main_call1_v6_apply]
  exact Ideal.hostUnary_exp_def _

/-- The reference's last stage is the last stage of the specification, of the pooled array, the transposed weights and
    the bias. -/
theorem ref_final :
    val_main_v135 (F := Ideal) x0 x1 x2 x3 x4 x5 x6 x7 x8 x9
      = final (val_main_v129 (F := Ideal) x0 x1 x2 x3 x4 x5 x6 x7) (val_main_v130 (F := Ideal) x8) x9 := by
  funext i
  obtain ⟨r, e, rfl⟩ : ∃ (r : Fin 1000) (e : Fin 6), i = ix2 r e := ⟨i 0, i 1, eq_ix2 i⟩
  rw [final_apply, val_main_v135_apply, ref_lse]
  simp only [ref_shift, ref_logits, Ideal.subf_def]
  generalize val_main_v129 (F := Ideal) x0 x1 x2 x3 x4 x5 x6 x7 = P
  generalize val_main_v130 (F := Ideal) x8 = W
  rfl

end Cert.Graph

end
-- ==== Proof.RefChain.lean ====
/-
  The reference's result is `outK` of its ten argument arrays.

  The reference is one straight line of host operations. Its edge sources, destinations and degrees, its transposed
  weight matrices, its per-layer node weights, its mean aggregation and its mean pooling are the very operations the
  kernel program's host stretches apply (`KVal`), spelt the same way: those equations hold by unfolding both sides, and
  no gather or scatter-add is opened. Its dense stages are the specification's `matT`, `gru`, `gruRelu` and `final`
  of the stages before them (`RefStages`, `RefStages2`, `RefFinal`). Chaining the two kinds of equation from the arguments forward
  gives the first layer's transformed nodes and state, the second layer's, and the result.
-/
import proofs.«135199_j77764677862202_1_alg».proof.Proof.RefRead
import proofs.«135199_j77764677862202_1_alg».proof.Proof.KVal
import proofs.«135199_j77764677862202_1_alg».proof.Proof.RefStages
import proofs.«135199_j77764677862202_1_alg».proof.Proof.RefStages2
import proofs.«135199_j77764677862202_1_alg».proof.Proof.RefFinal

noncomputable section

namespace Cert.Graph

open Idealize.ShloMosaic Cert.ReferenceIdeal Cert.ReferenceIdeal.ReadP

variable (x0 : (⟨S100000x50, .f32⟩ : BufTy).Contents (Elt Ideal)) (x1 : (⟨S2x1600000, .i32⟩ : BufTy).Contents (Elt Ideal))
  (x2 : (⟨S100000, .i32⟩ : BufTy).Contents (Elt Ideal)) (x3 : (⟨S2x50x50, .f32⟩ : BufTy).Contents (Elt Ideal))
  (x4 x5 : (⟨S150x50, .f32⟩ : BufTy).Contents (Elt Ideal)) (x6 x7 : (⟨S150, .f32⟩ : BufTy).Contents (Elt Ideal))
  (x8 : (⟨S6x50, .f32⟩ : BufTy).Contents (Elt Ideal)) (x9 : (⟨S6, .f32⟩ : BufTy).Contents (Elt Ideal))

/-! ## The shared host operations -/

theorem ref_w1 : val_main_v12 (F := Ideal) x3 = w1K x3 := rfl
theorem ref_w2 : val_main_v65 (F := Ideal) x3 = w2K x3 := rfl
theorem ref_wi1 : val_main_v26 (F := Ideal) x4 = gateT x4 := rfl
theorem ref_wh1 : val_main_v31 (F := Ideal) x5 = gateT x5 := rfl
theorem ref_wi2 : val_main_v79 (F := Ideal) x4 = gateT x4 := rfl
theorem ref_wh2 : val_main_v84 (F := Ideal) x5 = gateT x5 := rfl
theorem ref_fc : val_main_v130 (F := Ideal) x8 = fcT x8 := rfl
theorem ref_agg1 : val_main_v25 (F := Ideal) x0 x1 x3 = aggK (val_main_v13 (F := Ideal) x0 x3) x1 := rfl
theorem ref_agg2 : val_main_v78 (F := Ideal) x0 x1 x3 x4 x5 x6 x7 = aggK (val_main_v66 (F := Ideal) x0 x1 x3 x4 x5 x6 x7) x1 := rfl
theorem ref_pool : val_main_v129 (F := Ideal) x0 x1 x2 x3 x4 x5 x6 x7 = poolK (val_main_v117 (F := Ideal) x0 x1 x3 x4 x5 x6 x7) x2 := rfl

/-! ## The stages, from the arguments forward -/

theorem ref_m1 : val_main_v13 (F := Ideal) x0 x3 = m1K x0 x3 := by
  rw [ref_mat1, ref_w1]; rfl
theorem ref_h1 : val_main_v63 (F := Ideal) x0 x1 x3 x4 x5 x6 x7 = h1K x0 x1 x3 x4 x5 x6 x7 := by
  rw [ref_gru1, ref_agg1, ref_m1, ref_wi1, ref_wh1]; rfl
theorem ref_m2 : val_main_v66 (F := Ideal) x0 x1 x3 x4 x5 x6 x7 = m2K x0 x1 x3 x4 x5 x6 x7 := by
  rw [ref_mat2, ref_h1, ref_w2]; rfl
theorem ref_h2 : val_main_v117 (F := Ideal) x0 x1 x3 x4 x5 x6 x7 = h2K x0 x1 x3 x4 x5 x6 x7 := by
  rw [ref_gru2, ref_agg2, ref_m2, ref_h1, ref_wi2, ref_wh2]; rfl
theorem ref_out : val_main_v135 (F := Ideal) x0 x1 x2 x3 x4 x5 x6 x7 x8 x9 = outK x0 x1 x2 x3 x4 x5 x6 x7 x8 x9 := by
  rw [ref_final, ref_pool, ref_h2, ref_fc]; rfl

end Cert.Graph

end
-- ==== Proof.lean ====
/-
  The proof of `Cert.Claim` for the two-layer gated graph network.

  The three frames: the two kernel programs' are the generated frame certificates; the reference's is its run with the
  result dropped. `preserves`: the idealization rewrote no operation, so there is nothing to state. `algebraic`: on the
  extended reals both programs end, from memories agreeing on the ten arguments, with the result array at `outK` of the
  arguments — the kernel program because its five regions leave the specification's dense stages (`matT`, `gru`, `matT`,
  `gruRelu`, `final`: the array lemmas) among host stretches that aggregate and pool (`Fold`: the buffer contents read
  back to the arguments; `KRun`: the run with the result named); the reference because its straight line applies the
  same host operations to the same dense stages (`RefChain` over the reference's run read one operation at a time).
  The dense stages agree for plain reasons: a matrix product into a zero accumulator and the host's `dot_general` are the
  same finite sum; the sigmoid is `1 / (1 + e⁻ˣ)` on both sides; a change of float format is the identity; a row of a
  dense stage depends on the same row of its row-indexed inputs only, so the blocks of rows the kernel works on tile the
  whole-array function. No law of the extended reals that needs finiteness is used, and the precondition is never opened.
-/
import proofs.«135199_j77764677862202_1_alg».proof.Defs
import proofs.«135199_j77764677862202_1_alg».proof.Proof.Gen.Kernel
import proofs.«135199_j77764677862202_1_alg».proof.Proof.Gen.Kernel.Frame
import proofs.«135199_j77764677862202_1_alg».proof.Proof.Gen.KernelIdeal
import proofs.«135199_j77764677862202_1_alg».proof.Proof.Gen.KernelIdeal.Frame
import proofs.«135199_j77764677862202_1_alg».proof.Proof.Gen.ReferenceIdeal
import proofs.«135199_j77764677862202_1_alg».proof.Proof.Gen.Pre_finite_inputs
import proofs.«135199_j77764677862202_1_alg».proof.Proof.RefRun
import proofs.«135199_j77764677862202_1_alg».proof.Proof.RefRead
import proofs.«135199_j77764677862202_1_alg».proof.Proof.KRun
import proofs.«135199_j77764677862202_1_alg».proof.Proof.KVal
import proofs.«135199_j77764677862202_1_alg».proof.Proof.Fold
import proofs.«135199_j77764677862202_1_alg».proof.Proof.RefChain
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the result array at `outK` of the arguments. -/
theorem algebraic : Cert.algebraic_KernelIdeal_ReferenceIdeal := by
  intro m ρ m' ρ' _ hagree
  refine ⟨fun c => Cert.Graph.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun _ h c => ⟨(h c).1.trans (Cert.Graph.W10_v58 m ρ c), (h c).2⟩)
      (Cert.KernelIdeal.RunV.run (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7, e8, e9⟩ := hagree c
    rw [Cert.ReferenceIdeal.ReadP.val_main_v135_eq, e0, e1, e2, e3, e4, e5, e6, e7, e8, e9]
    exact Cert.Graph.ref_out _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
